-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S512x1024 : Shape := ⟨2, ![512, 1024]⟩
abbrev S1x1024 : Shape := ⟨2, ![1, 1024]⟩
abbrev S1x1024x1024 : Shape := ⟨3, ![1, 1024, 1024]⟩
abbrev S1024x1 : Shape := ⟨2, ![1024, 1]⟩

abbrev nBuf : Space → Nat
  | .hbm => 24
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S16384x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S16384x1024, .bf16⟩
  | .hbm, ⟨15, _⟩ => ⟨S16384x1024, .bf16⟩
  | .hbm, ⟨16, _⟩ => ⟨S16384x1024, .bf16⟩
  | .hbm, ⟨17, _⟩ => ⟨S8x2048x1024, .bf16⟩
  | .hbm, ⟨18, _⟩ => ⟨S8x2048x1024, .bf16⟩
  | .hbm, ⟨19, _⟩ => ⟨S8x2048x1024, .bf16⟩
  | .hbm, ⟨20, _⟩ => ⟨S8x2048x1024, .bf16⟩
  | .hbm, ⟨21, _⟩ => ⟨S16384x1024, .bf16⟩
  | .hbm, ⟨22, _⟩ => ⟨S16384x1024, .f32⟩
  | .hbm, ⟨23, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024, .f32⟩
  | .local _ .vmem, ⟨29, _⟩ => ⟨S1024x1024, .f32⟩
  | .local _ .vmem, ⟨30, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![8, 2, 2], ![false, false, false]⟩

def k1_cond2 (i : grid1.Coords) : BitVec 1 :=
  let arg2 : BitVec 32 := BitVec.ofNat 32 (i 2).val
  let c1_i32 : BitVec 32 := 1#32
  let v42 : BitVec 1 := Scalar.cmpi .eq arg2 c1_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x2048x1024_S16384x1024 : S8x2048x1024.ShapeCasts S16384x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  broadcasts_S1x1024_S1024x1024 : S1x1024.Broadcasts S1024x1024
  dot_S512x1024_S1024x1024_S512x1024_1_0_0_1_n_n_wf : DotDims.WF S512x1024 S1024x1024 S512x1024 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .bf16 = 32 ∨ (Rect.block (s := S16384x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S16384x1024.size a
  hwx0_8 : ∀ i : grid0.Coords, EltTy.bits .bf16 = 32 ∨ (Rect.block (s := S16384x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S16384x1024.size a
  hwx0_9 : ∀ i : grid0.Coords, EltTy.bits .bf16 = 32 ∨ (Rect.block (s := S16384x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .bf16 = 32 ∨ (Rect.block (s := S8x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x2048x1024.size a
  hwx1_1 : ∀ i : grid1.Coords, EltTy.bits .bf16 = 32 ∨ (Rect.block (s := S8x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x2048x1024.size a
  hwx1_2 : ∀ i : grid1.Coords, EltTy.bits .bf16 = 32 ∨ (Rect.block (s := S8x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x1024.size a
  hwx1_3 : ∀ i : grid1.Coords, EltTy.bits .bf16 = 32 ∨ (Rect.block (s := S8x2048x1024) S1x1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .bf16 = 32 ∨ (Rect.block (s := S16384x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S16384x1024.size a
  hwx2_3 : ∀ i : grid2.Coords, EltTy.bits .f32 = 32 ∨ (Rect.block (s := S16384x1024) S1024x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v10) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x1024, .f32⟩
  | .hbm, ⟨43, _⟩ => ⟨S8x2048x1024, .f32⟩
  | .hbm, ⟨44, _⟩ => ⟨S1x1x1024, .f32⟩
  | .hbm, ⟨45, _⟩ => ⟨S8x2048x1024, .f32⟩
  | .hbm, ⟨46, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KFrR0.lean ====
import proofs.«121031_j31636729102987_2_alg».proof.Proof.Gen.Kernel.Launch
import proofs.«121031_j31636729102987_2_alg».proof.Proof.Gen.Kernel.Skeleton
import proofs.«121031_j31636729102987_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The three input projections `x ↦ x · W + b` for `W, b` the query, key and value weights and biases
    (pipeline 0), at the entry contents `V`

Window 0 is a 512-row block of the 16384 × 1024 input; windows 1, 2, 3 are the whole 1024 × 1024 query, key and value
weights, windows 4, 5, 6 the whole biases of 1024 entries; windows 7, 8, 9 are the matching 512-row blocks of the three
16384 × 1024 results. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): an unfetched window's
    block index has not moved, so the buffer still holds the block of the point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): an unfetched window's
    block index has not moved, so the buffer still holds the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): an unfetched window's
    block index has not moved, so the buffer still holds the block of the point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): an unfetched window's
    block index has not moved, so the buffer still holds the block of the point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): an unfetched window's
    block index has not moved, so the buffer still holds the block of the point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): an unfetched window's
    block index has not moved, so the buffer still holds the block of the point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): an unfetched window's
    block index has not moved, so the buffer still holds the block of the point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 × 1024 staging buffer (the input rows' and each result's), -/
abbrev r0_0 : Rect S512x1024 := Rect.unit (s := S512x1024) ![0, 0] S512x1024.size inb_S512x1024_S512x1024_0_0
/-- the whole 1024 × 1024 weight buffer, -/
abbrev r0_1 : Rect S1024x1024 := Rect.unit (s := S1024x1024) ![0, 0] S1024x1024.size inb_S1024x1024_S1024x1024_0_0
/-- and the whole bias buffer of 1024 entries. -/
abbrev r0_2 : Rect S1024 := Rect.unit (s := S1024) ![0] S1024.size inb_S1024_S1024_0

/-! ## What the body leaves in each output window's buffer -/

/-- Window 7's staging buffer after the body, from the input windows' blocks: its one whole-buffer store, whose
    payload is the rounded row block times the query weight plus the query bias broadcast along the rows, rounded. -/
def out0_7 (x0 : Vec F S512x1024 .f32) (x1 : Vec F S1024x1024 .bf16) (x4 : Vec F S1024 .f32) : Vec F S512x1024 .bf16 :=
  View.canon [⟨r0_0, k0_pay2 (View.ld x0 r0_0) (View.ld x1 r0_1) (View.ld x4 r0_2)⟩]

/-- Window 8's: the same with the key weight and bias. -/
def out0_8 (x0 : Vec F S512x1024 .f32) (x2 : Vec F S1024x1024 .bf16) (x5 : Vec F S1024 .f32) : Vec F S512x1024 .bf16 :=
  View.canon [⟨r0_0, k0_pay3 (View.ld x0 r0_0) (View.ld x2 r0_1) (View.ld x5 r0_2)⟩]

/-- Window 9's: the same with the value weight and bias. -/
def out0_9 (x0 : Vec F S512x1024 .f32) (x3 : Vec F S1024x1024 .bf16) (x6 : Vec F S1024 .f32) : Vec F S512x1024 .bf16 :=
  View.canon [⟨r0_0, k0_pay4 (View.ld x0 r0_0) (View.ld x3 r0_1) (View.ld x6 r0_2)⟩]

/-- Each store is of the whole buffer, so it covers it. -/
theorem cover0_7 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y
theorem cover0_8 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y
theorem cover0_9 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg0 : Memref sig .tc .vmem S512x1024 .f32) (harg0 : arg0.IsWhole) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole)
    (x0 : Vec F S512x1024 .f32) (x1 : Vec F S1024x1024 .bf16) (x2 : Vec F S1024x1024 .bf16) (x3 : Vec F S1024x1024 .bf16) (x4 : Vec F S1024 .f32) (x5 : Vec F S1024 .f32) (x6 : Vec F S1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_7 x0 x1 x4) ∗ owns (c : Thread nD τ) arg8 fullShare (out0_8 x0 x2 x5)
            ∗ owns (c : Thread nD τ) arg9 fullShare (out0_9 x0 x3 x6)) -∗ K ⟨⟩))
      ⊢ wp frame (wpE (defs₀ (F := F)) Variants.none c none) E (cc0__qkv_kernel i arg0 harg0 arg1 harg1 arg2 harg2 arg3 harg3 arg4 harg4 arg5 harg5 arg6 harg6 arg7 harg7 arg8 harg8 arg9 harg9) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them (`V`); after the body at point
    `t` each input's buffer at its block and each output's at `out0_W` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 4 t) := by dsimp only [dat0]
theorem after0_8 (c : Dev nD) (t : Fin cfg0.N) :
    (dat0 V c).after 8 t = out0_8 (iblk0 V c 0 t) (iblk0 V c 2 t) (iblk0 V c 5 t) := by dsimp only [dat0]
theorem after0_9 (c : Dev nD) (t : Fin cfg0.N) :
    (dat0 V c).after 9 t = out0_9 (iblk0 V c 0 t) (iblk0 V c 3 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrR1Runs.lean ====
import proofs.«121031_j31636729102987_2_alg».proof.Proof.Gen.Kernel.Launch
import proofs.«121031_j31636729102987_2_alg».proof.Proof.Gen.Kernel.Skeleton
import proofs.«121031_j31636729102987_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the attention kernel, on a grid (batch 8) × (query tile 2) × (key tile 2)

The key-tile coordinate is the innermost one, so a point's position `t` has key tile `t % 2`. At key tile 0
the body first resets its three scratch buffers (running row maximum, running normaliser, running weighted sum);
at every point it folds one key tile into them; at key tile 1 it divides the weighted sum by the normaliser
and stores the result into the output block. So there are two control cases, and the scratch buffers carry
from the even point to the odd point that follows it. -/

/-- The body's first conditional: "the key tile is 0". -/
abbrev cond1_0 (i : grid1.Coords) : Prop := (Scalar.cmpi .ne (Scalar.extui (Scalar.cmpi .eq (BitVec.ofNat 32 (i 2).val) 0#32)) 0#32) = 1#1
/-- It holds at the even positions. -/
theorem hcond1_0 : ∀ t : Fin cfg1.N, cond1_0 (grid1.coords t) ↔ t.val % 2 = 0 :=
  (by decide +kernel : ∀ t : Fin grid1.N, cond1_0 (grid1.coords t) ↔ t.val % 2 = 0)

/-- The body's second conditional: "the key tile is the last one". -/
abbrev cond1_1 (i : grid1.Coords) : Prop := k1_cond2 i = 1#1
/-- It holds at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At key tile 0 nothing is stored into the output block, and the block is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At key tile 1 the output block is stored. -/
theorem liveAt1_3_B : ∀ t : Fin cfg1.N, ¬cond1_0 (grid1.coords t) → cond1_1 (grid1.coords t) → cfg1.idle 3 (grid1.coords t) = false := by decide +kernel

/-! ## The memrefs the body is called with -/

abbrev VO1_3 : View sig .tc .vmem S1x1024x1024 .bf16 := (Memref.whole cc1_stg3_0 : Memref sig .tc .vmem S1x1024x1024 .bf16).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .bf16 := win1_3.stage (cfg1.slots t 3)
abbrev hs1_3 (t : Fin cfg1.N) : (ms1_3 t).IsWhole := hstage1_3 ((cfg1.slots t 3).cast nbuf1_3)
/-- The running row maximum. -/
abbrev scM1_0 : Memref sig .tc .vmem S1024x1 .f32 := Memref.whole cc1_scratch0
/-- The running normaliser. -/
abbrev scM1_1 : Memref sig .tc .vmem S1024x1 .f32 := Memref.whole cc1_scratch1
/-- The running weighted sum of value rows. -/
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- Every other scoped buffer of the core (the other kernels' staging buffers), at some contents: carried unopened. -/
abbrev Rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- What the region hands the body besides the windows: the three scratch buffers at some contents, the other scoped
    buffers unopened, the generator register. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d) ∗ (∃ d, owns (c : Thread nD τ) scM1_2 fullShare d)) ∗ Rest1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole, bigSepL_cons_cons]
  rfl

/-! ## The body's two runs -/

set_option maxHeartbeats 4000000 in
/-- KEY TILE 0. On whole memrefs — the three input blocks at their contents, the output block at contents handed back
    untouched, the scratch buffers at anything — the body runs to the continuation with the inputs as they were and
    each scratch buffer with the pieces the body stored written into it. -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x3 x4 x5 : Vec F S1x1024x1024 .bf16) :
    Σ' (LS7 : List (View.Piece (Elt F) S1024x1 .f32)) (LS8 : List (View.Piece (Elt F) S1024x1 .f32)), { LS9 : List (View.Piece (Elt F) S1024x1024 .f32) //
      ∀ (xi6 : Vec F S1x1024x1024 .bf16) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare xi6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x3 ∗ owns (c : Thread nD τ) arg4 fullShare x4 ∗ owns (c : Thread nD τ) arg5 fullShare x5 ∗ owns (c : Thread nD τ) arg6 fullShare xi6
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi6 E K => ?run⟩
  case run =>
    simp only [cc1__flash_kernel_eq_skeleton]; unfold cc1__flash_kernel_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 4000000 in
/-- KEY TILE 1. The scratch buffers enter at the contents the point before left (`xs7`, `xs8`, `xs9`), the output
    block at anything; the body leaves each with its pieces written. -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x3 x4 x5 : Vec F S1x1024x1024 .bf16) (xs7 xs8 : Vec F S1024x1 .f32) (xs9 : Vec F S1024x1024 .f32) :
    Σ' (L6 : List (View.Piece (Elt F) S1x1024x1024 .bf16)) (LS7 : List (View.Piece (Elt F) S1024x1 .f32)) (LS8 : List (View.Piece (Elt F) S1024x1 .f32)), { LS9 : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d)
            ∗ owns (c : Thread nD τ) arg7 fullShare xs7 ∗ owns (c : Thread nD τ) arg8 fullShare xs8 ∗ owns (c : Thread nD τ) arg9 fullShare xs9
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.Kernel.Fr

end
-- ==== Proof.KFrR1.lean ====
import proofs.«121031_j31636729102987_2_alg».proof.Proof.Gen.Kernel.Launch
import proofs.«121031_j31636729102987_2_alg».proof.Proof.Gen.Kernel.Skeleton
import proofs.«121031_j31636729102987_2_alg».proof.Proof.Gen.Kernel.Points
import proofs.«121031_j31636729102987_2_alg».proof.Proof.KFrR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, continued: what the scratch buffers and the output block hold after each point

`V` is the core's buffer contents when the region is entered. -/

variable (V : (c : Dev nD) → (b : Ref sig .tc) → Buf (Elt F) ((c : Thread nD τ).loc b))

/-- Window `w`'s block at point `t`, read off its array as the region finds it: the query tile (window 0), the key
    tile (window 1), the value tile (window 2) of the point's batch. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A_7 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) (y : S1024x1.Idx) :
    ∃ pc ∈ (kernelRun1_A c i arg3 harg3 arg4 harg4 arg5 harg5 arg6 harg6 arg7 harg7 arg8 harg8 arg9 harg9 hc0 hc1 x3 x4 x5).1, y ∈ pc.1.set :=
  View.cover_of_tiledL (kernelRun1_A c i arg3 harg3 arg4 harg4 arg5 harg5 arg6 harg6 arg7 harg7 arg8 harg8 arg9 harg9 hc0 hc1 x3 x4 x5).1 S1024x1.size (by sl_kernel_rfl) y

def sout1_A_7 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x3 x4 x5).1)

theorem scover1_A_8 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) (y : S1024x1.Idx) :
    ∃ pc ∈ (kernelRun1_A c i arg3 harg3 arg4 harg4 arg5 harg5 arg6 harg6 arg7 harg7 arg8 harg8 arg9 harg9 hc0 hc1 x3 x4 x5).2.1, y ∈ pc.1.set :=
  View.cover_of_tiledL (kernelRun1_A c i arg3 harg3 arg4 harg4 arg5 harg5 arg6 harg6 arg7 harg7 arg8 harg8 arg9 harg9 hc0 hc1 x3 x4 x5).2.1 S1024x1.size (by sl_kernel_rfl) y

def sout1_A_8 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x3 x4 x5).2.1)

theorem scover1_A_9 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) (y : S1024x1024.Idx) :
    ∃ pc ∈ (kernelRun1_A c i arg3 harg3 arg4 harg4 arg5 harg5 arg6 harg6 arg7 harg7 arg8 harg8 arg9 harg9 hc0 hc1 x3 x4 x5).2.2.1, y ∈ pc.1.set :=
  View.cover_of_tiledL (kernelRun1_A c i arg3 harg3 arg4 harg4 arg5 harg5 arg6 harg6 arg7 harg7 arg8 harg8 arg9 harg9 hc0 hc1 x3 x4 x5).2.2.1 S1024x1024.size (by sl_kernel_rfl) y

def sout1_A_9 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x3 x4 x5).2.2.1)

theorem scover1_B_6 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) (y : S1x1024x1024.Idx) :
    ∃ pc ∈ (kernelRun1_B c i arg3 harg3 arg4 harg4 arg5 harg5 arg6 harg6 arg7 harg7 arg8 harg8 arg9 harg9 hc0 hc1 x3 x4 x5 xs7 xs8 xs9).1, y ∈ pc.1.set :=
  View.cover_of_tiledL (kernelRun1_B c i arg3 harg3 arg4 harg4 arg5 harg5 arg6 harg6 arg7 harg7 arg8 harg8 arg9 harg9 hc0 hc1 x3 x4 x5 xs7 xs8 xs9).1 S1x1024x1024.size (by sl_kernel_rfl) y

def sout1_B_6 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) : Vec F S1x1024x1024 .bf16 :=
  VO1_3.read (Elt F) (VO1_3.writes (Elt F) VO1_3.junk (kernelRun1_B c i arg3 harg3 arg4 harg4 arg5 harg5 arg6 harg6 arg7 harg7 arg8 harg8 arg9 harg9 hc0 hc1 x3 x4 x5 xs7 xs8 xs9).1)

theorem scover1_B_7 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) (y : S1024x1.Idx) :
    ∃ pc ∈ (kernelRun1_B c i arg3 harg3 arg4 harg4 arg5 harg5 arg6 harg6 arg7 harg7 arg8 harg8 arg9 harg9 hc0 hc1 x3 x4 x5 xs7 xs8 xs9).2.1, y ∈ pc.1.set :=
  View.cover_of_tiledL (kernelRun1_B c i arg3 harg3 arg4 harg4 arg5 harg5 arg6 harg6 arg7 harg7 arg8 harg8 arg9 harg9 hc0 hc1 x3 x4 x5 xs7 xs8 xs9).2.1 S1024x1.size (by sl_kernel_rfl) y

def sout1_B_7 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x3 x4 x5 xs7 xs8 xs9).2.1)

theorem scover1_B_8 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) (y : S1024x1.Idx) :
    ∃ pc ∈ (kernelRun1_B c i arg3 harg3 arg4 harg4 arg5 harg5 arg6 harg6 arg7 harg7 arg8 harg8 arg9 harg9 hc0 hc1 x3 x4 x5 xs7 xs8 xs9).2.2.1, y ∈ pc.1.set :=
  View.cover_of_tiledL (kernelRun1_B c i arg3 harg3 arg4 harg4 arg5 harg5 arg6 harg6 arg7 harg7 arg8 harg8 arg9 harg9 hc0 hc1 x3 x4 x5 xs7 xs8 xs9).2.2.1 S1024x1.size (by sl_kernel_rfl) y

def sout1_B_8 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x3 x4 x5 xs7 xs8 xs9).2.2.1)

theorem scover1_B_9 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) (y : S1024x1024.Idx) :
    ∃ pc ∈ (kernelRun1_B c i arg3 harg3 arg4 harg4 arg5 harg5 arg6 harg6 arg7 harg7 arg8 harg8 arg9 harg9 hc0 hc1 x3 x4 x5 xs7 xs8 xs9).2.2.2.1, y ∈ pc.1.set :=
  View.cover_of_tiledL (kernelRun1_B c i arg3 harg3 arg4 harg4 arg5 harg5 arg6 harg6 arg7 harg7 arg8 harg8 arg9 harg9 hc0 hc1 x3 x4 x5 xs7 xs8 xs9).2.2.2.1 S1024x1024.size (by sl_kernel_rfl) y

def sout1_B_9 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x3 x4 x5 xs7 xs8 xs9).2.2.2.1)

/-! ## The case of a point, from its position's parity -/

theorem hA0 (t : Fin cfg1.N) (h : t.val % 2 = 0) : cond1_0 (grid1.coords t) := (hcond1_0 t).mpr h
theorem hA1 (t : Fin cfg1.N) (h : t.val % 2 = 0) : ¬cond1_1 (grid1.coords t) := fun h' => by have := (hcond1_1 t).mp h'; omega
theorem hB0 (t : Fin cfg1.N) (h : ¬t.val % 2 = 0) : ¬cond1_0 (grid1.coords t) := fun h' => h ((hcond1_0 t).mp h')
theorem hB1 (t : Fin cfg1.N) (h : ¬t.val % 2 = 0) : cond1_1 (grid1.coords t) := (hcond1_1 t).mpr (by omega)

/-! ## The accumulation -/

/-- What the output block's staging buffer and the three scratch buffers hold after the body at position `n`: at an even
    position the reset-and-fold of that point's tiles (the output's component a placeholder nothing consults: the block is
    neither stored nor written back there); at an odd position the fold of that point's tiles into what the position
    before left, and the quotient stored into the output block. -/
def outsAt1 (c : Dev nD) : (n : ℕ) → n < cfg1.N → Vec F S1x1024x1024 .bf16 × Vec F S1024x1 .f32 × Vec F S1024x1 .f32 × Vec F S1024x1024 .f32
  | 0, hn => (VO1_3.read (Elt F) VO1_3.junk, sout1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA0 ⟨0, hn⟩ (Nat.zero_mod _)) (hA1 ⟨0, hn⟩ (Nat.zero_mod _)) (iblk1 V c 0 ⟨0, hn⟩) (iblk1 V c 1 ⟨0, hn⟩) (iblk1 V c 2 ⟨0, hn⟩), sout1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA0 ⟨0, hn⟩ (Nat.zero_mod _)) (hA1 ⟨0, hn⟩ (Nat.zero_mod _)) (iblk1 V c 0 ⟨0, hn⟩) (iblk1 V c 1 ⟨0, hn⟩) (iblk1 V c 2 ⟨0, hn⟩), sout1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA0 ⟨0, hn⟩ (Nat.zero_mod _)) (hA1 ⟨0, hn⟩ (Nat.zero_mod _)) (iblk1 V c 0 ⟨0, hn⟩) (iblk1 V c 1 ⟨0, hn⟩) (iblk1 V c 2 ⟨0, hn⟩))
  | n + 1, hn =>
    if h0 : (n + 1) % 2 = 0 then
      (VO1_3.read (Elt F) VO1_3.junk, sout1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA0 ⟨n + 1, hn⟩ h0) (hA1 ⟨n + 1, hn⟩ h0) (iblk1 V c 0 ⟨n + 1, hn⟩) (iblk1 V c 1 ⟨n + 1, hn⟩) (iblk1 V c 2 ⟨n + 1, hn⟩), sout1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA0 ⟨n + 1, hn⟩ h0) (hA1 ⟨n + 1, hn⟩ h0) (iblk1 V c 0 ⟨n + 1, hn⟩) (iblk1 V c 1 ⟨n + 1, hn⟩) (iblk1 V c 2 ⟨n + 1, hn⟩), sout1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA0 ⟨n + 1, hn⟩ h0) (hA1 ⟨n + 1, hn⟩ h0) (iblk1 V c 0 ⟨n + 1, hn⟩) (iblk1 V c 1 ⟨n + 1, hn⟩) (iblk1 V c 2 ⟨n + 1, hn⟩))
    else
      (sout1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB0 ⟨n + 1, hn⟩ h0) (hB1 ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB0 ⟨n + 1, hn⟩ h0) (hB1 ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB0 ⟨n + 1, hn⟩ h0) (hB1 ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB0 ⟨n + 1, hn⟩ h0) (hB1 ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 2 = 0) :
    outsAt1 V c t.val t.isLt = (VO1_3.read (Elt F) VO1_3.junk, sout1_A_7 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA0 t h0) (hA1 t h0) (iblk1 V c 0 t) (iblk1 V c 1 t) (iblk1 V c 2 t), sout1_A_8 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA0 t h0) (hA1 t h0) (iblk1 V c 0 t) (iblk1 V c 1 t) (iblk1 V c 2 t), sout1_A_9 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA0 t h0) (hA1 t h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt = (sout1_B_6 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB0 t h0) (hB1 t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_7 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB0 t h0) (hB1 t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_8 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB0 t h0) (hB1 t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_9 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB0 t h0) (hB1 t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region's invariant before position `n`: before the first point what the region hands the body; afterwards the
    three scratch buffers at what the point before left, every other scoped buffer unopened, the generator register. -/
def PhiS (c : Dev nD) : (n : ℕ) → n ≤ cfg1.N → sProp 𝕄
  | 0, _ => Pipeline.ΦA spec1 c
  | n + 1, hn => iprop(((owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Rest1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Rest1 c) ∗ (∃ r, prngReg c r)) := rfl

theorem PhiS_pos (c : Dev nD) (n : ℕ) (h : n ≤ cfg1.N) (hz : n ≠ 0) :
    PhiS V c n h = iprop(((owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ Rest1 c) ∗ (∃ r, prngReg c r)) := by
  cases n with
  | zero => exact absurd rfl hz
  | succ n => rfl

/-! ## The proof data -/

/-- The arrays as the region finds them; after the body each input window's buffer at its block, the output's at the
    accumulation's first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the parity of the position says which case the point
    is in; the invariant hands the body the scratch buffers (at anything before the first point, else at what the point
    before left) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 2 = 0
  · -- key tile 0
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3_A t (hA0 t h0) (hA1 t h0)) (noFlush1_3_A t (hA0 t h0) (hA1 t h0))]
    rw [outsAt1_A V c t h0]
    unfold sout1_A_7 sout1_A_8 sout1_A_9; (try dsimp only)
    by_cases hz : t.val = 0
    · rw [PhiS_castSucc V c t, PhiS_zero V c _ _ hz, PhiA1_eq]
      iintro ⟨⟨⟨⟨HS0, HS1, HS2⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (hA0 t h0) (hA1 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_A_7 c _ _ _ _ _ _ _ _ _ _ _ _ _ _ _ _ _ _ _ _)
            isplitl [HS1]
            · unfold owns; iexists _; isplitr
              swap; · iexact HS1
              ipureintro; exact View.read_writes_of_cover _ _ _ _ _ (scover1_A_8 c _ _ _ _ _ _ _ _ _ _ _ _ _ _ _ _ _ _ _ _)
            unfold owns; iexists _; isplitr
            swap; · iexact HS2
            ipureintro; exact View.read_writes_of_cover _ _ _ _ _ (scover1_A_9 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨⟨HS0, HS1, HS2⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (hA0 t h0) (hA1 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_A_7 c _ _ _ _ _ _ _ _ _ _ _ _ _ _ _ _ _ _ _ _)
            isplitl [HS1]
            · unfold owns; iexists _; isplitr
              swap; · iexact HS1
              ipureintro; exact View.read_writes_of_cover _ _ _ _ _ (scover1_A_8 c _ _ _ _ _ _ _ _ _ _ _ _ _ _ _ _ _ _ _ _)
            unfold owns; iexists _; isplitr
            swap; · iexact HS2
            ipureintro; exact View.read_writes_of_cover _ _ _ _ _ (scover1_A_9 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · -- key tile 1
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3_B t (hB0 t h0) (hB1 t h0)], after1_3]
    rw [outsAt1_B V c t h0]
    unfold sout1_B_6 sout1_B_7 sout1_B_8 sout1_B_9; (try dsimp only)
    have hz : t.val ≠ 0 := by omega
    rw [PhiS_castSucc V c t, PhiS_pos V c _ _ hz]
    iintro ⟨⟨⟨⟨HS0, HS1, HS2⟩, Hrest⟩, Hg⟩, Ho, ⟨%d0, H0⟩, ⟨%d1, H1⟩, ⟨%d2, H2⟩, ⟨%d3, H3⟩⟩
    iapply ((kernelRun1_B c (grid1.coords t) _ _ _ _ _ _ _ _ _ _ _ _ _ _ (hB0 t h0) (hB1 t h0) (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scover1_B_7 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_8 c _ _ _ _ _ _ _ _ _ _ _ _ _ _ _ _ _ _ _ _ _ _ _)
          unfold owns; iexists _; isplitr
          swap; · iexact HS2
          ipureintro; exact View.read_writes_of_cover _ _ _ _ _ (scover1_B_9 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (scover1_B_6 c _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region hands the body is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives it back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.Kernel.Fr

end
-- ==== Proof.KFrR2.lean ====
import proofs.«121031_j31636729102987_2_alg».proof.Proof.Gen.Kernel.Launch
import proofs.«121031_j31636729102987_2_alg».proof.Proof.Gen.Kernel.Skeleton
import proofs.«121031_j31636729102987_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The output projection `x ↦ x · Wo + bo` (pipeline 2), at the entry contents `V`

Window 0 is a 1024-row block of the 16384 × 1024 attention output, window 1 the whole 1024 × 1024 weight, window 2
the whole bias of 1024 entries; window 3 is the matching 1024-row block of the 16384 × 1024 result. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): an unfetched window's
    block index has not moved, so the buffer still holds the block of the point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): an unfetched window's
    block index has not moved, so the buffer still holds the block of the point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): an unfetched window's
    block index has not moved, so the buffer still holds the block of the point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024 × 1024 staging buffer, -/
abbrev r2_0 : Rect S1024x1024 := Rect.unit (s := S1024x1024) ![0, 0] S1024x1024.size inb_S1024x1024_S1024x1024_0_0
/-- and the whole bias buffer of 1024 entries. -/
abbrev r2_1 : Rect S1024 := Rect.unit (s := S1024) ![0] S1024.size inb_S1024_S1024_0

/-! ## What the body leaves in the output window's buffer -/

/-- Window 3's staging buffer after the body, from the input windows' blocks: its one whole-buffer store, whose
    payload is the row block times the weight plus the bias broadcast along the rows. -/
def out2_3 (x0 : Vec F S1024x1024 .bf16) (x1 : Vec F S1024x1024 .bf16) (x2 : Vec F S1024 .f32) : Vec F S1024x1024 .f32 :=
  View.canon [⟨r2_0, k2_pay1 (View.ld x0 r2_0) (View.ld x1 r2_0) (View.ld x2 r2_1)⟩]

/-- The store is of the whole buffer, so it covers it. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords) (arg0 : Memref sig .tc .vmem S1024x1024 .bf16) (harg0 : arg0.IsWhole) (arg1 : Memref sig .tc .vmem S1024x1024 .bf16) (harg1 : arg1.IsWhole)
    (arg2 : Memref sig .tc .vmem S1024 .f32) (harg2 : arg2.IsWhole) (arg3 : Memref sig .tc .vmem S1024x1024 .f32) (harg3 : arg3.IsWhole)
    (x0 : Vec F S1024x1024 .bf16) (x1 : Vec F S1024x1024 .bf16) (x2 : Vec F S1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KFrRun.lean ====
import proofs.«121031_j31636729102987_2_alg».proof.Proof.Gen.Kernel.Launch
import proofs.«121031_j31636729102987_2_alg».proof.Proof.Gen.Kernel.Skeleton
import proofs.«121031_j31636729102987_2_alg».proof.Proof.Gen.Kernel.Points
import proofs.«121031_j31636729102987_2_alg».proof.Proof.Gen.Kernel.Regions
import proofs.«121031_j31636729102987_2_alg».proof.Proof.KFrR0
import proofs.«121031_j31636729102987_2_alg».proof.Proof.KFrR1
import proofs.«121031_j31636729102987_2_alg».proof.Proof.KFrR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: host operations, the projection kernel, reshapes, the attention kernel, a reshape, the output
projection kernel, a reshape — as seven segments, each entered from the buffer contents the one before it left. -/

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host operations `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (b : Ref sig .tc) (hb : b ∉ (hostOps0_W : List (Ref sig .tc))) :
    W1 m ρ c (Proc.devRef .tc b) = W0 m ρ c (Proc.devRef .tc b) :=
  StableHlo.after_of_writes_sub hostOps0 _ hostOps0_writes hb

/-- After region 0: its arrays at what the pipeline leaves (an input as entered, an output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer region 0 does not write back keeps its contents through it: an input window's array by the pipeline's
    own account, any other buffer because the region does not touch it. -/
theorem W2_keep (c : Dev nD) (b : Ref sig .tc) (hb : b ∉ ([main_v5_0, main_v5_1, main_v5_2] : List (Ref sig .tc))) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      revert hb; fin_cases w <;> first | (intro _; rfl) | (intro hb; exact absurd (by decide) hb)
    exact (W2_arr m ρ c w).trans (((dat0 (V1 m ρ) c).arrAt_in w hin _).trans (A_eq0 (V1 m ρ) c w))
  · exact W2_of_ne m ρ c b fun w e => h ⟨w, e⟩

/-- After the host operations `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_keep (c : Dev nD) (b : Ref sig .tc) (hb : b ∉ (hostOps1_W : List (Ref sig .tc))) :
    W3 m ρ c (Proc.devRef .tc b) = W2 m ρ c (Proc.devRef .tc b) :=
  StableHlo.after_of_writes_sub hostOps1 _ hostOps1_writes hb

/-- After region 1: its arrays at what the pipeline leaves (an input as entered, an output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer region 1 does not write back keeps its contents through it: an input window's array by the pipeline's
    own account, any other buffer because the region does not touch it. -/
theorem W4_keep (c : Dev nD) (b : Ref sig .tc) (hb : b ∉ ([main_v9] : List (Ref sig .tc))) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      revert hb; fin_cases w <;> first | (intro _; rfl) | (intro hb; exact absurd (by decide) hb)
    exact (W4_arr m ρ c w).trans (((dat1 (V3 m ρ) c).arrAt_in w hin _).trans (A_eq1 (V3 m ρ) c w))
  · exact W4_of_ne m ρ c b fun w e => h ⟨w, e⟩

/-- After the host operations `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_keep (c : Dev nD) (b : Ref sig .tc) (hb : b ∉ (hostOps2_W : List (Ref sig .tc))) :
    W5 m ρ c (Proc.devRef .tc b) = W4 m ρ c (Proc.devRef .tc b) :=
  StableHlo.after_of_writes_sub hostOps2 _ hostOps2_writes hb

/-- After region 2: its arrays at what the pipeline leaves (an input as entered, an output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer region 2 does not write back keeps its contents through it: an input window's array by the pipeline's
    own account, any other buffer because the region does not touch it. -/
theorem W6_keep (c : Dev nD) (b : Ref sig .tc) (hb : b ∉ ([main_v11] : List (Ref sig .tc))) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      revert hb; fin_cases w <;> first | (intro _; rfl) | (intro hb; exact absurd (by decide) hb)
    exact (W6_arr m ρ c w).trans (((dat2 (V5 m ρ) c).arrAt_in w hin _).trans (A_eq2 (V5 m ρ) c w))
  · exact W6_of_ne m ρ c b fun w e => h ⟨w, e⟩

/-- After the host operations `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_keep (c : Dev nD) (b : Ref sig .tc) (hb : b ∉ (hostOps3_W : List (Ref sig .tc))) :
    W7 m ρ c (Proc.devRef .tc b) = W6 m ρ c (Proc.devRef .tc b) :=
  StableHlo.after_of_writes_sub hostOps3 _ hostOps3_writes hb

/-- A buffer nothing writes ends as launched: no host operation writes it and no region writes it back. -/
theorem W7_launch (c : Dev nD) (b : Ref sig .tc) (hb : b ∉ ([main_v0, main_v1, main_v2, main_v3, main_v4, main_v5_0, main_v5_1, main_v5_2, main_v6, main_v7, main_v8, main_v9, main_v10, main_v11, main_v12] : List (Ref sig .tc))) :
    W7 m ρ c (Proc.devRef .tc b) = m ((c : Thread nD τ).loc b) :=
  calc W7 m ρ c (Proc.devRef .tc b)
    _ = W6 m ρ c (Proc.devRef .tc b) := W7_keep m ρ c b (fun h => hb (by revert h; simp only [hostOps3_W, List.mem_cons, List.mem_nil_iff, or_false]; rintro rfl; decide))
    _ = W5 m ρ c (Proc.devRef .tc b) := W6_keep m ρ c b (fun h => hb (by revert h; simp only [List.mem_cons, List.mem_nil_iff, or_false]; rintro rfl; decide))
    _ = W4 m ρ c (Proc.devRef .tc b) := W5_keep m ρ c b (fun h => hb (by revert h; simp only [hostOps2_W, List.mem_cons, List.mem_nil_iff, or_false]; rintro rfl; decide))
    _ = W3 m ρ c (Proc.devRef .tc b) := W4_keep m ρ c b (fun h => hb (by revert h; simp only [List.mem_cons, List.mem_nil_iff, or_false]; rintro rfl; decide))
    _ = W2 m ρ c (Proc.devRef .tc b) := W3_keep m ρ c b (fun h => hb (by revert h; simp only [hostOps1_W, List.mem_cons, List.mem_nil_iff, or_false]; rintro (rfl | rfl | rfl) <;> decide))
    _ = W1 m ρ c (Proc.devRef .tc b) := W2_keep m ρ c b (fun h => hb (by revert h; simp only [List.mem_cons, List.mem_nil_iff, or_false]; rintro (rfl | rfl | rfl) <;> decide))
    _ = W0 m ρ c (Proc.devRef .tc b) := W1_keep m ρ c b (fun h => hb (by revert h; simp only [hostOps0_W, List.mem_cons, List.mem_nil_iff, or_false]; rintro (rfl | rfl | rfl | rfl | rfl) <;> decide))
    _ = m ((c : Thread nD τ).loc b) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at their exit contents; the
    generator register goes into the region's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at their exit contents; the
    generator register goes into the region's invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    have h1 := hout1 (V3 m ρ) c
    unfold Pipeline.ΦA at h1
    iintro Hphi
    ihave H := h1 $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at their exit contents; the
    generator register goes into the region's invariant and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents. -/
theorem main_vals : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W7_launch m ρ c main_arg0 (by decide)),
    (h c _ (mem_uc main_arg1 (by decide))).trans (W7_launch m ρ c main_arg1 (by decide)),
    (h c _ (mem_uc main_arg2 (by decide))).trans (W7_launch m ρ c main_arg2 (by decide)),
    (h c _ (mem_uc main_arg3 (by decide))).trans (W7_launch m ρ c main_arg3 (by decide)),
    (h c _ (mem_uc main_arg4 (by decide))).trans (W7_launch m ρ c main_arg4 (by decide)),
    (h c _ (mem_uc main_arg5 (by decide))).trans (W7_launch m ρ c main_arg5 (by decide)),
    (h c _ (mem_uc main_arg6 (by decide))).trans (W7_launch m ρ c main_arg6 (by decide)),
    (h c _ (mem_uc main_arg7 (by decide))).trans (W7_launch m ρ c main_arg7 (by decide)),
    (h c _ (mem_uc main_arg8 (by decide))).trans (W7_launch m ρ c main_arg8 (by decide))⟩) (main_vals m ρ)

end Cert.Kernel.Fr

end
-- ==== Proof.FrR0.lean ====
import proofs.«121031_j31636729102987_2_alg».proof.Proof.Gen.KernelIdeal.Launch
import proofs.«121031_j31636729102987_2_alg».proof.Proof.Gen.KernelIdeal.Skeleton
import proofs.«121031_j31636729102987_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The three input projections `x ↦ x · W + b` for `W, b` the query, key and value weights and biases
    (pipeline 0), at the entry contents `V`

Window 0 is a 512-row block of the 16384 × 1024 input; windows 1, 2, 3 are the whole 1024 × 1024 query, key and value
weights, windows 4, 5, 6 the whole biases of 1024 entries; windows 7, 8, 9 are the matching 512-row blocks of the three
16384 × 1024 results. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): an unfetched window's
    block index has not moved, so the buffer still holds the block of the point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): an unfetched window's
    block index has not moved, so the buffer still holds the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): an unfetched window's
    block index has not moved, so the buffer still holds the block of the point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): an unfetched window's
    block index has not moved, so the buffer still holds the block of the point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): an unfetched window's
    block index has not moved, so the buffer still holds the block of the point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): an unfetched window's
    block index has not moved, so the buffer still holds the block of the point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): an unfetched window's
    block index has not moved, so the buffer still holds the block of the point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 × 1024 staging buffer (the input rows' and each result's), -/
abbrev r0_0 : Rect S512x1024 := Rect.unit (s := S512x1024) ![0, 0] S512x1024.size inb_S512x1024_S512x1024_0_0
/-- the whole 1024 × 1024 weight buffer, -/
abbrev r0_1 : Rect S1024x1024 := Rect.unit (s := S1024x1024) ![0, 0] S1024x1024.size inb_S1024x1024_S1024x1024_0_0
/-- and the whole bias buffer of 1024 entries. -/
abbrev r0_2 : Rect S1024 := Rect.unit (s := S1024) ![0] S1024.size inb_S1024_S1024_0

/-! ## What the body leaves in each output window's buffer -/

/-- Window 7's staging buffer after the body, from the input windows' blocks: its one whole-buffer store, whose
    payload is the rounded row block times the query weight plus the query bias broadcast along the rows, rounded. -/
def out0_7 (x0 : Vec F S512x1024 .f32) (x1 : Vec F S1024x1024 .bf16) (x4 : Vec F S1024 .f32) : Vec F S512x1024 .bf16 :=
  View.canon [⟨r0_0, k0_pay2 (View.ld x0 r0_0) (View.ld x1 r0_1) (View.ld x4 r0_2)⟩]

/-- Window 8's: the same with the key weight and bias. -/
def out0_8 (x0 : Vec F S512x1024 .f32) (x2 : Vec F S1024x1024 .bf16) (x5 : Vec F S1024 .f32) : Vec F S512x1024 .bf16 :=
  View.canon [⟨r0_0, k0_pay3 (View.ld x0 r0_0) (View.ld x2 r0_1) (View.ld x5 r0_2)⟩]

/-- Window 9's: the same with the value weight and bias. -/
def out0_9 (x0 : Vec F S512x1024 .f32) (x3 : Vec F S1024x1024 .bf16) (x6 : Vec F S1024 .f32) : Vec F S512x1024 .bf16 :=
  View.canon [⟨r0_0, k0_pay4 (View.ld x0 r0_0) (View.ld x3 r0_1) (View.ld x6 r0_2)⟩]

/-- Each store is of the whole buffer, so it covers it. -/
theorem cover0_7 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y
theorem cover0_8 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y
theorem cover0_9 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords) (arg0 : Memref sig .tc .vmem S512x1024 .f32) (harg0 : arg0.IsWhole) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole)
    (x0 : Vec F S512x1024 .f32) (x1 : Vec F S1024x1024 .bf16) (x2 : Vec F S1024x1024 .bf16) (x3 : Vec F S1024x1024 .bf16) (x4 : Vec F S1024 .f32) (x5 : Vec F S1024 .f32) (x6 : Vec F S1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_7 x0 x1 x4) ∗ owns (c : Thread nD τ) arg8 fullShare (out0_8 x0 x2 x5)
            ∗ owns (c : Thread nD τ) arg9 fullShare (out0_9 x0 x3 x6)) -∗ K ⟨⟩))
      ⊢ wp frame (wpE (defs₀ (F := F)) Variants.none c none) E (cc0__qkv_kernel i arg0 harg0 arg1 harg1 arg2 harg2 arg3 harg3 arg4 harg4 arg5 harg5 arg6 harg6 arg7 harg7 arg8 harg8 arg9 harg9) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them (`V`); after the body at point
    `t` each input's buffer at its block and each output's at `out0_W` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) :
    (dat0 V c).after 7 t = out0_7 (iblk0 V c 0 t) (iblk0 V c 1 t) (iblk0 V c 4 t) := by dsimp only [dat0]
theorem after0_8 (c : Dev nD) (t : Fin cfg0.N) :
    (dat0 V c).after 8 t = out0_8 (iblk0 V c 0 t) (iblk0 V c 2 t) (iblk0 V c 5 t) := by dsimp only [dat0]
theorem after0_9 (c : Dev nD) (t : Fin cfg0.N) :
    (dat0 V c).after 9 t = out0_9 (iblk0 V c 0 t) (iblk0 V c 3 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrR1Runs.lean ====
import proofs.«121031_j31636729102987_2_alg».proof.Proof.Gen.KernelIdeal.Launch
import proofs.«121031_j31636729102987_2_alg».proof.Proof.Gen.KernelIdeal.Skeleton
import proofs.«121031_j31636729102987_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the attention kernel, on a grid (batch 8) × (query tile 2) × (key tile 2)

The key-tile coordinate is the innermost one, so a point's position `t` has key tile `t % 2`. At key tile 0
the body first resets its three scratch buffers (running row maximum, running normaliser, running weighted sum);
at every point it folds one key tile into them; at key tile 1 it divides the weighted sum by the normaliser
and stores the result into the output block. So there are two control cases, and the scratch buffers carry
from the even point to the odd point that follows it. -/

/-- The body's first conditional: "the key tile is 0". -/
abbrev cond1_0 (i : grid1.Coords) : Prop := (Scalar.cmpi .ne (Scalar.extui (Scalar.cmpi .eq (BitVec.ofNat 32 (i 2).val) 0#32)) 0#32) = 1#1
/-- It holds at the even positions. -/
theorem hcond1_0 : ∀ t : Fin cfg1.N, cond1_0 (grid1.coords t) ↔ t.val % 2 = 0 :=
  (by decide +kernel : ∀ t : Fin grid1.N, cond1_0 (grid1.coords t) ↔ t.val % 2 = 0)

/-- The body's second conditional: "the key tile is the last one". -/
abbrev cond1_1 (i : grid1.Coords) : Prop := k1_cond2 i = 1#1
/-- It holds at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At key tile 0 nothing is stored into the output block, and the block is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At key tile 1 the output block is stored. -/
theorem liveAt1_3_B : ∀ t : Fin cfg1.N, ¬cond1_0 (grid1.coords t) → cond1_1 (grid1.coords t) → cfg1.idle 3 (grid1.coords t) = false := by decide +kernel

/-! ## The memrefs the body is called with -/

abbrev VO1_3 : View sig .tc .vmem S1x1024x1024 .bf16 := (Memref.whole cc1_stg3_0 : Memref sig .tc .vmem S1x1024x1024 .bf16).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .bf16 := win1_3.stage (cfg1.slots t 3)
abbrev hs1_3 (t : Fin cfg1.N) : (ms1_3 t).IsWhole := hstage1_3 ((cfg1.slots t 3).cast nbuf1_3)
/-- The running row maximum. -/
abbrev scM1_0 : Memref sig .tc .vmem S1024x1 .f32 := Memref.whole cc1_scratch0
/-- The running normaliser. -/
abbrev scM1_1 : Memref sig .tc .vmem S1024x1 .f32 := Memref.whole cc1_scratch1
/-- The running weighted sum of value rows. -/
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- Every other scoped buffer of the core (the other kernels' staging buffers), at some contents: carried unopened. -/
abbrev Rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- What the region hands the body besides the windows: the three scratch buffers at some contents, the other scoped
    buffers unopened, the generator register. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d) ∗ (∃ d, owns (c : Thread nD τ) scM1_2 fullShare d)) ∗ Rest1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole, bigSepL_cons_cons]
  rfl

/-! ## The body's two runs -/

set_option maxHeartbeats 4000000 in
/-- KEY TILE 0. On whole memrefs — the three input blocks at their contents, the output block at contents handed back
    untouched, the scratch buffers at anything — the body runs to the continuation with the inputs as they were and
    each scratch buffer with the pieces the body stored written into it. -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x3 x4 x5 : Vec F S1x1024x1024 .bf16) :
    Σ' (LS7 : List (View.Piece (Elt F) S1024x1 .f32)) (LS8 : List (View.Piece (Elt F) S1024x1 .f32)), { LS9 : List (View.Piece (Elt F) S1024x1024 .f32) //
      ∀ (xi6 : Vec F S1x1024x1024 .bf16) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare xi6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x3 ∗ owns (c : Thread nD τ) arg4 fullShare x4 ∗ owns (c : Thread nD τ) arg5 fullShare x5 ∗ owns (c : Thread nD τ) arg6 fullShare xi6
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi6 E K => ?run⟩
  case run =>
    simp only [cc1__flash_kernel_eq_skeleton]; unfold cc1__flash_kernel_skel
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5; obtain rfl := harg6.eq_unread hf6
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

set_option maxHeartbeats 4000000 in
/-- KEY TILE 1. The scratch buffers enter at the contents the point before left (`xs7`, `xs8`, `xs9`), the output
    block at anything; the body leaves each with its pieces written. -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x3 x4 x5 : Vec F S1x1024x1024 .bf16) (xs7 xs8 : Vec F S1024x1 .f32) (xs9 : Vec F S1024x1024 .f32) :
    Σ' (L6 : List (View.Piece (Elt F) S1x1024x1024 .bf16)) (LS7 : List (View.Piece (Elt F) S1024x1 .f32)) (LS8 : List (View.Piece (Elt F) S1024x1 .f32)), { LS9 : List (View.Piece (Elt F) S1024x1024 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ (∃ d, owns (c : Thread nD τ) arg6 fullShare d)
            ∗ owns (c : Thread nD τ) arg7 fullShare xs7 ∗ owns (c : Thread nD τ) arg8 fullShare xs8 ∗ owns (c : Thread nD τ) arg9 fullShare xs9
            ∗ (iprop(owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS7) ∗ (∃ f, arg8.view.loc (c : Thread nD τ) ↦[arg8.view.set]{fullShare} arg8.view.writes (Elt F) f LS8) ∗ (∃ f, arg9.view.loc (c : Thread nD τ) ↦[arg9.view.set]{fullShare} arg9.view.writes (Elt F) f LS9)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.KernelIdeal.Fr

end
-- ==== Proof.FrR1.lean ====
import proofs.«121031_j31636729102987_2_alg».proof.Proof.Gen.KernelIdeal.Launch
import proofs.«121031_j31636729102987_2_alg».proof.Proof.Gen.KernelIdeal.Skeleton
import proofs.«121031_j31636729102987_2_alg».proof.Proof.Gen.KernelIdeal.Points
import proofs.«121031_j31636729102987_2_alg».proof.Proof.FrR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1, continued: what the scratch buffers and the output block hold after each point

`V` is the core's buffer contents when the region is entered. -/

variable (V : (c : Dev nD) → (b : Ref sig .tc) → Buf (Elt F) ((c : Thread nD τ).loc b))

/-- Window `w`'s block at point `t`, read off its array as the region finds it: the query tile (window 0), the key
    tile (window 1), the value tile (window 2) of the point's batch. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

theorem scover1_A_7 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) (y : S1024x1.Idx) :
    ∃ pc ∈ (kernelRun1_A c i arg3 harg3 arg4 harg4 arg5 harg5 arg6 harg6 arg7 harg7 arg8 harg8 arg9 harg9 hc0 hc1 x3 x4 x5).1, y ∈ pc.1.set :=
  View.cover_of_tiledL (kernelRun1_A c i arg3 harg3 arg4 harg4 arg5 harg5 arg6 harg6 arg7 harg7 arg8 harg8 arg9 harg9 hc0 hc1 x3 x4 x5).1 S1024x1.size (by sl_kernel_rfl) y

def sout1_A_7 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x3 x4 x5).1)

theorem scover1_A_8 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) (y : S1024x1.Idx) :
    ∃ pc ∈ (kernelRun1_A c i arg3 harg3 arg4 harg4 arg5 harg5 arg6 harg6 arg7 harg7 arg8 harg8 arg9 harg9 hc0 hc1 x3 x4 x5).2.1, y ∈ pc.1.set :=
  View.cover_of_tiledL (kernelRun1_A c i arg3 harg3 arg4 harg4 arg5 harg5 arg6 harg6 arg7 harg7 arg8 harg8 arg9 harg9 hc0 hc1 x3 x4 x5).2.1 S1024x1.size (by sl_kernel_rfl) y

def sout1_A_8 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x3 x4 x5).2.1)

theorem scover1_A_9 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) (y : S1024x1024.Idx) :
    ∃ pc ∈ (kernelRun1_A c i arg3 harg3 arg4 harg4 arg5 harg5 arg6 harg6 arg7 harg7 arg8 harg8 arg9 harg9 hc0 hc1 x3 x4 x5).2.2.1, y ∈ pc.1.set :=
  View.cover_of_tiledL (kernelRun1_A c i arg3 harg3 arg4 harg4 arg5 harg5 arg6 harg6 arg7 harg7 arg8 harg8 arg9 harg9 hc0 hc1 x3 x4 x5).2.2.1 S1024x1024.size (by sl_kernel_rfl) y

def sout1_A_9 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x3 x4 x5).2.2.1)

theorem scover1_B_6 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) (y : S1x1024x1024.Idx) :
    ∃ pc ∈ (kernelRun1_B c i arg3 harg3 arg4 harg4 arg5 harg5 arg6 harg6 arg7 harg7 arg8 harg8 arg9 harg9 hc0 hc1 x3 x4 x5 xs7 xs8 xs9).1, y ∈ pc.1.set :=
  View.cover_of_tiledL (kernelRun1_B c i arg3 harg3 arg4 harg4 arg5 harg5 arg6 harg6 arg7 harg7 arg8 harg8 arg9 harg9 hc0 hc1 x3 x4 x5 xs7 xs8 xs9).1 S1x1024x1024.size (by sl_kernel_rfl) y

def sout1_B_6 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) : Vec F S1x1024x1024 .bf16 :=
  VO1_3.read (Elt F) (VO1_3.writes (Elt F) VO1_3.junk (kernelRun1_B c i arg3 harg3 arg4 harg4 arg5 harg5 arg6 harg6 arg7 harg7 arg8 harg8 arg9 harg9 hc0 hc1 x3 x4 x5 xs7 xs8 xs9).1)

theorem scover1_B_7 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) (y : S1024x1.Idx) :
    ∃ pc ∈ (kernelRun1_B c i arg3 harg3 arg4 harg4 arg5 harg5 arg6 harg6 arg7 harg7 arg8 harg8 arg9 harg9 hc0 hc1 x3 x4 x5 xs7 xs8 xs9).2.1, y ∈ pc.1.set :=
  View.cover_of_tiledL (kernelRun1_B c i arg3 harg3 arg4 harg4 arg5 harg5 arg6 harg6 arg7 harg7 arg8 harg8 arg9 harg9 hc0 hc1 x3 x4 x5 xs7 xs8 xs9).2.1 S1024x1.size (by sl_kernel_rfl) y

def sout1_B_7 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x3 x4 x5 xs7 xs8 xs9).2.1)

theorem scover1_B_8 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) (y : S1024x1.Idx) :
    ∃ pc ∈ (kernelRun1_B c i arg3 harg3 arg4 harg4 arg5 harg5 arg6 harg6 arg7 harg7 arg8 harg8 arg9 harg9 hc0 hc1 x3 x4 x5 xs7 xs8 xs9).2.2.1, y ∈ pc.1.set :=
  View.cover_of_tiledL (kernelRun1_B c i arg3 harg3 arg4 harg4 arg5 harg5 arg6 harg6 arg7 harg7 arg8 harg8 arg9 harg9 hc0 hc1 x3 x4 x5 xs7 xs8 xs9).2.2.1 S1024x1.size (by sl_kernel_rfl) y

def sout1_B_8 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x3 x4 x5 xs7 xs8 xs9).2.2.1)

theorem scover1_B_9 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) (y : S1024x1024.Idx) :
    ∃ pc ∈ (kernelRun1_B c i arg3 harg3 arg4 harg4 arg5 harg5 arg6 harg6 arg7 harg7 arg8 harg8 arg9 harg9 hc0 hc1 x3 x4 x5 xs7 xs8 xs9).2.2.2.1, y ∈ pc.1.set :=
  View.cover_of_tiledL (kernelRun1_B c i arg3 harg3 arg4 harg4 arg5 harg5 arg6 harg6 arg7 harg7 arg8 harg8 arg9 harg9 hc0 hc1 x3 x4 x5 xs7 xs8 xs9).2.2.2.1 S1024x1024.size (by sl_kernel_rfl) y

def sout1_B_9 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x3 x4 x5 xs7 xs8 xs9).2.2.2.1)

/-! ## The case of a point, from its position's parity -/

theorem hA0 (t : Fin cfg1.N) (h : t.val % 2 = 0) : cond1_0 (grid1.coords t) := (hcond1_0 t).mpr h
theorem hA1 (t : Fin cfg1.N) (h : t.val % 2 = 0) : ¬cond1_1 (grid1.coords t) := fun h' => by have := (hcond1_1 t).mp h'; omega
theorem hB0 (t : Fin cfg1.N) (h : ¬t.val % 2 = 0) : ¬cond1_0 (grid1.coords t) := fun h' => h ((hcond1_0 t).mp h')
theorem hB1 (t : Fin cfg1.N) (h : ¬t.val % 2 = 0) : cond1_1 (grid1.coords t) := (hcond1_1 t).mpr (by omega)

/-! ## The accumulation -/

/-- What the output block's staging buffer and the three scratch buffers hold after the body at position `n`: at an even
    position the reset-and-fold of that point's tiles (the output's component a placeholder nothing consults: the block is
    neither stored nor written back there); at an odd position the fold of that point's tiles into what the position
    before left, and the quotient stored into the output block. -/
def outsAt1 (c : Dev nD) : (n : ℕ) → n < cfg1.N → Vec F S1x1024x1024 .bf16 × Vec F S1024x1 .f32 × Vec F S1024x1 .f32 × Vec F S1024x1024 .f32
  | 0, hn => (VO1_3.read (Elt F) VO1_3.junk, sout1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA0 ⟨0, hn⟩ (Nat.zero_mod _)) (hA1 ⟨0, hn⟩ (Nat.zero_mod _)) (iblk1 V c 0 ⟨0, hn⟩) (iblk1 V c 1 ⟨0, hn⟩) (iblk1 V c 2 ⟨0, hn⟩), sout1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA0 ⟨0, hn⟩ (Nat.zero_mod _)) (hA1 ⟨0, hn⟩ (Nat.zero_mod _)) (iblk1 V c 0 ⟨0, hn⟩) (iblk1 V c 1 ⟨0, hn⟩) (iblk1 V c 2 ⟨0, hn⟩), sout1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) (hA0 ⟨0, hn⟩ (Nat.zero_mod _)) (hA1 ⟨0, hn⟩ (Nat.zero_mod _)) (iblk1 V c 0 ⟨0, hn⟩) (iblk1 V c 1 ⟨0, hn⟩) (iblk1 V c 2 ⟨0, hn⟩))
  | n + 1, hn =>
    if h0 : (n + 1) % 2 = 0 then
      (VO1_3.read (Elt F) VO1_3.junk, sout1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA0 ⟨n + 1, hn⟩ h0) (hA1 ⟨n + 1, hn⟩ h0) (iblk1 V c 0 ⟨n + 1, hn⟩) (iblk1 V c 1 ⟨n + 1, hn⟩) (iblk1 V c 2 ⟨n + 1, hn⟩), sout1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA0 ⟨n + 1, hn⟩ h0) (hA1 ⟨n + 1, hn⟩ h0) (iblk1 V c 0 ⟨n + 1, hn⟩) (iblk1 V c 1 ⟨n + 1, hn⟩) (iblk1 V c 2 ⟨n + 1, hn⟩), sout1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hA0 ⟨n + 1, hn⟩ h0) (hA1 ⟨n + 1, hn⟩ h0) (iblk1 V c 0 ⟨n + 1, hn⟩) (iblk1 V c 1 ⟨n + 1, hn⟩) (iblk1 V c 2 ⟨n + 1, hn⟩))
    else
      (sout1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB0 ⟨n + 1, hn⟩ h0) (hB1 ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB0 ⟨n + 1, hn⟩ h0) (hB1 ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB0 ⟨n + 1, hn⟩ h0) (hB1 ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (hB0 ⟨n + 1, hn⟩ h0) (hB1 ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 2 = 0) :
    outsAt1 V c t.val t.isLt = (VO1_3.read (Elt F) VO1_3.junk, sout1_A_7 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA0 t h0) (hA1 t h0) (iblk1 V c 0 t) (iblk1 V c 1 t) (iblk1 V c 2 t), sout1_A_8 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA0 t h0) (hA1 t h0) (iblk1 V c 0 t) (iblk1 V c 1 t) (iblk1 V c 2 t), sout1_A_9 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hA0 t h0) (hA1 t h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt = (sout1_B_6 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB0 t h0) (hB1 t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_7 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB0 t h0) (hB1 t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_8 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB0 t h0) (hB1 t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_9 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hB0 t h0) (hB1 t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region's invariant before position `n`: before the first point what the region hands the body; afterwards the
    three scratch buffers at what the point before left, every other scoped buffer unopened, the generator register. -/
def PhiS (c : Dev nD) : (n : ℕ) → n ≤ cfg1.N → sProp 𝕄
  | 0, _ => Pipeline.ΦA spec1 c
  | n + 1, hn => iprop(((owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Rest1 c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ Rest1 c) ∗ (∃ r, prngReg c r)) := rfl

theorem PhiS_pos (c : Dev nD) (n : ℕ) (h : n ≤ cfg1.N) (hz : n ≠ 0) :
    PhiS V c n h = iprop(((owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ Rest1 c) ∗ (∃ r, prngReg c r)) := by
  cases n with
  | zero => exact absurd rfl hz
  | succ n => rfl

/-! ## The proof data -/

/-- The arrays as the region finds them; after the body each input window's buffer at its block, the output's at the
    accumulation's first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the parity of the position says which case the point
    is in; the invariant hands the body the scratch buffers (at anything before the first point, else at what the point
    before left) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  by_cases h0 : t.val % 2 = 0
  · -- key tile 0
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3_A t (hA0 t h0) (hA1 t h0)) (noFlush1_3_A t (hA0 t h0) (hA1 t h0))]
    rw [outsAt1_A V c t h0]
    unfold sout1_A_7 sout1_A_8 sout1_A_9; (try dsimp only)
    by_cases hz : t.val = 0
    · rw [PhiS_castSucc V c t, PhiS_zero V c _ _ hz, PhiA1_eq]
      iintro ⟨⟨⟨⟨HS0, HS1, HS2⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (hA0 t h0) (hA1 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_A_7 c _ _ _ _ _ _ _ _ _ _ _ _ _ _ _ _ _ _ _ _)
            isplitl [HS1]
            · unfold owns; iexists _; isplitr
              swap; · iexact HS1
              ipureintro; exact View.read_writes_of_cover _ _ _ _ _ (scover1_A_8 c _ _ _ _ _ _ _ _ _ _ _ _ _ _ _ _ _ _ _ _)
            unfold owns; iexists _; isplitr
            swap; · iexact HS2
            ipureintro; exact View.read_writes_of_cover _ _ _ _ _ (scover1_A_9 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨⟨HS0, HS1, HS2⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (hA0 t h0) (hA1 t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover1_A_7 c _ _ _ _ _ _ _ _ _ _ _ _ _ _ _ _ _ _ _ _)
            isplitl [HS1]
            · unfold owns; iexists _; isplitr
              swap; · iexact HS1
              ipureintro; exact View.read_writes_of_cover _ _ _ _ _ (scover1_A_8 c _ _ _ _ _ _ _ _ _ _ _ _ _ _ _ _ _ _ _ _)
            unfold owns; iexists _; isplitr
            swap; · iexact HS2
            ipureintro; exact View.read_writes_of_cover _ _ _ _ _ (scover1_A_9 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · -- key tile 1
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3_B t (hB0 t h0) (hB1 t h0)], after1_3]
    rw [outsAt1_B V c t h0]
    unfold sout1_B_6 sout1_B_7 sout1_B_8 sout1_B_9; (try dsimp only)
    have hz : t.val ≠ 0 := by omega
    rw [PhiS_castSucc V c t, PhiS_pos V c _ _ hz]
    iintro ⟨⟨⟨⟨HS0, HS1, HS2⟩, Hrest⟩, Hg⟩, Ho, ⟨%d0, H0⟩, ⟨%d1, H1⟩, ⟨%d2, H2⟩, ⟨%d3, H3⟩⟩
    iapply ((kernelRun1_B c (grid1.coords t) _ _ _ _ _ _ _ _ _ _ _ _ _ _ (hB0 t h0) (hB1 t h0) (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scover1_B_7 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_8 c _ _ _ _ _ _ _ _ _ _ _ _ _ _ _ _ _ _ _ _ _ _ _)
          unfold owns; iexists _; isplitr
          swap; · iexact HS2
          ipureintro; exact View.read_writes_of_cover _ _ _ _ _ (scover1_B_9 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (scover1_B_6 c _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region hands the body is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives it back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Fr

end
-- ==== Proof.FrR2.lean ====
import proofs.«121031_j31636729102987_2_alg».proof.Proof.Gen.KernelIdeal.Launch
import proofs.«121031_j31636729102987_2_alg».proof.Proof.Gen.KernelIdeal.Skeleton
import proofs.«121031_j31636729102987_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The output projection `x ↦ x · Wo + bo` (pipeline 2), at the entry contents `V`

Window 0 is a 1024-row block of the 16384 × 1024 attention output, window 1 the whole 1024 × 1024 weight, window 2
the whole bias of 1024 entries; window 3 is the matching 1024-row block of the 16384 × 1024 result. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): an unfetched window's
    block index has not moved, so the buffer still holds the block of the point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): an unfetched window's
    block index has not moved, so the buffer still holds the block of the point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): an unfetched window's
    block index has not moved, so the buffer still holds the block of the point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 1024 × 1024 staging buffer, -/
abbrev r2_0 : Rect S1024x1024 := Rect.unit (s := S1024x1024) ![0, 0] S1024x1024.size inb_S1024x1024_S1024x1024_0_0
/-- and the whole bias buffer of 1024 entries. -/
abbrev r2_1 : Rect S1024 := Rect.unit (s := S1024) ![0] S1024.size inb_S1024_S1024_0

/-! ## What the body leaves in the output window's buffer -/

/-- Window 3's staging buffer after the body, from the input windows' blocks: its one whole-buffer store, whose
    payload is the row block times the weight plus the bias broadcast along the rows. -/
def out2_3 (x0 : Vec F S1024x1024 .bf16) (x1 : Vec F S1024x1024 .bf16) (x2 : Vec F S1024 .f32) : Vec F S1024x1024 .f32 :=
  View.canon [⟨r2_0, k2_pay1 (View.ld x0 r2_0) (View.ld x1 r2_0) (View.ld x2 r2_1)⟩]

/-- The store is of the whole buffer, so it covers it. -/
theorem cover2_3 (p0 : Vec F S1024x1024 .f32) (y : S1024x1024.Idx) :
    ∃ pc ∈ ([⟨r2_0, p0⟩] : List (View.Piece (Elt F) S1024x1024 .f32)), y ∈ pc.1.set :=
  View.cover_of_tiled [⟨r2_0, p0⟩] S1024x1024.size (by rfl) y

/-! ## The body's triple -/

set_option maxHeartbeats 1000000 in
/-- The kernel body on whole staging memrefs, the inputs' at read contents `xW` and the output's at anything, runs to
    the continuation holding the inputs' as they were and the output's at `out2_3` of the inputs'. -/
theorem sound_kernel2 (c : Dev nD) (E : Set ℕ) (i : grid2.Coords) (arg0 : Memref sig .tc .vmem S1024x1024 .bf16) (harg0 : arg0.IsWhole) (arg1 : Memref sig .tc .vmem S1024x1024 .bf16) (harg1 : arg1.IsWhole)
    (arg2 : Memref sig .tc .vmem S1024 .f32) (harg2 : arg2.IsWhole) (arg3 : Memref sig .tc .vmem S1024x1024 .f32) (harg3 : arg3.IsWhole)
    (x0 : Vec F S1024x1024 .bf16) (x1 : Vec F S1024x1024 .bf16) (x2 : Vec F S1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrRun.lean ====
import proofs.«121031_j31636729102987_2_alg».proof.Proof.Gen.KernelIdeal.Launch
import proofs.«121031_j31636729102987_2_alg».proof.Proof.Gen.KernelIdeal.Skeleton
import proofs.«121031_j31636729102987_2_alg».proof.Proof.Gen.KernelIdeal.Points
import proofs.«121031_j31636729102987_2_alg».proof.Proof.Gen.KernelIdeal.Regions
import proofs.«121031_j31636729102987_2_alg».proof.Proof.FrR0
import proofs.«121031_j31636729102987_2_alg».proof.Proof.FrR1
import proofs.«121031_j31636729102987_2_alg».proof.Proof.FrR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: host operations, the projection kernel, reshapes, the attention kernel, a reshape, the output
projection kernel, a reshape — as seven segments, each entered from the buffer contents the one before it left. -/

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After the host operations `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (b : Ref sig .tc) (hb : b ∉ (hostOps0_W : List (Ref sig .tc))) :
    W1 m ρ c (Proc.devRef .tc b) = W0 m ρ c (Proc.devRef .tc b) :=
  StableHlo.after_of_writes_sub hostOps0 _ hostOps0_writes hb

/-- After region 0: its arrays at what the pipeline leaves (an input as entered, an output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer region 0 does not write back keeps its contents through it: an input window's array by the pipeline's
    own account, any other buffer because the region does not touch it. -/
theorem W2_keep (c : Dev nD) (b : Ref sig .tc) (hb : b ∉ ([main_v5_0, main_v5_1, main_v5_2] : List (Ref sig .tc))) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      revert hb; fin_cases w <;> first | (intro _; rfl) | (intro hb; exact absurd (by decide) hb)
    exact (W2_arr m ρ c w).trans (((dat0 (V1 m ρ) c).arrAt_in w hin _).trans (A_eq0 (V1 m ρ) c w))
  · exact W2_of_ne m ρ c b fun w e => h ⟨w, e⟩

/-- After the host operations `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_keep (c : Dev nD) (b : Ref sig .tc) (hb : b ∉ (hostOps1_W : List (Ref sig .tc))) :
    W3 m ρ c (Proc.devRef .tc b) = W2 m ρ c (Proc.devRef .tc b) :=
  StableHlo.after_of_writes_sub hostOps1 _ hostOps1_writes hb

/-- After region 1: its arrays at what the pipeline leaves (an input as entered, an output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer region 1 does not write back keeps its contents through it: an input window's array by the pipeline's
    own account, any other buffer because the region does not touch it. -/
theorem W4_keep (c : Dev nD) (b : Ref sig .tc) (hb : b ∉ ([main_v9] : List (Ref sig .tc))) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      revert hb; fin_cases w <;> first | (intro _; rfl) | (intro hb; exact absurd (by decide) hb)
    exact (W4_arr m ρ c w).trans (((dat1 (V3 m ρ) c).arrAt_in w hin _).trans (A_eq1 (V3 m ρ) c w))
  · exact W4_of_ne m ρ c b fun w e => h ⟨w, e⟩

/-- After the host operations `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_keep (c : Dev nD) (b : Ref sig .tc) (hb : b ∉ (hostOps2_W : List (Ref sig .tc))) :
    W5 m ρ c (Proc.devRef .tc b) = W4 m ρ c (Proc.devRef .tc b) :=
  StableHlo.after_of_writes_sub hostOps2 _ hostOps2_writes hb

/-- After region 2: its arrays at what the pipeline leaves (an input as entered, an output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer region 2 does not write back keeps its contents through it: an input window's array by the pipeline's
    own account, any other buffer because the region does not touch it. -/
theorem W6_keep (c : Dev nD) (b : Ref sig .tc) (hb : b ∉ ([main_v11] : List (Ref sig .tc))) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      revert hb; fin_cases w <;> first | (intro _; rfl) | (intro hb; exact absurd (by decide) hb)
    exact (W6_arr m ρ c w).trans (((dat2 (V5 m ρ) c).arrAt_in w hin _).trans (A_eq2 (V5 m ρ) c w))
  · exact W6_of_ne m ρ c b fun w e => h ⟨w, e⟩

/-- After the host operations `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
theorem W7_keep (c : Dev nD) (b : Ref sig .tc) (hb : b ∉ (hostOps3_W : List (Ref sig .tc))) :
    W7 m ρ c (Proc.devRef .tc b) = W6 m ρ c (Proc.devRef .tc b) :=
  StableHlo.after_of_writes_sub hostOps3 _ hostOps3_writes hb

/-- A buffer nothing writes ends as launched: no host operation writes it and no region writes it back. -/
theorem W7_launch (c : Dev nD) (b : Ref sig .tc) (hb : b ∉ ([main_v0, main_v1, main_v2, main_v3, main_v4, main_v5_0, main_v5_1, main_v5_2, main_v6, main_v7, main_v8, main_v9, main_v10, main_v11, main_v12] : List (Ref sig .tc))) :
    W7 m ρ c (Proc.devRef .tc b) = m ((c : Thread nD τ).loc b) :=
  calc W7 m ρ c (Proc.devRef .tc b)
    _ = W6 m ρ c (Proc.devRef .tc b) := W7_keep m ρ c b (fun h => hb (by revert h; simp only [hostOps3_W, List.mem_cons, List.mem_nil_iff, or_false]; rintro rfl; decide))
    _ = W5 m ρ c (Proc.devRef .tc b) := W6_keep m ρ c b (fun h => hb (by revert h; simp only [List.mem_cons, List.mem_nil_iff, or_false]; rintro rfl; decide))
    _ = W4 m ρ c (Proc.devRef .tc b) := W5_keep m ρ c b (fun h => hb (by revert h; simp only [hostOps2_W, List.mem_cons, List.mem_nil_iff, or_false]; rintro rfl; decide))
    _ = W3 m ρ c (Proc.devRef .tc b) := W4_keep m ρ c b (fun h => hb (by revert h; simp only [List.mem_cons, List.mem_nil_iff, or_false]; rintro rfl; decide))
    _ = W2 m ρ c (Proc.devRef .tc b) := W3_keep m ρ c b (fun h => hb (by revert h; simp only [hostOps1_W, List.mem_cons, List.mem_nil_iff, or_false]; rintro (rfl | rfl | rfl) <;> decide))
    _ = W1 m ρ c (Proc.devRef .tc b) := W2_keep m ρ c b (fun h => hb (by revert h; simp only [List.mem_cons, List.mem_nil_iff, or_false]; rintro (rfl | rfl | rfl) <;> decide))
    _ = W0 m ρ c (Proc.devRef .tc b) := W1_keep m ρ c b (fun h => hb (by revert h; simp only [hostOps0_W, List.mem_cons, List.mem_nil_iff, or_false]; rintro (rfl | rfl | rfl | rfl | rfl) <;> decide))
    _ = m ((c : Thread nD τ).loc b) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at their exit contents; the
    generator register goes into the region's invariant and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at their exit contents; the
    generator register goes into the region's invariant and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    have h1 := hout1 (V3 m ρ) c
    unfold Pipeline.ΦA at h1
    iintro Hphi
    ihave H := h1 $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at their exit contents; the
    generator register goes into the region's invariant and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents. -/
theorem main_vals : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
    (h c _ (mem_uc main_arg0 (by decide))).trans (W7_launch m ρ c main_arg0 (by decide)),
    (h c _ (mem_uc main_arg1 (by decide))).trans (W7_launch m ρ c main_arg1 (by decide)),
    (h c _ (mem_uc main_arg2 (by decide))).trans (W7_launch m ρ c main_arg2 (by decide)),
    (h c _ (mem_uc main_arg3 (by decide))).trans (W7_launch m ρ c main_arg3 (by decide)),
    (h c _ (mem_uc main_arg4 (by decide))).trans (W7_launch m ρ c main_arg4 (by decide)),
    (h c _ (mem_uc main_arg5 (by decide))).trans (W7_launch m ρ c main_arg5 (by decide)),
    (h c _ (mem_uc main_arg6 (by decide))).trans (W7_launch m ρ c main_arg6 (by decide)),
    (h c _ (mem_uc main_arg7 (by decide))).trans (W7_launch m ρ c main_arg7 (by decide)),
    (h c _ (mem_uc main_arg8 (by decide))).trans (W7_launch m ρ c main_arg8 (by decide))⟩) (main_vals m ρ)

end Cert.KernelIdeal.Fr

end
-- ==== Proof.ValR2.lean ====
import proofs.«121031_j31636729102987_2_alg».proof.Proof.FrR2
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

/-! ## The payload at an entry, over the extended reals -/

theorem hz2 : (![0, 0] : Fin 2 → Nat) = fun _ => 0 := funext fun a => by fin_cases a <;> rfl
theorem hz1 : (![0] : Fin 1 → Nat) = fun _ => 0 := funext fun a => by fin_cases a; rfl

/-- Of the product's two operand indices, the left one keeps the result's row -/
theorem lhs_sq_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- and the right one its column. -/
theorem rhs_sq_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two 1024 × 1024 matrices from a zero accumulator, at entry `(r, f)`: the sum over the shared axis. -/
theorem matmul_sq_apply (a b : FVec Ideal S1024x1024 .bf16) (r f : Fin 1024) :
    matmul dot_S1024x1024_S1024x1024_S1024x1024_1_0_0_1_n_n none a b (constant S1024x1024 .f32 0x00000000#32) (ix2 r f)
      = ∑ e : Fin 1024, a (ix2 r e) * b (ix2 e f) := by
  refine (Ideal.matmul_constant_zero_apply dot_S1024x1024_S1024x1024_S1024x1024_1_0_0_1_n_n none a b (ix2 r f)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r f) ((contrEquiv1 dot_S1024x1024_S1024x1024_S1024x1024_1_0_0_1_n_n 1024 rfl rfl).symm k) = ix2 r k := funext fun x => Fin.ext (by
    match x with
    | ⟨0, _⟩ => exact lhs_sq_0 _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r f) ((contrEquiv1 dot_S1024x1024_S1024x1024_S1024x1024_1_0_0_1_n_n 1024 rfl rfl).symm k) = ix2 k f := funext fun x => Fin.ext (by
    match x with
    | ⟨0, _⟩ => exact (dot_S1024x1024_S1024x1024_S1024x1024_1_0_0_1_n_n.rhsIdx_val_of_single rfl _ _).trans hk
    | ⟨1, _⟩ => exact rhs_sq_1 _ _)
  rw [el, er]

/-- A vector of 1024 entries viewed as one row and repeated down 1024 rows reads, at `(r, f)`, its entry `f`. -/
theorem bias_sq_apply {α : Type} (b : S1024.Idx → α) (r f : Fin 1024) :
    broadcastTo S1024x1024 (shapeCast S1x1024 b shapeCasts_S1024_S1x1024) broadcasts_S1x1024_S1024x1024 (ix2 r f) = b (ix1 f) := by
  refine (broadcastTo_apply _ broadcasts_S1x1024_S1024x1024 (ix2 r f) (ix2 (0 : Fin 1) f) (fun x => ?_)).trans ?_
  · match x with
    | ⟨0, _⟩ => show 0 = if (1 : Nat) = 1 then 0 else r.val; rw [if_pos rfl]
    | ⟨1, _⟩ => show f.val = if (1024 : Nat) = 1 then 0 else f.val; rw [if_neg (by decide)]
  · refine shapeCast_apply b shapeCasts_S1024_S1x1024 (ix2 (0 : Fin 1) f) (ix1 f) ?_
    rw [Shape.rowMajor_val_one, Shape.rowMajor_val_two]
    show f.val = 0 * 1024 + f.val
    omega

/-- The body's payload at entry `(r, f)`: row `r` of the block times column `f` of the weight, plus the bias at `f`. -/
theorem pay2_apply (x0 x1 : Vec Ideal S1024x1024 .bf16) (x2 : Vec Ideal S1024 .f32) (r f : Fin 1024) :
    k2_pay1 x0 x1 x2 (ix2 r f) = (∑ e : Fin 1024, x0 (ix2 r e) * x1 (ix2 e f)) + x2 (ix1 f) := by
  unfold k2_pay1
  simp only [shapeCast_self]
  refine (addf_apply _ _ _).trans ?_
  rw [matmul_sq_apply, bias_sq_apply]

/-! ## From the blocks to the array -/

variable (V : (c : Dev nD) → (b : Ref sig .tc) → Buf (Elt Ideal) ((c : Thread nD τ).loc b))

/-- The result as ONE function of the three arrays, entry by entry: row `i 0` of the first times column `i 1` of the
    second, plus the third at `i 1`. -/
abbrev affineRows (a0 : S16384x1024.Idx → EReal) (a1 : S1024x1024.Idx → EReal) (a2 : S1024.Idx → EReal) : S16384x1024.Idx → EReal :=
  fun i => (∑ e : Fin 1024, a0 (ix2 (i 0) e) * a1 (ix2 e (i 1))) + a2 (ix1 (i 1))

/-- The printed index maps, decided over the grid: at point `t` the row-block windows (0 and 3) are at block row `t`,
    and every other block coordinate is 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point `t` writes back is block `t` of `affineRows` of the arrays as the region finds them. -/
theorem flushed2_3_eq (c : Dev nD) (t : Fin cfg2.N) :
    (dat2 V c).flushed 3 t = ((cfg2.win 3).blk t).view.read (Elt Ideal)
      (affineRows (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1024) hz1]
  obtain ⟨e00, e01, e10, e11, e20, e30, e31⟩ := idx_facts2 t
  funext j
  obtain ⟨r, f, rfl⟩ : ∃ (r : Fin 1024) (f : Fin 1024), j = ix2 r f := ⟨j 0, j 1, eq_ix2 j⟩
  refine (pay2_apply (iblk2 V c 0 t) (iblk2 V c 1 t) (iblk2 V c 2 t) r f).trans ?_
  have h0 : ∀ e : Fin 1024, iblk2 V c 0 t (ix2 r e)
      = V c (Pipeline.arrRef spec2 0) (ix2 ((((cfg2.win 3).blk t).view.emb (ix2 r f)) 0) e) := fun e => by
    show V c (Pipeline.arrRef spec2 0) (((cfg2.win 0).blk t).view.emb (ix2 r e)) = _
    congr 1
    funext a; apply Fin.ext
    match a with
    | ⟨0, _⟩ => show win2_0.index t (0 : Fin 2) * 1024 + 1 * r.val = win2_3.index t (0 : Fin 2) * 1024 + 1 * r.val; omega
    | ⟨1, _⟩ => show win2_0.index t (1 : Fin 2) * 1024 + 1 * e.val = e.val; omega
  have h1 : ∀ e : Fin 1024, iblk2 V c 1 t (ix2 e f)
      = V c (Pipeline.arrRef spec2 1) (ix2 e ((((cfg2.win 3).blk t).view.emb (ix2 r f)) 1)) := fun e => by
    show V c (Pipeline.arrRef spec2 1) (((cfg2.win 1).blk t).view.emb (ix2 e f)) = _
    congr 1
    funext a; apply Fin.ext
    match a with
    | ⟨0, _⟩ => show win2_1.index t (0 : Fin 2) * 1024 + 1 * e.val = e.val; omega
    | ⟨1, _⟩ => show win2_1.index t (1 : Fin 2) * 1024 + 1 * f.val = win2_3.index t (1 : Fin 2) * 1024 + 1 * f.val; omega
  have h2 : iblk2 V c 2 t (ix1 f)
      = V c (Pipeline.arrRef spec2 2) (ix1 ((((cfg2.win 3).blk t).view.emb (ix2 r f)) 1)) := by
    show V c (Pipeline.arrRef spec2 2) (((cfg2.win 2).blk t).view.emb (ix1 f)) = _
    congr 1
    funext a; apply Fin.ext
    match a with
    | ⟨0, _⟩ => show win2_2.index t (0 : Fin 1) * 1024 + 1 * f.val = win2_3.index t (1 : Fin 2) * 1024 + 1 * f.val; omega
  rw [h2, Finset.sum_congr rfl fun e _ => by rw [h0 e, h1 e]]
  rfl

/-- An entry of the result array is in point `t`'s block iff each coordinate is in the block's range on its axis. -/
theorem mem_blk2_3 (t : Fin cfg2.N) (i : S16384x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v11).slice (win2_3.rect t)).set ↔ _
  rw [View.set_slice_whole, Rect.mem_set_unit]
  exact Iff.rfl

/-- Every entry of the result array is in some point's block: row `ρ` in that of point `ρ / 1024`. -/
theorem covered2_3 (i : S16384x1024.Idx) :
    ∃ t : Fin cfg2.N, (cfg2.win 3).flush t = true ∧ i ∈ ((cfg2.win 3).blk t).view.set := by
  have hi0 : (i 0).val < 16384 := idx2_lt0 i
  have hi1 : (i 1).val < 1024 := idx2_lt1 i
  have hN : cfg2.N = 16 := N_2
  let t : Fin cfg2.N := ⟨(i 0).val / 1024, by rw [hN]; omega⟩
  have ht : t.val = (i 0).val / 1024 := rfl
  obtain ⟨e00, e01, e10, e11, e20, e30, e31⟩ := idx_facts2 t
  refine ⟨t, flush2_3 t, ?_⟩
  rw [mem_blk2_3]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The result array after the region is `affineRows` of the three arrays as the region finds them. -/
theorem final2_3 (c : Dev nD) :
    (dat2 V c).arrAt 3 cfg2.N = affineRows (V c (Pipeline.arrRef spec2 0)) (V c (Pipeline.arrRef spec2 1)) (V c (Pipeline.arrRef spec2 2)) :=
  (dat2 V c).arrAt_eq_of_cover 3 _ (fun t _ => flushed2_3_eq V c t) covered2_3

/-! ## At real-valued arrays -/

/-- The inclusion of the reals in the extended reals commutes with finite sums. -/
theorem ereal_coe_sum {ι : Type} (s : Finset ι) (g : ι → ℝ) : ((∑ e ∈ s, g e : ℝ) : EReal) = ∑ e ∈ s, ((g e : ℝ) : EReal) := by
  classical
  refine Finset.induction_on s (by simp) fun a s ha ih => ?_
  rw [Finset.sum_insert ha, Finset.sum_insert ha, EReal.coe_add, ih]

/-- `affineRows` of real-valued arrays is the real matrix product plus the bias, entry by entry. -/
theorem affineRows_real (a0 : S16384x1024.Idx → EReal) (a1 : S1024x1024.Idx → EReal) (a2 : S1024.Idx → EReal)
    (xf : Fin 16384 → Fin 1024 → ℝ) (Wr : Fin 1024 → Fin 1024 → ℝ) (br : Fin 1024 → ℝ)
    (hx : ∀ (r : Fin 16384) (e : Fin 1024), a0 (ix2 r e) = ((xf r e : ℝ) : EReal))
    (hW : ∀ e f : Fin 1024, a1 (ix2 e f) = ((Wr e f : ℝ) : EReal))
    (hb : ∀ f : Fin 1024, a2 (ix1 f) = ((br f : ℝ) : EReal)) (r : Fin 16384) (f : Fin 1024) :
    affineRows a0 a1 a2 (ix2 r f) = (((∑ e : Fin 1024, xf r e * Wr e f) + br f : ℝ) : EReal) := by
  show (∑ e : Fin 1024, a0 (ix2 r e) * a1 (ix2 e f)) + a2 (ix1 f) = _
  rw [EReal.coe_add, ereal_coe_sum, hb f]
  congr 1
  exact Finset.sum_congr rfl fun e _ => by rw [hx r e, hW e f, EReal.coe_mul]

/-- When the three arrays the region finds hold reals — `xf` the 16384 × 1024 operand, `Wr` the weight, `br` the bias —
    the result array ends holding `xf · Wr + br`, entry by entry. -/
theorem value2_3 (c : Dev nD) (xf : Fin 16384 → Fin 1024 → ℝ) (Wr : Fin 1024 → Fin 1024 → ℝ) (br : Fin 1024 → ℝ)
    (hx : ∀ (r : Fin 16384) (e : Fin 1024), V c (Pipeline.arrRef spec2 0) (ix2 r e) = ((xf r e : ℝ) : EReal))
    (hW : ∀ e f : Fin 1024, V c (Pipeline.arrRef spec2 1) (ix2 e f) = ((Wr e f : ℝ) : EReal))
    (hb : ∀ f : Fin 1024, V c (Pipeline.arrRef spec2 2) (ix1 f) = ((br f : ℝ) : EReal))
    (r : Fin 16384) (f : Fin 1024) :
    (dat2 V c).arrAt 3 cfg2.N (ix2 r f) = (((∑ e : Fin 1024, xf r e * Wr e f) + br f : ℝ) : EReal) := by
  rw [final2_3]
  exact affineRows_real _ _ _ xf Wr br hx hW hb r f

/-- The windows' arrays by name. -/
theorem arrRef2_names : Pipeline.arrRef spec2 0 = main_v10 ∧ Pipeline.arrRef spec2 1 = main_v4 ∧ Pipeline.arrRef spec2 2 = main_arg8 ∧ Pipeline.arrRef spec2 3 = main_v11 :=
  ⟨rfl, rfl, rfl, rfl⟩

end Cert.KernelIdeal.Val

end
-- ==== Proof.ValR0.lean ====
import proofs.«121031_j31636729102987_2_alg».proof.Proof.FrR0
import proofs.«121031_j31636729102987_2_alg».proof.Proof.ValR2
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

/-! ## The payloads at an entry, over the extended reals -/

/-- Of the product's two operand indices, the left one keeps the result's row -/
theorem lhs_rows_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- and the right one its column. -/
theorem rhs_rows_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a 512 × 1024 block of rows and a 1024 × 1024 matrix from a zero accumulator, at entry `(r, f)`: the sum
    over the shared axis. -/
theorem matmul_rows_apply (a : FVec Ideal S512x1024 .bf16) (b : FVec Ideal S1024x1024 .bf16) (r : Fin 512) (f : Fin 1024) :
    matmul dot_S512x1024_S1024x1024_S512x1024_1_0_0_1_n_n none a b (constant S512x1024 .f32 0x00000000#32) (ix2 r f)
      = ∑ e : Fin 1024, a (ix2 r e) * b (ix2 e f) := by
  refine (Ideal.matmul_constant_zero_apply dot_S512x1024_S1024x1024_S512x1024_1_0_0_1_n_n none a b (ix2 r f)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r f) ((contrEquiv1 dot_S512x1024_S1024x1024_S512x1024_1_0_0_1_n_n 1024 rfl rfl).symm k) = ix2 r k := funext fun x => Fin.ext (by
    match x with
    | ⟨0, _⟩ => exact lhs_rows_0 _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r f) ((contrEquiv1 dot_S512x1024_S1024x1024_S512x1024_1_0_0_1_n_n 1024 rfl rfl).symm k) = ix2 k f := funext fun x => Fin.ext (by
    match x with
    | ⟨0, _⟩ => exact (dot_S512x1024_S1024x1024_S512x1024_1_0_0_1_n_n.rhsIdx_val_of_single rfl _ _).trans hk
    | ⟨1, _⟩ => exact rhs_rows_1 _ _)
  rw [el, er]

/-- A vector of 1024 entries viewed as one row and repeated down 512 rows reads, at `(r, f)`, its entry `f`. -/
theorem bias_rows_apply {α : Type} (b : S1024.Idx → α) (r : Fin 512) (f : Fin 1024) :
    broadcastTo S512x1024 (shapeCast S1x1024 b shapeCasts_S1024_S1x1024) broadcasts_S1x1024_S512x1024 (ix2 r f) = b (ix1 f) := by
  refine (broadcastTo_apply _ broadcasts_S1x1024_S512x1024 (ix2 r f) (ix2 (0 : Fin 1) f) (fun x => ?_)).trans ?_
  · match x with
    | ⟨0, _⟩ => show 0 = if (1 : Nat) = 1 then 0 else r.val; rw [if_pos rfl]
    | ⟨1, _⟩ => show f.val = if (1024 : Nat) = 1 then 0 else f.val; rw [if_neg (by decide)]
  · refine shapeCast_apply b shapeCasts_S1024_S1x1024 (ix2 (0 : Fin 1) f) (ix1 f) ?_
    rw [Shape.rowMajor_val_one, Shape.rowMajor_val_two]
    show f.val = 0 * 1024 + f.val
    omega

/-- The body's payload for window 7 at entry `(r, f)`: row `r` of the block times column `f` of the query weight, plus the
    query bias at `f` (over the extended reals both roundings are the identity). -/
theorem pay0_7_apply (x0 : Vec Ideal S512x1024 .f32) (x1 : Vec Ideal S1024x1024 .bf16) (x4 : Vec Ideal S1024 .f32) (r : Fin 512) (f : Fin 1024) :
    k0_pay2 x0 x1 x4 (ix2 r f) = (∑ e : Fin 1024, x0 (ix2 r e) * x1 (ix2 e f)) + x4 (ix1 f) := by
  unfold k0_pay2 k0_pay1
  simp only [shapeCast_self]
  refine (truncf_apply (φ := .f32) (ψ := .bf16) _ bitsLt_bf16_f32 _).trans ?_
  refine (addf_apply _ _ _).trans ?_
  rw [matmul_rows_apply, bias_rows_apply]
  rfl

/-- The body's payload for window 8 at entry `(r, f)`: row `r` of the block times column `f` of the key weight, plus the
    key bias at `f` (over the extended reals both roundings are the identity). -/
theorem pay0_8_apply (x0 : Vec Ideal S512x1024 .f32) (x2 : Vec Ideal S1024x1024 .bf16) (x5 : Vec Ideal S1024 .f32) (r : Fin 512) (f : Fin 1024) :
    k0_pay3 x0 x2 x5 (ix2 r f) = (∑ e : Fin 1024, x0 (ix2 r e) * x2 (ix2 e f)) + x5 (ix1 f) := by
  unfold k0_pay3 k0_pay1
  simp only [shapeCast_self]
  refine (truncf_apply (φ := .f32) (ψ := .bf16) _ bitsLt_bf16_f32 _).trans ?_
  refine (addf_apply _ _ _).trans ?_
  rw [matmul_rows_apply, bias_rows_apply]
  rfl

/-- The body's payload for window 9 at entry `(r, f)`: row `r` of the block times column `f` of the value weight, plus the
    value bias at `f` (over the extended reals both roundings are the identity). -/
theorem pay0_9_apply (x0 : Vec Ideal S512x1024 .f32) (x3 : Vec Ideal S1024x1024 .bf16) (x6 : Vec Ideal S1024 .f32) (r : Fin 512) (f : Fin 1024) :
    k0_pay4 x0 x3 x6 (ix2 r f) = (∑ e : Fin 1024, x0 (ix2 r e) * x3 (ix2 e f)) + x6 (ix1 f) := by
  unfold k0_pay4 k0_pay1
  simp only [shapeCast_self]
  refine (truncf_apply (φ := .f32) (ψ := .bf16) _ bitsLt_bf16_f32 _).trans ?_
  refine (addf_apply _ _ _).trans ?_
  rw [matmul_rows_apply, bias_rows_apply]
  rfl

/-! ## From the blocks to the arrays -/

variable (V : (c : Dev nD) → (b : Ref sig .tc) → Buf (Elt Ideal) ((c : Thread nD τ).loc b))

/-- The printed index maps, decided over the grid: at point `t` the row-block windows (0, 7, 8, 9) are at block row
    `t`, and every other block coordinate is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ### Window 7: the query projection -/

/-- What point `t` writes back to window 7's array is block `t` of `affineRows` of the input rows, the query weight and the
    query bias as the region finds them. -/
theorem flushed0_7_eq (c : Dev nD) (t : Fin cfg0.N) :
    (dat0 V c).flushed 7 t = ((cfg0.win 7).blk t).view.read (Elt Ideal)
      (affineRows (V c (Pipeline.arrRef spec0 0)) (V c (Pipeline.arrRef spec0 1)) (V c (Pipeline.arrRef spec0 4))) := by
  show (cfg0.win 7).cut (grid0.coords t) ((dat0 V c).after 7 t) = _
  rw [after0_7]
  unfold out0_7
  rw [View.canon_unit_zero hz2]
  simp only [View.ld_unit_zero (S := S512x1024) hz2, View.ld_unit_zero (S := S1024x1024) hz2, View.ld_unit_zero (S := S1024) hz1]
  obtain ⟨e00, e01, e10, e11, e20, e21, e30, e31, e40, e50, e60, e70, e71, e80, e81, e90, e91⟩ := idx_facts0 t
  funext j
  obtain ⟨r, f, rfl⟩ : ∃ (r : Fin 512) (f : Fin 1024), j = ix2 r f := ⟨j 0, j 1, eq_ix2 j⟩
  refine (pay0_7_apply (iblk0 V c 0 t) (iblk0 V c 1 t) (iblk0 V c 4 t) r f).trans ?_
  have h0 : ∀ e : Fin 1024, iblk0 V c 0 t (ix2 r e)
      = V c (Pipeline.arrRef spec0 0) (ix2 ((((cfg0.win 7).blk t).view.emb (ix2 r f)) 0) e) := fun e => by
    show V c (Pipeline.arrRef spec0 0) (((cfg0.win 0).blk t).view.emb (ix2 r e)) = _
    congr 1
    funext a; apply Fin.ext
    match a with
    | ⟨0, _⟩ => show win0_0.index t (0 : Fin 2) * 512 + 1 * r.val = win0_7.index t (0 : Fin 2) * 512 + 1 * r.val; omega
    | ⟨1, _⟩ => show win0_0.index t (1 : Fin 2) * 1024 + 1 * e.val = e.val; omega
  have h1 : ∀ e : Fin 1024, iblk0 V c 1 t (ix2 e f)
      = V c (Pipeline.arrRef spec0 1) (ix2 e ((((cfg0.win 7).blk t).view.emb (ix2 r f)) 1)) := fun e => by
    show V c (Pipeline.arrRef spec0 1) (((cfg0.win 1).blk t).view.emb (ix2 e f)) = _
    congr 1
    funext a; apply Fin.ext
    match a with
    | ⟨0, _⟩ => show win0_1.index t (0 : Fin 2) * 1024 + 1 * e.val = e.val; omega
    | ⟨1, _⟩ => show win0_1.index t (1 : Fin 2) * 1024 + 1 * f.val = win0_7.index t (1 : Fin 2) * 1024 + 1 * f.val; omega
  have h2 : iblk0 V c 4 t (ix1 f)
      = V c (Pipeline.arrRef spec0 4) (ix1 ((((cfg0.win 7).blk t).view.emb (ix2 r f)) 1)) := by
    show V c (Pipeline.arrRef spec0 4) (((cfg0.win 4).blk t).view.emb (ix1 f)) = _
    congr 1
    funext a; apply Fin.ext
    match a with
    | ⟨0, _⟩ => show win0_4.index t (0 : Fin 1) * 1024 + 1 * f.val = win0_7.index t (1 : Fin 2) * 1024 + 1 * f.val; omega
  rw [h2, Finset.sum_congr rfl fun e _ => by rw [h0 e, h1 e]]
  rfl

/-- An entry of window 7's array is in point `t`'s block iff each coordinate is in the block's range on its axis. -/
theorem mem_blk0_7 (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v5_0).slice (win0_7.rect t)).set ↔ _
  rw [View.set_slice_whole, Rect.mem_set_unit]
  exact Iff.rfl

/-- Every entry of window 7's array is in some point's block: row `ρ` in that of point `ρ / 512`. -/
theorem covered0_7 (i : S16384x1024.Idx) :
    ∃ t : Fin cfg0.N, (cfg0.win 7).flush t = true ∧ i ∈ ((cfg0.win 7).blk t).view.set := by
  have hi0 : (i 0).val < 16384 := idx2_lt0 i
  have hi1 : (i 1).val < 1024 := idx2_lt1 i
  have hN : cfg0.N = 32 := N_0
  let t : Fin cfg0.N := ⟨(i 0).val / 512, by rw [hN]; omega⟩
  have ht : t.val = (i 0).val / 512 := rfl
  obtain ⟨e00, e01, e10, e11, e20, e21, e30, e31, e40, e50, e60, e70, e71, e80, e81, e90, e91⟩ := idx_facts0 t
  refine ⟨t, flush0_7 t, ?_⟩
  rw [mem_blk0_7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- Window 7's array after the region is `affineRows` of the input rows, the query weight and the query bias as the
    region finds them. -/
theorem final0_7 (c : Dev nD) :
    (dat0 V c).arrAt 7 cfg0.N = affineRows (V c (Pipeline.arrRef spec0 0)) (V c (Pipeline.arrRef spec0 1)) (V c (Pipeline.arrRef spec0 4)) :=
  (dat0 V c).arrAt_eq_of_cover 7 _ (fun t _ => flushed0_7_eq V c t) covered0_7

/-- When those three arrays hold reals — `xf` the 16384 × 1024 input, `Wr` the weight, `br` the bias — window 7's array ends
    holding `xf · Wr + br`, entry by entry. -/
theorem value0_7 (c : Dev nD) (xf : Fin 16384 → Fin 1024 → ℝ) (Wr : Fin 1024 → Fin 1024 → ℝ) (br : Fin 1024 → ℝ)
    (hx : ∀ (r : Fin 16384) (e : Fin 1024), V c (Pipeline.arrRef spec0 0) (ix2 r e) = ((xf r e : ℝ) : EReal))
    (hW : ∀ e f : Fin 1024, V c (Pipeline.arrRef spec0 1) (ix2 e f) = ((Wr e f : ℝ) : EReal))
    (hb : ∀ f : Fin 1024, V c (Pipeline.arrRef spec0 4) (ix1 f) = ((br f : ℝ) : EReal))
    (r : Fin 16384) (f : Fin 1024) :
    (dat0 V c).arrAt 7 cfg0.N (ix2 r f) = (((∑ e : Fin 1024, xf r e * Wr e f) + br f : ℝ) : EReal) := by
  rw [final0_7]
  exact affineRows_real _ _ _ xf Wr br hx hW hb r f

/-! ### Window 8: the key projection -/

/-- What point `t` writes back to window 8's array is block `t` of `affineRows` of the input rows, the key weight and the
    key bias as the region finds them. -/
theorem flushed0_8_eq (c : Dev nD) (t : Fin cfg0.N) :
    (dat0 V c).flushed 8 t = ((cfg0.win 8).blk t).view.read (Elt Ideal)
      (affineRows (V c (Pipeline.arrRef spec0 0)) (V c (Pipeline.arrRef spec0 2)) (V c (Pipeline.arrRef spec0 5))) := by
  show (cfg0.win 8).cut (grid0.coords t) ((dat0 V c).after 8 t) = _
  rw [after0_8]
  unfold out0_8
  rw [View.canon_unit_zero hz2]
  simp only [View.ld_unit_zero (S := S512x1024) hz2, View.ld_unit_zero (S := S1024x1024) hz2, View.ld_unit_zero (S := S1024) hz1]
  obtain ⟨e00, e01, e10, e11, e20, e21, e30, e31, e40, e50, e60, e70, e71, e80, e81, e90, e91⟩ := idx_facts0 t
  funext j
  obtain ⟨r, f, rfl⟩ : ∃ (r : Fin 512) (f : Fin 1024), j = ix2 r f := ⟨j 0, j 1, eq_ix2 j⟩
  refine (pay0_8_apply (iblk0 V c 0 t) (iblk0 V c 2 t) (iblk0 V c 5 t) r f).trans ?_
  have h0 : ∀ e : Fin 1024, iblk0 V c 0 t (ix2 r e)
      = V c (Pipeline.arrRef spec0 0) (ix2 ((((cfg0.win 8).blk t).view.emb (ix2 r f)) 0) e) := fun e => by
    show V c (Pipeline.arrRef spec0 0) (((cfg0.win 0).blk t).view.emb (ix2 r e)) = _
    congr 1
    funext a; apply Fin.ext
    match a with
    | ⟨0, _⟩ => show win0_0.index t (0 : Fin 2) * 512 + 1 * r.val = win0_8.index t (0 : Fin 2) * 512 + 1 * r.val; omega
    | ⟨1, _⟩ => show win0_0.index t (1 : Fin 2) * 1024 + 1 * e.val = e.val; omega
  have h1 : ∀ e : Fin 1024, iblk0 V c 2 t (ix2 e f)
      = V c (Pipeline.arrRef spec0 2) (ix2 e ((((cfg0.win 8).blk t).view.emb (ix2 r f)) 1)) := fun e => by
    show V c (Pipeline.arrRef spec0 2) (((cfg0.win 2).blk t).view.emb (ix2 e f)) = _
    congr 1
    funext a; apply Fin.ext
    match a with
    | ⟨0, _⟩ => show win0_2.index t (0 : Fin 2) * 1024 + 1 * e.val = e.val; omega
    | ⟨1, _⟩ => show win0_2.index t (1 : Fin 2) * 1024 + 1 * f.val = win0_8.index t (1 : Fin 2) * 1024 + 1 * f.val; omega
  have h2 : iblk0 V c 5 t (ix1 f)
      = V c (Pipeline.arrRef spec0 5) (ix1 ((((cfg0.win 8).blk t).view.emb (ix2 r f)) 1)) := by
    show V c (Pipeline.arrRef spec0 5) (((cfg0.win 5).blk t).view.emb (ix1 f)) = _
    congr 1
    funext a; apply Fin.ext
    match a with
    | ⟨0, _⟩ => show win0_5.index t (0 : Fin 1) * 1024 + 1 * f.val = win0_8.index t (1 : Fin 2) * 1024 + 1 * f.val; omega
  rw [h2, Finset.sum_congr rfl fun e _ => by rw [h0 e, h1 e]]
  rfl

/-- An entry of window 8's array is in point `t`'s block iff each coordinate is in the block's range on its axis. -/
theorem mem_blk0_8 (t : Fin cfg0.N) (i : S16384x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v5_1).slice (win0_8.rect t)).set ↔ _
  rw [View.set_slice_whole, Rect.mem_set_unit]
  exact Iff.rfl

/-- Every entry of window 8's array is in some point's block: row `ρ` in that of point `ρ / 512`. -/
theorem covered0_8 (i : S16384x1024.Idx) :
    ∃ t : Fin cfg0.N, (cfg0.win 8).flush t = true ∧ i ∈ ((cfg0.win 8).blk t).view.set := by
  have hi0 : (i 0).val < 16384 := idx2_lt0 i
  have hi1 : (i 1).val < 1024 := idx2_lt1 i
  have hN : cfg0.N = 32 := N_0
  let t : Fin cfg0.N := ⟨(i 0).val / 512, by rw [hN]; omega⟩
  have ht : t.val = (i 0).val / 512 := rfl
  obtain ⟨e00, e01, e10, e11, e20, e21, e30, e31, e40, e50, e60, e70, e71, e80, e81, e90, e91⟩ := idx_facts0 t
  refine ⟨t, flush0_8 t, ?_⟩
  rw [mem_blk0_8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- Window 8's array after the region is `affineRows` of the input rows, the key weight and the key bias as the
    region finds them. -/
theorem final0_8 (c : Dev nD) :
    (dat0 V c).arrAt 8 cfg0.N = affineRows (V c (Pipeline.arrRef spec0 0)) (V c (Pipeline.arrRef spec0 2)) (V c (Pipeline.arrRef spec0 5)) :=
  (dat0 V c).arrAt_eq_of_cover 8 _ (fun t _ => flushed0_8_eq V c t) covered0_8

/-- When those three arrays hold reals — `xf` the 16384 × 1024 input, `Wr` the weight, `br` the bias — window 8's array ends
    holding `xf · Wr + br`, entry by entry. -/
theorem value0_8 (c : Dev nD) (xf : Fin 16384 → Fin 1024 → ℝ) (Wr : Fin 1024 → Fin 1024 → ℝ) (br : Fin 1024 → ℝ)
    (hx : ∀ (r : Fin 16384) (e : Fin 1024), V c (Pipeline.arrRef spec0 0) (ix2 r e) = ((xf r e : ℝ) : EReal))
    (hW : ∀ e f : Fin 1024, V c (Pipeline.arrRef spec0 2) (ix2 e f) = ((Wr e f : ℝ) : EReal))
    (hb : ∀ f : Fin 1024, V c (Pipeline.arrRef spec0 5) (ix1 f) = ((br f : ℝ) : EReal))
    (r : Fin 16384) (f : Fin 1024) :
    (dat0 V c).arrAt 8 cfg0.N (ix2 r f) = (((∑ e : Fin 1024, xf r e * Wr e f) + br f : ℝ) : EReal) := by
  rw [final0_8]
  exact affineRows_real _ _ _ xf Wr br hx hW hb r f

/-! ### Window 9: the value projection -/

/-- What point `t` writes back to window 9's array is block `t` of `affineRows` of the input rows, the value weight and the
    value bias as the region finds them. -/
theorem flushed0_9_eq (c : Dev nD) (t : Fin cfg0.N) :
    (dat0 V c).flushed 9 t = ((cfg0.win 9).blk t).view.read (Elt Ideal)
      (affineRows (V c (Pipeline.arrRef spec0 0)) (V c (Pipeline.arrRef spec0 3)) (V c (Pipeline.arrRef spec0 6))) := by
  show (cfg0.win 9).cut (grid0.coords t) ((dat0 V c).after 9 t) = _
  rw [after0_9]
  unfold out0_9
  rw [View.canon_unit_zero hz2]
  simp only [View.ld_unit_zero (S := S512x1024) hz2, View.ld_unit_zero (S := S1024x1024) hz2, View.ld_unit_zero (S := S1024) hz1]
  obtain ⟨e00, e01, e10, e11, e20, e21, e30, e31, e40, e50, e60, e70, e71, e80, e81, e90, e91⟩ := idx_facts0 t
  funext j
  obtain ⟨r, f, rfl⟩ : ∃ (r : Fin 512) (f : Fin 1024), j = ix2 r f := ⟨j 0, j 1, eq_ix2 j⟩
  refine (pay0_9_apply (iblk0 V c 0 t) (iblk0 V c 3 t) (iblk0 V c 6 t) r f).trans ?_
  have h0 : ∀ e : Fin 1024, iblk0 V c 0 t (ix2 r e)
      = V c (Pipeline.arrRef spec0 0) (ix2 ((((cfg0.win 9).blk t).view.emb (ix2 r f)) 0) e) := fun e => by
    show V c (Pipeline.arrRef spec0 0) (((cfg0.win 0).blk t).view.emb (ix2 r e)) = _
    congr 1
    funext a; apply Fin.ext
    match a with
    | ⟨0, _⟩ => show win0_0.index t (0 : Fin 2) * 512 + 1 * r.val = win0_9.index t (0 : Fin 2) * 512 + 1 * r.val; omega
    | ⟨1, _⟩ => show win0_0.index t (1 : Fin 2) * 1024 + 1 * e.val = e.val; omega
  have h1 : ∀ e : Fin 1024, iblk0 V c 3 t (ix2 e f)
      = V c (Pipeline.arrRef spec0 3) (ix2 e ((((cfg0.win 9).blk t).view.emb (ix2 r f)) 1)) := fun e => by
    show V c (Pipeline.arrRef spec0 3) (((cfg0.win 3).blk t).view.emb (ix2 e f)) = _
    congr 1
    funext a; apply Fin.ext
    match a with
    | ⟨0, _⟩ => show win0_3.index t (0 : Fin 2) * 1024 + 1 * e.val = e.val; omega
    | ⟨1, _⟩ => show win0_3.index t (1 : Fin 2) * 1024 + 1 * f.val = win0_9.index t (1 : Fin 2) * 1024 + 1 * f.val; omega
  have h2 : iblk0 V c 6 t (ix1 f)
      = V c (Pipeline.arrRef spec0 6) (ix1 ((((cfg0.win 9).blk t).view.emb (ix2 r f)) 1)) := by
    show V c (Pipeline.arrRef spec0 6) (((cfg0.win 6).blk t).view.emb (ix1 f)) = _
    congr 1
    funext a; apply Fin.ext
    match a with
    | ⟨0, _⟩ => show win0_6.index t (0 : Fin 1) * 1024 + 1 * f.val = win0_9.index t (1 : Fin 2) * 1024 + 1 * f.val; omega
  rw [h2, Finset.sum_congr rfl fun e _ => by rw [h0 e, h1 e]]
  rfl

/-- An entry of window 9's array is in point `t`'s block iff each coordinate is in the block's range on its axis. -/
theorem mem_blk0_9 (t : Fin cfg0.N) (i : S16384x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v5_2).slice (win0_9.rect t)).set ↔ _
  rw [View.set_slice_whole, Rect.mem_set_unit]
  exact Iff.rfl

/-- Every entry of window 9's array is in some point's block: row `ρ` in that of point `ρ / 512`. -/
theorem covered0_9 (i : S16384x1024.Idx) :
    ∃ t : Fin cfg0.N, (cfg0.win 9).flush t = true ∧ i ∈ ((cfg0.win 9).blk t).view.set := by
  have hi0 : (i 0).val < 16384 := idx2_lt0 i
  have hi1 : (i 1).val < 1024 := idx2_lt1 i
  have hN : cfg0.N = 32 := N_0
  let t : Fin cfg0.N := ⟨(i 0).val / 512, by rw [hN]; omega⟩
  have ht : t.val = (i 0).val / 512 := rfl
  obtain ⟨e00, e01, e10, e11, e20, e21, e30, e31, e40, e50, e60, e70, e71, e80, e81, e90, e91⟩ := idx_facts0 t
  refine ⟨t, flush0_9 t, ?_⟩
  rw [mem_blk0_9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- Window 9's array after the region is `affineRows` of the input rows, the value weight and the value bias as the
    region finds them. -/
theorem final0_9 (c : Dev nD) :
    (dat0 V c).arrAt 9 cfg0.N = affineRows (V c (Pipeline.arrRef spec0 0)) (V c (Pipeline.arrRef spec0 3)) (V c (Pipeline.arrRef spec0 6)) :=
  (dat0 V c).arrAt_eq_of_cover 9 _ (fun t _ => flushed0_9_eq V c t) covered0_9

/-- When those three arrays hold reals — `xf` the 16384 × 1024 input, `Wr` the weight, `br` the bias — window 9's array ends
    holding `xf · Wr + br`, entry by entry. -/
theorem value0_9 (c : Dev nD) (xf : Fin 16384 → Fin 1024 → ℝ) (Wr : Fin 1024 → Fin 1024 → ℝ) (br : Fin 1024 → ℝ)
    (hx : ∀ (r : Fin 16384) (e : Fin 1024), V c (Pipeline.arrRef spec0 0) (ix2 r e) = ((xf r e : ℝ) : EReal))
    (hW : ∀ e f : Fin 1024, V c (Pipeline.arrRef spec0 3) (ix2 e f) = ((Wr e f : ℝ) : EReal))
    (hb : ∀ f : Fin 1024, V c (Pipeline.arrRef spec0 6) (ix1 f) = ((br f : ℝ) : EReal))
    (r : Fin 16384) (f : Fin 1024) :
    (dat0 V c).arrAt 9 cfg0.N (ix2 r f) = (((∑ e : Fin 1024, xf r e * Wr e f) + br f : ℝ) : EReal) := by
  rw [final0_9]
  exact affineRows_real _ _ _ xf Wr br hx hW hb r f

/-- The windows' arrays by name. -/
theorem arrRef0_names : Pipeline.arrRef spec0 0 = main_v0 ∧ Pipeline.arrRef spec0 1 = main_v1 ∧ Pipeline.arrRef spec0 2 = main_v2
    ∧ Pipeline.arrRef spec0 3 = main_v3 ∧ Pipeline.arrRef spec0 4 = main_arg2 ∧ Pipeline.arrRef spec0 5 = main_arg4
    ∧ Pipeline.arrRef spec0 6 = main_arg6 ∧ Pipeline.arrRef spec0 7 = main_v5_0 ∧ Pipeline.arrRef spec0 8 = main_v5_1
    ∧ Pipeline.arrRef spec0 9 = main_v5_2 :=
  ⟨rfl, rfl, rfl, rfl, rfl, rfl, rfl, rfl, rfl, rfl⟩

end Cert.KernelIdeal.Val

end
-- ==== Proof.FrR1Pieces.lean ====
import proofs.«121031_j31636729102987_2_alg».proof.Proof.Gen.KernelIdeal.Launch
import proofs.«121031_j31636729102987_2_alg».proof.Proof.Gen.KernelIdeal.Skeleton
import proofs.«121031_j31636729102987_2_alg».proof.Proof.Gen.KernelIdeal.Points
import proofs.«121031_j31636729102987_2_alg».proof.Proof.FrR1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each case leaves, as arithmetic

Every store of the attention body covers its whole buffer, and every load reads a whole buffer, so what a case leaves
in a scratch buffer is one arithmetic term of what the buffers held: the fold of one key tile into the running row
maximum `M`, the running normaliser `L` and the running weighted sum `A`. At key tile 0 the fold starts from the reset
values; at key tile 1 from what the point before left, and the output block is the quotient of the new `A` by the new `L`. -/

theorem hz2 : (![0, 0] : Fin 2 → ℕ) = fun _ => 0 := by funext a; fin_cases a <;> rfl
theorem hz3 : (![0, 0, 0] : Fin 3 → ℕ) = fun _ => 0 := by funext a; fin_cases a <;> rfl

/-- The new running row maximum: the larger of the old one and the tile's row maximum of the scaled scores. -/
def foldM (x3 x4 : Vec F S1x1024x1024 .bf16) (M : Vec F S1024x1 .f32) : Vec F S1024x1 .f32 := k1_pay2 (k1_pay9 x3 x4 M)
/-- The new running normaliser: the old one rescaled, plus the tile's row sum of shifted exponentials. -/
def foldL (x3 x4 : Vec F S1x1024x1024 .bf16) (M L : Vec F S1024x1 .f32) : Vec F S1024x1 .f32 := k1_pay12 x3 x4 M M L
/-- The new running weighted sum: the old one rescaled, plus the tile's exponentials times its value rows. -/
def foldA (x3 x4 x5 : Vec F S1x1024x1024 .bf16) (M : Vec F S1024x1 .f32) (A : Vec F S1024x1024 .f32) : Vec F S1024x1024 .f32 :=
  k1_pay1 (k1_pay7 x5) (k1_pay10 x3 x4 M M) (k1_pay11 x3 x4 M) A

theorem sout1_A_7_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) :
    sout1_A_7 c i arg3 harg3 arg4 harg4 arg5 harg5 arg6 harg6 arg7 harg7 arg8 harg8 arg9 harg9 hc0 hc1 x3 x4 x5 = foldM x3 x4 k1_pay4 := by
  unfold sout1_A_7
  rw [View.read_writes_eq_canon _ _ _ (scover1_A_7 c i arg3 harg3 arg4 harg4 arg5 harg5 arg6 harg6 arg7 harg7 arg8 harg8 arg9 harg9 hc0 hc1 x3 x4 x5)]
  unfold kernelRun1_A
  dsimp only
  sl_unfold_words
  refine (View.canon_cons_unit_zero (S := S1024x1) hz2 _ _ _).trans ?_
  simp only [View.readAt_eq_ld, harg3.read_unread, harg4.read_unread, harg5.read_unread, harg7.read_unread, harg8.read_unread, harg9.read_unread,
    View.ld_unit_zero (S := S1x1024x1024) hz3, View.ld_unit_zero (S := S1024x1) hz2, View.ld_unit_zero (S := S1024x1024) hz2,
    View.readCov_unit_zero (S := S1024x1) _ hz2, View.readCov_unit_zero (S := S1024x1024) _ hz2]
  all_goals rfl

theorem sout1_A_8_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) :
    sout1_A_8 c i arg3 harg3 arg4 harg4 arg5 harg5 arg6 harg6 arg7 harg7 arg8 harg8 arg9 harg9 hc0 hc1 x3 x4 x5 = foldL x3 x4 k1_pay4 k1_pay5 := by
  unfold sout1_A_8
  rw [View.read_writes_eq_canon _ _ _ (scover1_A_8 c i arg3 harg3 arg4 harg4 arg5 harg5 arg6 harg6 arg7 harg7 arg8 harg8 arg9 harg9 hc0 hc1 x3 x4 x5)]
  unfold kernelRun1_A
  dsimp only
  sl_unfold_words
  refine (View.canon_cons_unit_zero (S := S1024x1) hz2 _ _ _).trans ?_
  simp only [View.readAt_eq_ld, harg3.read_unread, harg4.read_unread, harg5.read_unread, harg7.read_unread, harg8.read_unread, harg9.read_unread,
    View.ld_unit_zero (S := S1x1024x1024) hz3, View.ld_unit_zero (S := S1024x1) hz2, View.ld_unit_zero (S := S1024x1024) hz2,
    View.readCov_unit_zero (S := S1024x1) _ hz2, View.readCov_unit_zero (S := S1024x1024) _ hz2]
  all_goals rfl

theorem sout1_A_9_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x3 x4 x5 : Vec F S1x1024x1024 .bf16) :
    sout1_A_9 c i arg3 harg3 arg4 harg4 arg5 harg5 arg6 harg6 arg7 harg7 arg8 harg8 arg9 harg9 hc0 hc1 x3 x4 x5 = foldA x3 x4 x5 k1_pay4 k1_pay6 := by
  unfold sout1_A_9
  rw [View.read_writes_eq_canon _ _ _ (scover1_A_9 c i arg3 harg3 arg4 harg4 arg5 harg5 arg6 harg6 arg7 harg7 arg8 harg8 arg9 harg9 hc0 hc1 x3 x4 x5)]
  unfold kernelRun1_A
  dsimp only
  sl_unfold_words
  refine (View.canon_cons_unit_zero (S := S1024x1024) hz2 _ _ _).trans ?_
  simp only [View.readAt_eq_ld, harg3.read_unread, harg4.read_unread, harg5.read_unread, harg7.read_unread, harg8.read_unread, harg9.read_unread,
    View.ld_unit_zero (S := S1x1024x1024) hz3, View.ld_unit_zero (S := S1024x1) hz2, View.ld_unit_zero (S := S1024x1024) hz2,
    View.readCov_unit_zero (S := S1024x1) _ hz2, View.readCov_unit_zero (S := S1024x1024) _ hz2]
  all_goals rfl

theorem sout1_B_7_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) :
    sout1_B_7 c i arg3 harg3 arg4 harg4 arg5 harg5 arg6 harg6 arg7 harg7 arg8 harg8 arg9 harg9 hc0 hc1 x3 x4 x5 xs7 xs8 xs9 = foldM x3 x4 xs7 := by
  unfold sout1_B_7
  rw [View.read_writes_eq_canon _ _ _ (scover1_B_7 c i arg3 harg3 arg4 harg4 arg5 harg5 arg6 harg6 arg7 harg7 arg8 harg8 arg9 harg9 hc0 hc1 x3 x4 x5 xs7 xs8 xs9)]
  unfold kernelRun1_B
  dsimp only
  sl_unfold_words
  refine (View.canon_cons_unit_zero (S := S1024x1) hz2 _ _ _).trans ?_
  simp only [View.readAt_eq_ld, harg3.read_unread, harg4.read_unread, harg5.read_unread, harg7.read_unread, harg8.read_unread, harg9.read_unread,
    View.ld_unit_zero (S := S1x1024x1024) hz3, View.ld_unit_zero (S := S1024x1) hz2, View.ld_unit_zero (S := S1024x1024) hz2,
    View.readCov_unit_zero (S := S1024x1) _ hz2, View.readCov_unit_zero (S := S1024x1024) _ hz2]
  all_goals rfl

theorem sout1_B_8_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) :
    sout1_B_8 c i arg3 harg3 arg4 harg4 arg5 harg5 arg6 harg6 arg7 harg7 arg8 harg8 arg9 harg9 hc0 hc1 x3 x4 x5 xs7 xs8 xs9 = foldL x3 x4 xs7 xs8 := by
  unfold sout1_B_8
  rw [View.read_writes_eq_canon _ _ _ (scover1_B_8 c i arg3 harg3 arg4 harg4 arg5 harg5 arg6 harg6 arg7 harg7 arg8 harg8 arg9 harg9 hc0 hc1 x3 x4 x5 xs7 xs8 xs9)]
  unfold kernelRun1_B
  dsimp only
  sl_unfold_words
  refine (View.canon_cons_unit_zero (S := S1024x1) hz2 _ _ _).trans ?_
  simp only [View.readAt_eq_ld, harg3.read_unread, harg4.read_unread, harg5.read_unread, harg7.read_unread, harg8.read_unread, harg9.read_unread,
    View.ld_unit_zero (S := S1x1024x1024) hz3, View.ld_unit_zero (S := S1024x1) hz2, View.ld_unit_zero (S := S1024x1024) hz2,
    View.readCov_unit_zero (S := S1024x1) _ hz2, View.readCov_unit_zero (S := S1024x1024) _ hz2]
  all_goals rfl

theorem sout1_B_9_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) :
    sout1_B_9 c i arg3 harg3 arg4 harg4 arg5 harg5 arg6 harg6 arg7 harg7 arg8 harg8 arg9 harg9 hc0 hc1 x3 x4 x5 xs7 xs8 xs9 = foldA x3 x4 x5 xs7 xs9 := by
  unfold sout1_B_9
  rw [View.read_writes_eq_canon _ _ _ (scover1_B_9 c i arg3 harg3 arg4 harg4 arg5 harg5 arg6 harg6 arg7 harg7 arg8 harg8 arg9 harg9 hc0 hc1 x3 x4 x5 xs7 xs8 xs9)]
  unfold kernelRun1_B
  dsimp only
  sl_unfold_words
  refine (View.canon_cons_unit_zero (S := S1024x1024) hz2 _ _ _).trans ?_
  simp only [View.readAt_eq_ld, harg3.read_unread, harg4.read_unread, harg5.read_unread, harg7.read_unread, harg8.read_unread, harg9.read_unread,
    View.ld_unit_zero (S := S1x1024x1024) hz3, View.ld_unit_zero (S := S1024x1) hz2, View.ld_unit_zero (S := S1024x1024) hz2,
    View.readCov_unit_zero (S := S1024x1) _ hz2, View.readCov_unit_zero (S := S1024x1024) _ hz2]
  all_goals rfl

theorem sout1_B_6_eq (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x3 x4 x5 : Vec F S1x1024x1024 .bf16) (xs7 xs8 : Vec F S1024x1 .f32) (xs9 : Vec F S1024x1024 .f32) :
    sout1_B_6 c i arg3 harg3 arg4 harg4 arg5 harg5 arg6 harg6 arg7 harg7 arg8 harg8 arg9 harg9 hc0 hc1 x3 x4 x5 xs7 xs8 xs9 = k1_pay3 (foldA x3 x4 x5 xs7 xs9) (foldL x3 x4 xs7 xs8) := by
  unfold sout1_B_6
  rw [View.read_writes_eq_canon _ _ _ (scover1_B_6 c i arg3 harg3 arg4 harg4 arg5 harg5 arg6 harg6 arg7 harg7 arg8 harg8 arg9 harg9 hc0 hc1 x3 x4 x5 xs7 xs8 xs9)]
  unfold kernelRun1_B
  dsimp only
  sl_unfold_words
  refine (View.canon_cons_unit_zero (S := S1x1024x1024) hz3 _ _ _).trans ?_
  simp only [View.readAt_eq_ld, harg3.read_unread, harg4.read_unread, harg5.read_unread, harg7.read_unread, harg8.read_unread, harg9.read_unread,
    View.ld_unit_zero (S := S1x1024x1024) hz3, View.ld_unit_zero (S := S1024x1) hz2, View.ld_unit_zero (S := S1024x1024) hz2,
    View.readCov_unit_zero (S := S1024x1) _ hz2, View.readCov_unit_zero (S := S1024x1024) _ hz2]
  all_goals rfl

end Cert.KernelIdeal.Fr

end
-- ==== Proof.LibOnlineSoftmax.lean ====
/-
  The two-tile online softmax equals the one-pass softmax.

  A row of 2048 scores is read as two tiles of 1024 columns.  After the first tile the running
  maximum, normaliser and weighted sum are  m1, l1, a1;  the second tile rescales them by
  exp (m1 - m2).  Because  exp (m1 - m2) * exp (s - m1) = exp (s - m2),  the rescaled first-tile
  terms are the terms of the one-pass sums taken against the overall maximum, and the two tiles
  together enumerate every column exactly once.
-/
import Mathlib.Analysis.SpecialFunctions.Exp
import Mathlib.Algebra.BigOperators.Fin
import Mathlib.Algebra.BigOperators.Field
import Mathlib.Order.Fin.Basic

noncomputable section

namespace OnlineSoftmax

/-- Column `c` of the first tile. -/
def lo (c : Fin 1024) : Fin 2048 := ⟨c.val, by omega⟩

/-- Column `c` of the second tile. -/
def hi (c : Fin 1024) : Fin 2048 := ⟨1024 + c.val, by omega⟩

theorem ne1024 : (Finset.univ : Finset (Fin 1024)).Nonempty := ⟨0, Finset.mem_univ _⟩
theorem ne2048 : (Finset.univ : Finset (Fin 2048)).Nonempty := ⟨0, Finset.mem_univ _⟩

/-- Every column lies in exactly one of the two tiles. -/
theorem lo_or_hi (t : Fin 2048) : (∃ c, t = lo c) ∨ (∃ c, t = hi c) := by
  by_cases h : t.val < 1024
  · exact Or.inl ⟨⟨t.val, h⟩, Fin.ext rfl⟩
  · refine Or.inr ⟨⟨t.val - 1024, by omega⟩, Fin.ext ?_⟩
    show t.val = 1024 + (t.val - 1024)
    omega

/-- A sum over the row is the sum over the first tile plus the sum over the second. -/
theorem sum_split (f : Fin 2048 → ℝ) :
    ∑ t : Fin 2048, f t = ∑ c : Fin 1024, f (lo c) + ∑ c : Fin 1024, f (hi c) :=
  Fin.sum_univ_add (a := 1024) (b := 1024) f

/-- The maximum over the row is the larger of the two tile maxima. -/
theorem sup_split (f : Fin 2048 → ℝ) :
    Finset.univ.sup' ne2048 f
      = max (Finset.univ.sup' ne1024 (fun c => f (lo c))) (Finset.univ.sup' ne1024 (fun c => f (hi c))) := by
  apply le_antisymm
  · apply Finset.sup'_le
    intro t _
    rcases lo_or_hi t with ⟨c, rfl⟩ | ⟨c, rfl⟩
    · exact le_max_of_le_left (Finset.le_sup' (fun c => f (lo c)) (Finset.mem_univ c))
    · exact le_max_of_le_right (Finset.le_sup' (fun c => f (hi c)) (Finset.mem_univ c))
  · apply max_le
    · exact Finset.sup'_le _ _ (fun c _ => Finset.le_sup' f (Finset.mem_univ (lo c)))
    · exact Finset.sup'_le _ _ (fun c _ => Finset.le_sup' f (Finset.mem_univ (hi c)))

/-- The one-pass row maximum. -/
def M (s : Fin 2048 → ℝ) : ℝ := Finset.univ.sup' ne2048 s

/-- Running maximum after the first tile. -/
def m1 (s : Fin 2048 → ℝ) : ℝ := Finset.univ.sup' ne1024 (fun c => s (lo c))

/-- Running normaliser after the first tile. -/
def l1 (s : Fin 2048 → ℝ) : ℝ := ∑ c : Fin 1024, Real.exp (s (lo c) - m1 s)

/-- Running weighted sum after the first tile. -/
def a1 (s v : Fin 2048 → ℝ) : ℝ := ∑ c : Fin 1024, Real.exp (s (lo c) - m1 s) * v (lo c)

/-- Running maximum after the second tile. -/
def m2 (s : Fin 2048 → ℝ) : ℝ := max (m1 s) (Finset.univ.sup' ne1024 (fun c => s (hi c)))

/-- Running normaliser after the second tile. -/
def l2 (s : Fin 2048 → ℝ) : ℝ :=
  Real.exp (m1 s - m2 s) * l1 s + ∑ c : Fin 1024, Real.exp (s (hi c) - m2 s)

/-- Running weighted sum after the second tile. -/
def a2 (s v : Fin 2048 → ℝ) : ℝ :=
  Real.exp (m1 s - m2 s) * a1 s v + ∑ c : Fin 1024, Real.exp (s (hi c) - m2 s) * v (hi c)

theorem m2_eq (s : Fin 2048 → ℝ) : m2 s = M s := (sup_split s).symm

/-- Rescaling a first-tile term moves its shift from `m1` to `m2`. -/
theorem rescale (x m m' : ℝ) : Real.exp (m - m') * Real.exp (x - m) = Real.exp (x - m') := by
  rw [← Real.exp_add]; congr 1; ring

theorem l2_eq (s : Fin 2048 → ℝ) : l2 s = ∑ t : Fin 2048, Real.exp (s t - M s) := by
  rw [sum_split (fun t => Real.exp (s t - M s)), ← m2_eq]
  unfold l2 l1
  rw [Finset.mul_sum]
  congr 1
  exact Finset.sum_congr rfl (fun c _ => rescale _ _ _)

theorem a2_eq (s v : Fin 2048 → ℝ) : a2 s v = ∑ t : Fin 2048, Real.exp (s t - M s) * v t := by
  rw [sum_split (fun t => Real.exp (s t - M s) * v t), ← m2_eq]
  unfold a2 a1
  rw [Finset.mul_sum]
  congr 1
  refine Finset.sum_congr rfl (fun c _ => ?_)
  rw [← mul_assoc, rescale]

theorem l2_pos (s : Fin 2048 → ℝ) : 0 < l2 s := by
  rw [l2_eq]
  exact Finset.sum_pos (fun t _ => Real.exp_pos _) ne2048

/-- The online quotient is the softmax-weighted average. -/
theorem a2_div_l2 (s v : Fin 2048 → ℝ) :
    a2 s v / l2 s
      = ∑ t : Fin 2048, (Real.exp (s t - M s) / ∑ t' : Fin 2048, Real.exp (s t' - M s)) * v t := by
  rw [a2_eq, l2_eq, Finset.sum_div]
  exact Finset.sum_congr rfl (fun t _ => by rw [div_mul_eq_mul_div])

/-- The same statement with every intermediate quantity named by a hypothesis, for rewriting. -/
theorem online_eq (s v : Fin 2048 → ℝ) (p1 q1 r1 p2 q2 r2 : ℝ)
    (hp1 : p1 = Finset.univ.sup' ne1024 (fun c => s (lo c)))
    (hq1 : q1 = ∑ c : Fin 1024, Real.exp (s (lo c) - p1))
    (hr1 : r1 = ∑ c : Fin 1024, Real.exp (s (lo c) - p1) * v (lo c))
    (hp2 : p2 = max p1 (Finset.univ.sup' ne1024 (fun c => s (hi c))))
    (hq2 : q2 = Real.exp (p1 - p2) * q1 + ∑ c : Fin 1024, Real.exp (s (hi c) - p2))
    (hr2 : r2 = Real.exp (p1 - p2) * r1 + ∑ c : Fin 1024, Real.exp (s (hi c) - p2) * v (hi c)) :
    p2 = Finset.univ.sup' ne2048 s
      ∧ q2 = ∑ t : Fin 2048, Real.exp (s t - Finset.univ.sup' ne2048 s)
      ∧ r2 = ∑ t : Fin 2048, Real.exp (s t - Finset.univ.sup' ne2048 s) * v t
      ∧ 0 < q2
      ∧ r2 / q2 = ∑ t : Fin 2048,
          (Real.exp (s t - Finset.univ.sup' ne2048 s)
            / ∑ t' : Fin 2048, Real.exp (s t' - Finset.univ.sup' ne2048 s)) * v t := by
  have e1 : p1 = m1 s := hp1
  have f1 : q1 = l1 s := by rw [hq1, e1]; rfl
  have g1 : r1 = a1 s v := by rw [hr1, e1]; rfl
  have e2 : p2 = m2 s := by rw [hp2, e1]; rfl
  have f2 : q2 = l2 s := by rw [hq2, e1, e2, f1]; rfl
  have g2 : r2 = a2 s v := by rw [hr2, e1, e2, g1]; rfl
  refine ⟨?_, ?_, ?_, ?_, ?_⟩
  · rw [e2]; exact m2_eq s
  · rw [f2]; exact l2_eq s
  · rw [g2]; exact a2_eq s v
  · rw [f2]; exact l2_pos s
  · rw [g2, f2]; exact a2_div_l2 s v

end OnlineSoftmax

end
-- ==== Proof.AttnSpec.lean ====
/-
  The function both programs compute, stated once over the real numbers.

  For arrays of reals  x : 8 × 2048 × 1024,  Wq Wk Wv Wo : 1024 × 1024,  bq bk bv bo : 1024 :

    q = x·Wq + bq,   k = x·Wk + bk,   v = x·Wv + bv            (contracting the last axis of x)
    score b s t = (∑ f, q b s f · k b t f) / 32                 (32 = √1024)
    attn  b s t = exp (score b s t − max_t' score b s t') / ∑ t', exp (score b s t' − max …)
    ctx   b s f = ∑ t, attn b s t · v b t f
    out   b s g = (∑ f, ctx b s f · Wo f g) + bo g

  Arrays are curried functions of `Fin` coordinates, so that no shape or index type of either
  program appears here.
-/
import Mathlib.Analysis.SpecialFunctions.Exp
import Mathlib.Algebra.BigOperators.Fin
import Mathlib.Order.Fin.Basic

noncomputable section

namespace AttnSpec

/-- An activation array: batch × position × feature. -/
abbrev Act := Fin 8 → Fin 2048 → Fin 1024 → ℝ
/-- A weight matrix: input feature × output feature. -/
abbrev Mat := Fin 1024 → Fin 1024 → ℝ
/-- A bias vector. -/
abbrev Bias := Fin 1024 → ℝ

/-- A linear layer applied along the feature axis: `x·W + b`. -/
def proj (x : Act) (W : Mat) (b : Bias) : Act :=
  fun n s f => (∑ e : Fin 1024, x n s e * W e f) + b f

/-- The scaled score of query position `s` against key position `t`: `(q_s · k_t) / 32`. -/
def score (q k : Act) (n : Fin 8) (s t : Fin 2048) : ℝ :=
  (∑ f : Fin 1024, q n s f * k n t f) * (1 / 32)

/-- The largest score in a query's row (the row is not empty). -/
def rowMax (q k : Act) (n : Fin 8) (s : Fin 2048) : ℝ :=
  Finset.univ.sup' ⟨(0 : Fin 2048), Finset.mem_univ _⟩ (fun t => score q k n s t)

/-- The shifted exponential of a score. -/
def ex (q k : Act) (n : Fin 8) (s t : Fin 2048) : ℝ :=
  Real.exp (score q k n s t - rowMax q k n s)

/-- The row's normaliser. -/
def rowSum (q k : Act) (n : Fin 8) (s : Fin 2048) : ℝ := ∑ t : Fin 2048, ex q k n s t

/-- The softmax weights. -/
def attn (q k : Act) (n : Fin 8) (s t : Fin 2048) : ℝ := ex q k n s t / rowSum q k n s

/-- The attended values. -/
def ctx (q k v : Act) : Act := fun n s f => ∑ t : Fin 2048, attn q k n s t * v n t f

/-- The whole layer. -/
def out (x : Act) (Wq : Mat) (bq : Bias) (Wk : Mat) (bk : Bias) (Wv : Mat) (bv : Bias) (Wo : Mat) (bo : Bias) : Act :=
  proj (ctx (proj x Wq bq) (proj x Wk bk) (proj x Wv bv)) Wo bo

theorem rowSum_pos (q k : Act) (n : Fin 8) (s : Fin 2048) : 0 < rowSum q k n s :=
  Finset.sum_pos (fun t _ => Real.exp_pos _) ⟨(0 : Fin 2048), Finset.mem_univ _⟩

end AttnSpec

end
-- ==== Proof.OnlineSoftmaxSpec.lean ====
/-
  The attended values of the specification, written as the two-tile online quotient.

  For a fixed batch entry, query position and feature, the specification's row of scores and the
  matching column of values are functions of the key position; the softmax-weighted average of
  that column is the online quotient of the two.
-/
import proofs.«121031_j31636729102987_2_alg».proof.Proof.LibOnlineSoftmax
import proofs.«121031_j31636729102987_2_alg».proof.Proof.AttnSpec

noncomputable section

namespace OnlineSoftmax

theorem ctx_eq_online (q k v : AttnSpec.Act) (n : Fin 8) (s : Fin 2048) (f : Fin 1024) :
    AttnSpec.ctx q k v n s f
      = a2 (fun t => AttnSpec.score q k n s t) (fun t => v n t f)
          / l2 (fun t => AttnSpec.score q k n s t) := by
  rw [a2_div_l2]
  rfl

end OnlineSoftmax

end
-- ==== Proof.LibOnlineSoftmaxIdeal.lean ====
/-
  The online softmax recurrence on the extended reals, started from (-∞, 0, 0).

  A tile step takes a running maximum m, normaliser l and weighted sum a to
    m' = max m (tile maximum),   l' = exp (m - m') * l + ∑ exp (score - m'),
    a' = exp (m - m') * a + ∑ exp (score - m') * value.
  On coerced real scores and values every operation stays among the coerced reals, except at the
  start: there  m = -∞,  so  m - m' = -∞,  its exponential is 0, and  0 * 0 = 0  leaves the tile's
  own sums.  After two tiles the state is the coercion of the real two-tile state, and the final
  quotient is the coercion of the real quotient because the normaliser is positive.
-/
import Idealize.ShloMosaic.PureOps.Ideal
import proofs.«121031_j31636729102987_2_alg».proof.Proof.LibOnlineSoftmax

noncomputable section

namespace OnlineSoftmax

open Idealize.ShloMosaic

/-! ### Operations on coerced reals -/

theorem exp_coe (r : ℝ) : Ideal.exp ((r : ℝ) : EReal) = ((Real.exp r : ℝ) : EReal) := rfl

theorem exp_bot : Ideal.exp (⊥ : EReal) = 0 := rfl

/-- The exponential of a difference of coerced reals. -/
theorem exp_coe_sub_coe (x y : ℝ) :
    Ideal.exp (((x : ℝ) : EReal) - ((y : ℝ) : EReal)) = ((Real.exp (x - y) : ℝ) : EReal) := by
  rw [← EReal.coe_sub]; rfl

/-- From a running maximum of -∞ the rescaling factor is 0. -/
theorem exp_bot_sub_coe (y : ℝ) : Ideal.exp ((⊥ : EReal) - ((y : ℝ) : EReal)) = 0 := by
  rw [EReal.bot_sub]; rfl

theorem max_bot_left' (x : EReal) : max (⊥ : EReal) x = x := max_eq_right bot_le

/-- The coercion is monotone, so it commutes with max. -/
theorem coe_max (x y : ℝ) : ((max x y : ℝ) : EReal) = max ((x : ℝ) : EReal) ((y : ℝ) : EReal) :=
  EReal.coe_strictMono.monotone.map_max

/-- The bit pattern of -∞ is the bottom element. -/
theorem ofBits_neg_inf : Ideal.ofBits .f32 0xFF800000#32 = (⊥ : EReal) := by
  simp [Ideal.ofBits, Ideal.ieee]

/-- The same fact, spelled through the float interface as a reduction's initial value is. -/
theorem floatOps_ofBits_neg_inf : (FloatOps.ofBits (F := Ideal) .f32 0xFF800000#32 : EReal) = (⊥ : EReal) :=
  ofBits_neg_inf

/-- A finite sum of coerced reals is the coerced sum. -/
theorem coe_sum {ι : Type} (s : Finset ι) (g : ι → ℝ) :
    ∑ k ∈ s, ((g k : ℝ) : EReal) = ((∑ k ∈ s, g k : ℝ) : EReal) := by
  classical
  refine Finset.induction_on s (by simp) (fun a s ha ih => ?_)
  rw [Finset.sum_insert ha, Finset.sum_insert ha, ih, EReal.coe_add]

/-- The same, for a summand known pointwise to be a coerced real. -/
theorem sum_of_coe {ι : Type} (s : Finset ι) (f : ι → EReal) (g : ι → ℝ)
    (h : ∀ k, f k = ((g k : ℝ) : EReal)) : ∑ k ∈ s, f k = ((∑ k ∈ s, g k : ℝ) : EReal) := by
  rw [← coe_sum]; exact Finset.sum_congr rfl (fun k _ => h k)

/-- The fold of max from -∞ over coerced reals is the coerced maximum. -/
theorem fold_max_of_coe {ι : Type} (s : Finset ι) (hs : s.Nonempty) (f : ι → EReal) (g : ι → ℝ)
    (h : ∀ k, f k = ((g k : ℝ) : EReal)) :
    s.fold max (⊥ : EReal) f = ((s.sup' hs g : ℝ) : EReal) := by
  apply le_antisymm
  · rw [Finset.fold_max_le]
    refine ⟨bot_le, fun x hx => ?_⟩
    rw [h x, EReal.coe_le_coe_iff]
    exact Finset.le_sup' g hx
  · obtain ⟨x, hx, hxe⟩ := Finset.exists_mem_eq_sup' hs g
    rw [Finset.le_fold_max]
    exact Or.inr ⟨x, hx, by rw [h x, hxe]⟩

/-- The same, with the fold's initial value written as the bit pattern of -∞. -/
theorem fold_max_neg_inf_of_coe {ι : Type} (s : Finset ι) (hs : s.Nonempty) (f : ι → EReal) (g : ι → ℝ)
    (h : ∀ k, f k = ((g k : ℝ) : EReal)) :
    s.fold max (FloatOps.ofBits (F := Ideal) .f32 0xFF800000#32 : EReal) f = ((s.sup' hs g : ℝ) : EReal) := by
  rw [floatOps_ofBits_neg_inf]; exact fold_max_of_coe s hs f g h

/-- The quotient of coerced reals by a nonzero divisor is the coerced quotient. -/
theorem div_coe_coe (a l : ℝ) (hl : l ≠ 0) :
    Ideal.div ((a : ℝ) : EReal) ((l : ℝ) : EReal) = ((a / l : ℝ) : EReal) := by
  rw [Ideal.div_coe hl, ← EReal.coe_mul, mul_one_div]

/-! ### One tile step -/

/-- The running maximum after a tile of scores `sc`. -/
def stepM (m : EReal) (sc : Fin 1024 → EReal) : EReal :=
  max m ((Finset.univ : Finset (Fin 1024)).fold max (⊥ : EReal) sc)

/-- The running normaliser after the tile. -/
def stepL (m l : EReal) (sc : Fin 1024 → EReal) : EReal :=
  Ideal.exp (m - stepM m sc) * l + ∑ c : Fin 1024, Ideal.exp (sc c - stepM m sc)

/-- The running weighted sum after the tile, against values `vv`. -/
def stepA (m a : EReal) (sc vv : Fin 1024 → EReal) : EReal :=
  Ideal.exp (m - stepM m sc) * a + ∑ c : Fin 1024, Ideal.exp (sc c - stepM m sc) * vv c

section Step

variable (sc vv : Fin 1024 → EReal) (g w : Fin 1024 → ℝ)
  (hsc : ∀ c, sc c = ((g c : ℝ) : EReal)) (hvv : ∀ c, vv c = ((w c : ℝ) : EReal))

include hsc in
/-- The first step, from -∞: the tile's own maximum. -/
theorem stepM_bot : stepM ⊥ sc = ((Finset.univ.sup' ne1024 g : ℝ) : EReal) := by
  unfold stepM
  rw [max_bot_left', fold_max_of_coe Finset.univ ne1024 sc g hsc]

include hsc in
/-- The first step, from (-∞, 0): the tile's own normaliser. -/
theorem stepL_bot :
    stepL ⊥ 0 sc = ((∑ c : Fin 1024, Real.exp (g c - Finset.univ.sup' ne1024 g) : ℝ) : EReal) := by
  unfold stepL
  rw [stepM_bot sc g hsc, exp_bot_sub_coe, mul_zero, zero_add]
  exact sum_of_coe _ _ _ (fun c => by rw [hsc c, exp_coe_sub_coe])

include hsc hvv in
/-- The first step, from (-∞, 0): the tile's own weighted sum. -/
theorem stepA_bot :
    stepA ⊥ 0 sc vv
      = ((∑ c : Fin 1024, Real.exp (g c - Finset.univ.sup' ne1024 g) * w c : ℝ) : EReal) := by
  unfold stepA
  rw [stepM_bot sc g hsc, exp_bot_sub_coe, mul_zero, zero_add]
  exact sum_of_coe _ _ _ (fun c => by rw [hsc c, hvv c, exp_coe_sub_coe, ← EReal.coe_mul])

include hsc in
/-- A later step, from a real maximum. -/
theorem stepM_coe (m : ℝ) :
    stepM ((m : ℝ) : EReal) sc = ((max m (Finset.univ.sup' ne1024 g) : ℝ) : EReal) := by
  unfold stepM
  rw [fold_max_of_coe Finset.univ ne1024 sc g hsc, ← coe_max]

include hsc in
/-- A later step, from a real maximum and normaliser. -/
theorem stepL_coe (m l : ℝ) :
    stepL ((m : ℝ) : EReal) ((l : ℝ) : EReal) sc
      = ((Real.exp (m - max m (Finset.univ.sup' ne1024 g)) * l
          + ∑ c : Fin 1024, Real.exp (g c - max m (Finset.univ.sup' ne1024 g)) : ℝ) : EReal) := by
  unfold stepL
  rw [stepM_coe sc g hsc, exp_coe_sub_coe, ← EReal.coe_mul,
    sum_of_coe Finset.univ _ (fun c => Real.exp (g c - max m (Finset.univ.sup' ne1024 g)))
      (fun c => by rw [hsc c, exp_coe_sub_coe]),
    ← EReal.coe_add]

include hsc hvv in
/-- A later step, from a real maximum and weighted sum. -/
theorem stepA_coe (m a : ℝ) :
    stepA ((m : ℝ) : EReal) ((a : ℝ) : EReal) sc vv
      = ((Real.exp (m - max m (Finset.univ.sup' ne1024 g)) * a
          + ∑ c : Fin 1024, Real.exp (g c - max m (Finset.univ.sup' ne1024 g)) * w c : ℝ) : EReal) := by
  unfold stepA
  rw [stepM_coe sc g hsc, exp_coe_sub_coe, ← EReal.coe_mul,
    sum_of_coe Finset.univ _ (fun c => Real.exp (g c - max m (Finset.univ.sup' ne1024 g)) * w c)
      (fun c => by rw [hsc c, hvv c, exp_coe_sub_coe, ← EReal.coe_mul]),
    ← EReal.coe_add]

end Step

/-! ### Two tiles -/

section TwoTiles

variable (s v : Fin 2048 → ℝ) (sc0 vv0 sc1 vv1 : Fin 1024 → EReal)
  (h0 : ∀ c, sc0 c = ((s (lo c) : ℝ) : EReal)) (k0 : ∀ c, vv0 c = ((v (lo c) : ℝ) : EReal))
  (h1 : ∀ c, sc1 c = ((s (hi c) : ℝ) : EReal)) (k1 : ∀ c, vv1 c = ((v (hi c) : ℝ) : EReal))

include h0 in
theorem tile0_m : stepM ⊥ sc0 = ((m1 s : ℝ) : EReal) := stepM_bot sc0 (fun c => s (lo c)) h0

include h0 in
theorem tile0_l : stepL ⊥ 0 sc0 = ((l1 s : ℝ) : EReal) := stepL_bot sc0 (fun c => s (lo c)) h0

include h0 k0 in
theorem tile0_a : stepA ⊥ 0 sc0 vv0 = ((a1 s v : ℝ) : EReal) :=
  stepA_bot sc0 vv0 (fun c => s (lo c)) (fun c => v (lo c)) h0 k0

include h1 in
theorem tile1_m : stepM ((m1 s : ℝ) : EReal) sc1 = ((m2 s : ℝ) : EReal) :=
  stepM_coe sc1 (fun c => s (hi c)) h1 (m1 s)

include h1 in
theorem tile1_l : stepL ((m1 s : ℝ) : EReal) ((l1 s : ℝ) : EReal) sc1 = ((l2 s : ℝ) : EReal) :=
  stepL_coe sc1 (fun c => s (hi c)) h1 (m1 s) (l1 s)

include h1 k1 in
theorem tile1_a : stepA ((m1 s : ℝ) : EReal) ((a1 s v : ℝ) : EReal) sc1 vv1 = ((a2 s v : ℝ) : EReal) :=
  stepA_coe sc1 vv1 (fun c => s (hi c)) (fun c => v (hi c)) h1 k1 (m1 s) (a1 s v)

include h0 k0 h1 k1 in
/-- The recurrence run over both tiles from (-∞, 0, 0), then divided: the softmax-weighted average. -/
theorem two_tiles_div :
    Ideal.div (stepA (stepM ⊥ sc0) (stepA ⊥ 0 sc0 vv0) sc1 vv1) (stepL (stepM ⊥ sc0) (stepL ⊥ 0 sc0) sc1)
      = ((∑ t : Fin 2048, (Real.exp (s t - M s) / ∑ t' : Fin 2048, Real.exp (s t' - M s)) * v t : ℝ) : EReal) := by
  rw [tile0_m s sc0 h0, tile0_l s sc0 h0, tile0_a s v sc0 vv0 h0 k0, tile1_l s sc1 h1,
    tile1_a s v sc1 vv1 h1 k1, div_coe_coe _ _ (ne_of_gt (l2_pos s)), a2_div_l2]

end TwoTiles

end OnlineSoftmax

end
-- ==== Proof.FlashValOps.lean ====
/-
  Layout operations and the two matrix products of the attention body, read at an index given by coordinates:
  a vector cast to a column, a column broadcast along rows, a row index with its reduced coordinate put back,
  the product with a transposed matrix and the plain product (each into a zero accumulator), and the constant 1/32.
-/
import proofs.«121031_j31636729102987_2_alg».proof.Proof.Gen.KernelIdeal.Skeleton
import proofs.«121031_j31636729102987_2_alg».proof.Proof.LibOnlineSoftmax
import proofs.«121031_j31636729102987_2_alg».proof.Proof.LibOnlineSoftmaxIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.FlashVal

open Cert.KernelIdeal Cert.KernelIdeal.Gen Idealize.ShloMosaic Idealize.ShloMosaic.ValueIdx

/-- The pattern of `0.03125` denotes the real 1/32. -/
theorem ofBits_inv32 : Ideal.ofBits .f32 0x3D000000#32 = ((1 / 32 : ℝ) : EReal) := by
  simp [Ideal.ofBits, Ideal.ieee, -EReal.coe_mul]; norm_num

/-- A vector cast to a one-column matrix reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at `(i, j)`, the column at `(i, 0)`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A row index of a square matrix with the reduced column coordinate put back. -/
theorem lift_col (h : S1024x1024.Reduces [1] S1024) (r c : Fin 1024) : h.lift (ix1 r) c = ix2 r c := by
  funext a; apply Fin.ext
  fin_cases a <;> rfl

theorem lhs_nt_0 (j : S1024x1024.Idx) (q : dot_S1024x1024_S1024x1024_S1024x1024_1_1_0_0_n_n.contr.Idx) : (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem rhs_nt_0 (j : S1024x1024.Idx) (q : dot_S1024x1024_S1024x1024_S1024x1024_1_1_0_0_n_n.contr.Idx) : (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

/-- The product of a matrix with the transpose of another (both contracted along their columns), into a zero
    accumulator, read at an index. -/
theorem matmul_nt_apply (l r : FVec Ideal S1024x1024 .bf16) (i j : Fin 1024) :
    FloatOps.matmul dot_S1024x1024_S1024x1024_S1024x1024_1_1_0_0_n_n none l r (constant S1024x1024 .f32 0x00000000#32) (ix2 i j)
      = ∑ k : Fin 1024, l (ix2 i k) * r (ix2 j k) := by
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 i j) ((contrEquiv1 dot_S1024x1024_S1024x1024_S1024x1024_1_1_0_0_n_n 1024 rfl rfl).symm k) = ix2 i k := funext fun a => Fin.ext (by
    match a with
    | ⟨0, _⟩ => exact lhs_nt_0 _ _
    | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 i j) ((contrEquiv1 dot_S1024x1024_S1024x1024_S1024x1024_1_1_0_0_n_n 1024 rfl rfl).symm k) = ix2 j k := funext fun a => Fin.ext (by
    match a with
    | ⟨0, _⟩ => exact rhs_nt_0 _ _
    | ⟨1, _⟩ => exact (dot_S1024x1024_S1024x1024_S1024x1024_1_1_0_0_n_n.rhsIdx_val_of_single rfl _ _).trans hk)
  rw [el, er]

theorem lhs_nn_0 (j : S1024x1024.Idx) (q : dot_S1024x1024_S1024x1024_S1024x1024_1_0_0_1_n_n.contr.Idx) : (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem rhs_nn_1 (j : S1024x1024.Idx) (q : dot_S1024x1024_S1024x1024_S1024x1024_1_0_0_1_n_n.contr.Idx) : (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The plain product of two matrices into a zero accumulator, read at an index. -/
theorem matmul_nn_apply (l r : FVec Ideal S1024x1024 .bf16) (i j : Fin 1024) :
    FloatOps.matmul dot_S1024x1024_S1024x1024_S1024x1024_1_0_0_1_n_n none l r (constant S1024x1024 .f32 0x00000000#32) (ix2 i j)
      = ∑ k : Fin 1024, l (ix2 i k) * r (ix2 k j) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 i j) ((contrEquiv1 dot_S1024x1024_S1024x1024_S1024x1024_1_0_0_1_n_n 1024 rfl rfl).symm k) = ix2 i k := funext fun a => Fin.ext (by
    match a with
    | ⟨0, _⟩ => exact lhs_nn_0 _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 i j) ((contrEquiv1 dot_S1024x1024_S1024x1024_S1024x1024_1_0_0_1_n_n 1024 rfl rfl).symm k) = ix2 k j := funext fun a => Fin.ext (by
    match a with
    | ⟨0, _⟩ => exact (dot_S1024x1024_S1024x1024_S1024x1024_1_0_0_1_n_n.rhsIdx_val_of_single rfl _ _).trans hk
    | ⟨1, _⟩ => exact rhs_nn_1 _ _)
  rw [el, er]

end Cert.KernelIdeal.FlashVal

end
-- ==== Proof.FlashValPay.lean ====
/-
  The attention body's pure values, read at an index. One step over a key tile takes the running row maximum M,
  normaliser L and weighted sum A to
    M' = max M (row maximum of the scaled scores),   L' = exp (M - M') * L + row sum of exp (score - M'),
    A' = exp (M - M') * A + exp (score - M') times the value tile;
  the output block is A / L. Each value is read here as an expression of the elements of the values before it.
-/
import proofs.«121031_j31636729102987_2_alg».proof.Proof.Gen.KernelIdeal.Skeleton
import proofs.«121031_j31636729102987_2_alg».proof.Proof.LibOnlineSoftmax
import proofs.«121031_j31636729102987_2_alg».proof.Proof.LibOnlineSoftmaxIdeal
import Idealize.ShloMosaic.PureOps.Ideal.Laws
import Idealize.ShloMosaic.Lib.ValueIdx
import Idealize.ShloMosaic.Lib.ValueLayout
import Idealize.ShloMosaic.Lib.Pipeline.Value
import proofs.«121031_j31636729102987_2_alg».proof.Proof.FlashValOps

noncomputable section

namespace Cert.KernelIdeal.FlashVal

open Cert.KernelIdeal Cert.KernelIdeal.Gen Idealize.ShloMosaic Idealize.ShloMosaic.ValueIdx

/-! ## The running state after one key tile, as the kernel's payloads compose it -/

/-- The running row maximum after a key tile. -/
def stepM (x3 x4 : Vec Ideal S1x1024x1024 .bf16) (M : Vec Ideal S1024x1 .f32) : FVec Ideal S1024x1 .f32 :=
  k1_pay2 (F := Ideal) (k1_pay9 (F := Ideal) x3 x4 M)

/-- The running normaliser after a key tile. -/
def stepL (x3 x4 : Vec Ideal S1x1024x1024 .bf16) (M L : Vec Ideal S1024x1 .f32) : FVec Ideal S1024x1 .f32 :=
  k1_pay12 (F := Ideal) x3 x4 M M L

/-- The running weighted sum after a key tile and its value tile. -/
def stepA (x3 x4 x5 : Vec Ideal S1x1024x1024 .bf16) (M : Vec Ideal S1024x1 .f32) (A : Vec Ideal S1024x1024 .f32) :
    FVec Ideal S1024x1024 .f32 :=
  k1_pay1 (F := Ideal) (k1_pay7 (F := Ideal) x5) (k1_pay10 (F := Ideal) x3 x4 M M) (k1_pay11 (F := Ideal) x3 x4 M) A

/-- The output block: the weighted sum divided by the normaliser. -/
def outQ (A : Vec Ideal S1024x1024 .f32) (L : Vec Ideal S1024x1 .f32) : FVec Ideal S1x1024x1024 .bf16 :=
  k1_pay3 (F := Ideal) A L

/-! ## Reductions along a row, read at an index -/

/-- The maximum of each row from −∞, as a column, read at a row: the fold of the maximum along the row. -/
theorem rowmax_apply (s : FVec Ideal S1024x1024 .f32) (h : S1024x1024.Reduces [1] S1024) (hφ : FKind.Formats .f32)
    (hacc : (0xFF800000#32 : BitVec 32) = FKind.maximumf.neutral .f32 hφ) (hc : S1024.ShapeCasts S1024x1) (r : Fin 1024) (u : Fin 1) :
    shapeCast S1024x1 (multiReduction (F := Ideal) .maximumf [1] S1024 s 0xFF800000#32 h hφ hacc) hc (ix2 r u)
      = (Finset.univ : Finset (Fin 1024)).fold max (⊥ : EReal) (fun c => s (ix2 r c)) := by
  rw [shapeCast_a_a1_apply]
  refine (Ideal.multiReduction_maximumf_single s _ h hφ hacc (ix1 r)).trans ?_
  rw [OnlineSoftmax.floatOps_ofBits_neg_inf]
  exact congrArg (fun f => Finset.fold max (⊥ : EReal) f Finset.univ) (funext fun c => congrArg s (lift_col h r c))

/-- The sum of each row, as a column, read at a row. -/
theorem rowsum_apply (s : FVec Ideal S1024x1024 .f32) (h : S1024x1024.Reduces [1] S1024) (hφ : FKind.Formats .f32)
    (hacc : (0x00000000#32 : BitVec 32) = FKind.add.neutral .f32 hφ) (hc : S1024.ShapeCasts S1024x1) (r : Fin 1024) (u : Fin 1) :
    shapeCast S1024x1 (multiReduction (F := Ideal) .add [1] S1024 s 0x00000000#32 h hφ hacc) hc (ix2 r u)
      = ∑ c : Fin 1024, s (ix2 r c) := by
  rw [shapeCast_a_a1_apply]
  refine (Ideal.multiReduction_add_single s _ h hφ hacc (ix1 r)).trans ?_
  exact Finset.sum_congr rfl fun c _ => congrArg s (lift_col h r c)

/-! ## The payloads read at an index -/

/-- The scaled scores of a query tile against a key tile. -/
theorem pay8_apply (x3 x4 : Vec Ideal S1x1024x1024 .bf16) (r c : Fin 1024) :
    k1_pay8 (F := Ideal) x3 x4 (ix2 r c)
      = (∑ k : Fin 1024, x3 (ix3 (0 : Fin 1) r k) * x4 (ix3 (0 : Fin 1) c k)) * ((1 / 32 : ℝ) : EReal) := by
  unfold k1_pay8
  show FloatOps.matmul dot_S1024x1024_S1024x1024_S1024x1024_1_1_0_0_n_n none (shapeCast S1024x1024 x3 shapeCasts_S1x1024x1024_S1024x1024)
      (shapeCast S1024x1024 x4 shapeCasts_S1x1024x1024_S1024x1024) (constant S1024x1024 .f32 0x00000000#32) (ix2 r c)
      * Ideal.ofBits .f32 0x3D000000#32 = _
  rw [matmul_nt_apply, ofBits_inv32]
  simp only [shapeCast_1ab_ab_apply]

/-- The new running maximum: the old one against the tile's row maximum. -/
theorem pay9_apply (x3 x4 : Vec Ideal S1x1024x1024 .bf16) (M : Vec Ideal S1024x1 .f32) (r : Fin 1024) (u : Fin 1) :
    k1_pay9 (F := Ideal) x3 x4 M (ix2 r u)
      = OnlineSoftmax.stepM (M (ix2 r u)) (fun c => k1_pay8 (F := Ideal) x3 x4 (ix2 r c)) := by
  unfold k1_pay9 OnlineSoftmax.stepM
  exact congrArg (max (M (ix2 r u))) (rowmax_apply (k1_pay8 (F := Ideal) x3 x4) _ _ _ _ r u)

/-- The rescaling factor of the old state. -/
theorem pay10_apply (x3 x4 : Vec Ideal S1x1024x1024 .bf16) (M M' : Vec Ideal S1024x1 .f32) (r : Fin 1024) (u : Fin 1) :
    k1_pay10 (F := Ideal) x3 x4 M M' (ix2 r u) = Ideal.exp (M' (ix2 r u) - k1_pay9 (F := Ideal) x3 x4 M (ix2 r u)) := rfl

/-- The tile's shifted exponentials. -/
theorem pay11_apply (x3 x4 : Vec Ideal S1x1024x1024 .bf16) (M : Vec Ideal S1024x1 .f32) (r c : Fin 1024) :
    k1_pay11 (F := Ideal) x3 x4 M (ix2 r c)
      = Ideal.exp (k1_pay8 (F := Ideal) x3 x4 (ix2 r c) - k1_pay9 (F := Ideal) x3 x4 M (ix2 r (0 : Fin 1))) := by
  unfold k1_pay11
  show Ideal.exp (k1_pay8 (F := Ideal) x3 x4 (ix2 r c)
      - broadcastTo S1024x1024 (k1_pay9 (F := Ideal) x3 x4 M) broadcasts_S1024x1_S1024x1024 (ix2 r c)) = _
  rw [broadcastTo_a1_ab_apply]

/-- The new running normaliser. -/
theorem pay12_apply (x3 x4 : Vec Ideal S1x1024x1024 .bf16) (M M' L : Vec Ideal S1024x1 .f32) (r : Fin 1024) (u : Fin 1) :
    k1_pay12 (F := Ideal) x3 x4 M M' L (ix2 r u)
      = k1_pay10 (F := Ideal) x3 x4 M M' (ix2 r u) * L (ix2 r u) + ∑ c : Fin 1024, k1_pay11 (F := Ideal) x3 x4 M (ix2 r c) := by
  unfold k1_pay12
  rw [shapeCast_self]
  exact congrArg (k1_pay10 (F := Ideal) x3 x4 M M' (ix2 r u) * L (ix2 r u) + ·)
    (rowsum_apply (k1_pay11 (F := Ideal) x3 x4 M) _ _ _ _ r u)

/-- The new running weighted sum: the rescaled old one plus the tile's exponentials times its values. -/
theorem pay1_apply (V : FVec Ideal S1024x1024 .bf16) (a : FVec Ideal S1024x1 .f32) (P : FVec Ideal S1024x1024 .f32)
    (A : Vec Ideal S1024x1024 .f32) (r f : Fin 1024) :
    k1_pay1 (F := Ideal) V a P A (ix2 r f)
      = a (ix2 r (0 : Fin 1)) * A (ix2 r f) + ∑ c : Fin 1024, P (ix2 r c) * V (ix2 c f) := by
  unfold k1_pay1
  rw [shapeCast_self]
  show broadcastTo S1024x1024 a broadcasts_S1024x1_S1024x1024 (ix2 r f) * A (ix2 r f)
      + FloatOps.matmul dot_S1024x1024_S1024x1024_S1024x1024_1_0_0_1_n_n none (truncf .bf16 P bitsLt_bf16_f32) V (constant S1024x1024 .f32 0x00000000#32) (ix2 r f) = _
  rw [broadcastTo_a1_ab_apply, matmul_nn_apply]
  rfl

/-- The value tile with its leading unit axis dropped. -/
theorem pay7_apply (x5 : Vec Ideal S1x1024x1024 .bf16) (c f : Fin 1024) :
    k1_pay7 (F := Ideal) x5 (ix2 c f) = x5 (ix3 (0 : Fin 1) c f) := by
  unfold k1_pay7
  exact shapeCast_1ab_ab_apply x5 _ c f

/-- The output block: the quotient by the normaliser's column. -/
theorem pay3_apply (A : Vec Ideal S1024x1024 .f32) (L : Vec Ideal S1024x1 .f32) (u : Fin 1) (r f : Fin 1024) :
    k1_pay3 (F := Ideal) A L (ix3 u r f) = Ideal.div (A (ix2 r f)) (L (ix2 r (0 : Fin 1))) := by
  unfold k1_pay3
  rw [shapeCast_ab_1ab_apply]
  show Ideal.div (A (ix2 r f)) (broadcastTo S1024x1024 L broadcasts_S1024x1_S1024x1024 (ix2 r f)) = _
  rw [broadcastTo_a1_ab_apply]

/-- The initial running maximum is −∞. -/
theorem pay4_apply (i : S1024x1.Idx) : k1_pay4 (F := Ideal) i = (⊥ : EReal) := by
  unfold k1_pay4
  rw [shapeCast_self]
  exact OnlineSoftmax.ofBits_neg_inf

/-- The initial running normaliser is 0. -/
theorem pay5_apply (i : S1024x1.Idx) : k1_pay5 (F := Ideal) i = (0 : EReal) := by
  unfold k1_pay5
  rw [shapeCast_self]
  exact Ideal.ofBits_zero_f32

/-- The initial running weighted sum is 0. -/
theorem pay6_apply (i : S1024x1024.Idx) : k1_pay6 (F := Ideal) i = (0 : EReal) := by
  unfold k1_pay6
  rw [shapeCast_self]
  exact Ideal.ofBits_zero_f32

end Cert.KernelIdeal.FlashVal

end
-- ==== Proof.FlashVal.lean ====
/-
  The attention body over two key tiles computes the two-tile online softmax quotient. Row by row, one step of
  the kernel is one step of the recurrence on the extended reals; on real-valued tiles, started from (−∞, 0, 0),
  two steps and the final quotient give the coerced real quotient.
-/
import proofs.«121031_j31636729102987_2_alg».proof.Proof.Gen.KernelIdeal.Skeleton
import proofs.«121031_j31636729102987_2_alg».proof.Proof.LibOnlineSoftmax
import proofs.«121031_j31636729102987_2_alg».proof.Proof.LibOnlineSoftmaxIdeal
import Idealize.ShloMosaic.PureOps.Ideal.Laws
import Idealize.ShloMosaic.Lib.ValueIdx
import Idealize.ShloMosaic.Lib.ValueLayout
import Idealize.ShloMosaic.Lib.Pipeline.Value
import proofs.«121031_j31636729102987_2_alg».proof.Proof.FlashValPay

noncomputable section

namespace Cert.KernelIdeal.FlashVal

open Cert.KernelIdeal Cert.KernelIdeal.Gen Idealize.ShloMosaic Idealize.ShloMosaic.ValueIdx

/-! ## The kernel's tile step is the recurrence's step, row by row -/

theorem stepM_apply (x3 x4 : Vec Ideal S1x1024x1024 .bf16) (M : Vec Ideal S1024x1 .f32) (r : Fin 1024) :
    stepM x3 x4 M (ix2 r (0 : Fin 1))
      = OnlineSoftmax.stepM (M (ix2 r (0 : Fin 1))) (fun c => k1_pay8 (F := Ideal) x3 x4 (ix2 r c)) := by
  unfold stepM k1_pay2
  rw [shapeCast_self]
  exact pay9_apply x3 x4 M r 0

theorem stepL_apply (x3 x4 : Vec Ideal S1x1024x1024 .bf16) (M L : Vec Ideal S1024x1 .f32) (r : Fin 1024) :
    stepL x3 x4 M L (ix2 r (0 : Fin 1))
      = OnlineSoftmax.stepL (M (ix2 r (0 : Fin 1))) (L (ix2 r (0 : Fin 1))) (fun c => k1_pay8 (F := Ideal) x3 x4 (ix2 r c)) := by
  unfold stepL OnlineSoftmax.stepL
  rw [pay12_apply]
  simp only [pay10_apply, pay11_apply, pay9_apply]

theorem stepA_apply (x3 x4 x5 : Vec Ideal S1x1024x1024 .bf16) (M : Vec Ideal S1024x1 .f32) (A : Vec Ideal S1024x1024 .f32)
    (r f : Fin 1024) :
    stepA x3 x4 x5 M A (ix2 r f)
      = OnlineSoftmax.stepA (M (ix2 r (0 : Fin 1))) (A (ix2 r f)) (fun c => k1_pay8 (F := Ideal) x3 x4 (ix2 r c))
          (fun c => x5 (ix3 (0 : Fin 1) c f)) := by
  unfold stepA OnlineSoftmax.stepA
  rw [pay1_apply]
  simp only [pay10_apply, pay11_apply, pay9_apply, pay7_apply]

theorem outQ_apply (A : Vec Ideal S1024x1024 .f32) (L : Vec Ideal S1024x1 .f32) (r f : Fin 1024) :
    outQ A L (ix3 (0 : Fin 1) r f) = Ideal.div (A (ix2 r f)) (L (ix2 r (0 : Fin 1))) :=
  pay3_apply A L 0 r f

/-- At real-valued tiles the scaled scores are the coerced real scores. -/
theorem score_coe (x3 x4 : Vec Ideal S1x1024x1024 .bf16) (qb kb : Fin 1024 → Fin 1024 → ℝ)
    (hq : ∀ r f, x3 (ix3 (0 : Fin 1) r f) = ((qb r f : ℝ) : EReal))
    (hk : ∀ c f, x4 (ix3 (0 : Fin 1) c f) = ((kb c f : ℝ) : EReal)) (r c : Fin 1024) :
    k1_pay8 (F := Ideal) x3 x4 (ix2 r c) = (((∑ f' : Fin 1024, qb r f' * kb c f') * (1 / 32) : ℝ) : EReal) := by
  rw [pay8_apply]
  simp only [hq, hk]
  rw [EReal.coe_mul, ← OnlineSoftmax.coe_sum]
  simp only [EReal.coe_mul]

/-! ## Two key tiles -/

/-- The recurrence over both tiles from (−∞, 0, 0), then divided, on coerced real scores and values: the coerced
    two-tile online quotient. -/
theorem two_tiles (s v : Fin 2048 → ℝ) (sc0 vv0 sc1 vv1 : Fin 1024 → EReal)
    (h0 : ∀ c, sc0 c = ((s (OnlineSoftmax.lo c) : ℝ) : EReal)) (k0 : ∀ c, vv0 c = ((v (OnlineSoftmax.lo c) : ℝ) : EReal))
    (h1 : ∀ c, sc1 c = ((s (OnlineSoftmax.hi c) : ℝ) : EReal)) (k1 : ∀ c, vv1 c = ((v (OnlineSoftmax.hi c) : ℝ) : EReal)) :
    Ideal.div (OnlineSoftmax.stepA (OnlineSoftmax.stepM ⊥ sc0) (OnlineSoftmax.stepA ⊥ 0 sc0 vv0) sc1 vv1)
        (OnlineSoftmax.stepL (OnlineSoftmax.stepM ⊥ sc0) (OnlineSoftmax.stepL ⊥ 0 sc0) sc1)
      = ((OnlineSoftmax.a2 s v / OnlineSoftmax.l2 s : ℝ) : EReal) := by
  rw [OnlineSoftmax.tile0_m s sc0 h0, OnlineSoftmax.tile0_l s sc0 h0, OnlineSoftmax.tile0_a s v sc0 vv0 h0 k0,
    OnlineSoftmax.tile1_l s sc1 h1, OnlineSoftmax.tile1_a s v sc1 vv1 h1 k1,
    OnlineSoftmax.div_coe_coe _ _ (ne_of_gt (OnlineSoftmax.l2_pos s))]

/-- THE ATTENTION BODY OVER TWO KEY TILES. From the initial state (−∞, 0, 0), the kernel's step over the first key and
    value tiles and then over the second, followed by the final quotient, gives at row `r` and feature `f` of the
    query tile (read once for each step, both reads holding the same reals) the two-tile online quotient of
    that row's real scores against the real values' column `f`. -/
theorem flash_block (x3a x3b x4a x5a x4b x5b : Vec Ideal S1x1024x1024 .bf16)
    (qb : Fin 1024 → Fin 1024 → ℝ) (kr vr : Fin 2048 → Fin 1024 → ℝ)
    (hqa : ∀ r f, x3a (ix3 (0 : Fin 1) r f) = ((qb r f : ℝ) : EReal))
    (hqb : ∀ r f, x3b (ix3 (0 : Fin 1) r f) = ((qb r f : ℝ) : EReal))
    (hka : ∀ c f, x4a (ix3 (0 : Fin 1) c f) = ((kr (OnlineSoftmax.lo c) f : ℝ) : EReal))
    (hkb : ∀ c f, x4b (ix3 (0 : Fin 1) c f) = ((kr (OnlineSoftmax.hi c) f : ℝ) : EReal))
    (hva : ∀ c f, x5a (ix3 (0 : Fin 1) c f) = ((vr (OnlineSoftmax.lo c) f : ℝ) : EReal))
    (hvb : ∀ c f, x5b (ix3 (0 : Fin 1) c f) = ((vr (OnlineSoftmax.hi c) f : ℝ) : EReal))
    (r f : Fin 1024) :
    outQ (stepA x3b x4b x5b (stepM x3a x4a (k1_pay4 (F := Ideal))) (stepA x3a x4a x5a (k1_pay4 (F := Ideal)) (k1_pay6 (F := Ideal))))
        (stepL x3b x4b (stepM x3a x4a (k1_pay4 (F := Ideal))) (stepL x3a x4a (k1_pay4 (F := Ideal)) (k1_pay5 (F := Ideal))))
        (ix3 (0 : Fin 1) r f)
      = ((OnlineSoftmax.a2 (fun t => (∑ f' : Fin 1024, qb r f' * kr t f') * (1 / 32)) (fun t => vr t f)
          / OnlineSoftmax.l2 (fun t => (∑ f' : Fin 1024, qb r f' * kr t f') * (1 / 32)) : ℝ) : EReal) := by
  simp only [outQ_apply, stepA_apply, stepL_apply, stepM_apply, pay4_apply, pay5_apply, pay6_apply]
  exact two_tiles (fun t => (∑ f' : Fin 1024, qb r f' * kr t f') * (1 / 32)) (fun t => vr t f) _ _ _ _
    (fun c => score_coe x3a x4a qb (fun c f => kr (OnlineSoftmax.lo c) f) hqa hka r c) (fun c => hva c f)
    (fun c => score_coe x3b x4b qb (fun c f => kr (OnlineSoftmax.hi c) f) hqb hkb r c) (fun c => hvb c f)

end Cert.KernelIdeal.FlashVal

end
-- ==== Proof.ValR1.lean ====
/-
  The output array of the attention region.

  The grid is batch × query tile × key tile, the key tile innermost: point t is batch t / 4, query tile
  (t / 2) % 2, key tile t % 2.  An even point folds the first key tile into the reset state; the odd
  point after it folds the second key tile into what the even point left and writes the quotient back.
  Both points read the same query tile, the even one key positions c and the odd one 1024 + c, so what is
  written back at row r, feature f is the two-tile online softmax quotient of that query row against all
  2048 keys and the value column f: the attended value of the specification.  The odd points' blocks
  tile the array.
-/
import proofs.«121031_j31636729102987_2_alg».proof.Proof.FrR1
import proofs.«121031_j31636729102987_2_alg».proof.Proof.FrR1Pieces
import proofs.«121031_j31636729102987_2_alg».proof.Proof.OnlineSoftmaxSpec
import proofs.«121031_j31636729102987_2_alg».proof.Proof.FlashVal
import proofs.«121031_j31636729102987_2_alg».proof.Proof.Gen.KernelIdeal.Points
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

/-! ## The grid -/

/-- The printed index maps, decided over the grid: queries and output at (batch, query tile, 0), keys and values at
    (batch, key tile, 0). -/
theorem idx_facts1 : ∀ t : Fin cfg1.N,
    win1_0.index t (0 : Fin 3) = t.val / 4 ∧ win1_0.index t (1 : Fin 3) = (t.val / 2) % 2 ∧ win1_0.index t (2 : Fin 3) = 0
    ∧ win1_1.index t (0 : Fin 3) = t.val / 4 ∧ win1_1.index t (1 : Fin 3) = t.val % 2 ∧ win1_1.index t (2 : Fin 3) = 0
    ∧ win1_2.index t (0 : Fin 3) = t.val / 4 ∧ win1_2.index t (1 : Fin 3) = t.val % 2 ∧ win1_2.index t (2 : Fin 3) = 0
    ∧ win1_3.index t (0 : Fin 3) = t.val / 4 ∧ win1_3.index t (1 : Fin 3) = (t.val / 2) % 2 ∧ win1_3.index t (2 : Fin 3) = 0 :=
  (by decide +kernel : ∀ t : Fin grid1.N, _)

theorem lt32 (t : Fin cfg1.N) : t.val < 32 := lt_of_lt_of_eq t.isLt (show cfg1.N = 32 from N_1)

/-- The batch entry of point `t`. -/
def bat (t : Fin cfg1.N) : Fin 8 := ⟨t.val / 4, by have := lt32 t; omega⟩
/-- The query position of row `r` of point `t`'s query tile. -/
def qpos (t : Fin cfg1.N) (r : Fin 1024) : Fin 2048 := ⟨1024 * ((t.val / 2) % 2) + r.val, by omega⟩
/-- The key position of row `r` of point `t`'s key tile. -/
def kpos (t : Fin cfg1.N) (r : Fin 1024) : Fin 2048 := ⟨1024 * (t.val % 2) + r.val, by omega⟩
/-- The point before `t`. -/
def prev (t : Fin cfg1.N) : Fin cfg1.N := ⟨t.val - 1, lt_of_le_of_lt (Nat.sub_le _ _) t.isLt⟩

variable (V : (c : Dev nD) → (b : Ref sig .tc) → Buf (Elt Ideal) ((c : Thread nD τ).loc b))

/-! ## The tiles a point reads -/

/-- Row `r`, feature `f` of point `t`'s query tile. -/
theorem iblk1_0_apply (c : Dev nD) (t : Fin cfg1.N) (r f : Fin 1024) :
    iblk1 V c 0 t (ix3 (0 : Fin 1) r f) = V c (Pipeline.arrRef spec1 0) (ix3 (bat t) (qpos t r) f) := by
  obtain ⟨e00, e01, e02, -⟩ := idx_facts1 t
  show V c (Pipeline.arrRef spec1 0) (((cfg1.win 0).blk t).view.emb (ix3 (0 : Fin 1) r f)) = _
  congr 1
  funext a; apply Fin.ext
  match a with
  | ⟨0, _⟩ => show win1_0.index t (0 : Fin 3) * 1 + 1 * 0 = t.val / 4; omega
  | ⟨1, _⟩ => show win1_0.index t (1 : Fin 3) * 1024 + 1 * r.val = 1024 * ((t.val / 2) % 2) + r.val; omega
  | ⟨2, _⟩ => show win1_0.index t (2 : Fin 3) * 1024 + 1 * f.val = f.val; omega

/-- Row `r`, feature `f` of point `t`'s key tile. -/
theorem iblk1_1_apply (c : Dev nD) (t : Fin cfg1.N) (r f : Fin 1024) :
    iblk1 V c 1 t (ix3 (0 : Fin 1) r f) = V c (Pipeline.arrRef spec1 1) (ix3 (bat t) (kpos t r) f) := by
  obtain ⟨-, -, -, e10, e11, e12, -⟩ := idx_facts1 t
  show V c (Pipeline.arrRef spec1 1) (((cfg1.win 1).blk t).view.emb (ix3 (0 : Fin 1) r f)) = _
  congr 1
  funext a; apply Fin.ext
  match a with
  | ⟨0, _⟩ => show win1_1.index t (0 : Fin 3) * 1 + 1 * 0 = t.val / 4; omega
  | ⟨1, _⟩ => show win1_1.index t (1 : Fin 3) * 1024 + 1 * r.val = 1024 * (t.val % 2) + r.val; omega
  | ⟨2, _⟩ => show win1_1.index t (2 : Fin 3) * 1024 + 1 * f.val = f.val; omega

/-- Row `r`, feature `f` of point `t`'s value tile. -/
theorem iblk1_2_apply (c : Dev nD) (t : Fin cfg1.N) (r f : Fin 1024) :
    iblk1 V c 2 t (ix3 (0 : Fin 1) r f) = V c (Pipeline.arrRef spec1 2) (ix3 (bat t) (kpos t r) f) := by
  obtain ⟨-, -, -, -, -, -, e20, e21, e22, -⟩ := idx_facts1 t
  show V c (Pipeline.arrRef spec1 2) (((cfg1.win 2).blk t).view.emb (ix3 (0 : Fin 1) r f)) = _
  congr 1
  funext a; apply Fin.ext
  match a with
  | ⟨0, _⟩ => show win1_2.index t (0 : Fin 3) * 1 + 1 * 0 = t.val / 4; omega
  | ⟨1, _⟩ => show win1_2.index t (1 : Fin 3) * 1024 + 1 * r.val = 1024 * (t.val % 2) + r.val; omega
  | ⟨2, _⟩ => show win1_2.index t (2 : Fin 3) * 1024 + 1 * f.val = f.val; omega

/-! ## What an odd point writes back -/

/-- The output block after an odd point: the second key tile folded into what the first left, then the quotient. -/
theorem after1_3_odd (c : Dev nD) (t : Fin cfg1.N) (h0 : ¬t.val % 2 = 0) :
    (dat1 V c).after 3 t
      = k1_pay3 (F := Ideal)
          (foldA (iblk1 V c 0 t) (iblk1 V c 1 t) (iblk1 V c 2 t)
            (foldM (iblk1 V c 0 (prev t)) (iblk1 V c 1 (prev t)) (k1_pay4 (F := Ideal)))
            (foldA (iblk1 V c 0 (prev t)) (iblk1 V c 1 (prev t)) (iblk1 V c 2 (prev t)) (k1_pay4 (F := Ideal)) (k1_pay6 (F := Ideal))))
          (foldL (iblk1 V c 0 t) (iblk1 V c 1 t)
            (foldM (iblk1 V c 0 (prev t)) (iblk1 V c 1 (prev t)) (k1_pay4 (F := Ideal)))
            (foldL (iblk1 V c 0 (prev t)) (iblk1 V c 1 (prev t)) (k1_pay4 (F := Ideal)) (k1_pay5 (F := Ideal)))) := by
  have hp : (prev t).val % 2 = 0 := by show (t.val - 1) % 2 = 0; omega
  have hA := outsAt1_A V c (prev t) hp
  change outsAt1 V c (t.val - 1) _ = _ at hA
  have e := after1_3 V c t
  rw [outsAt1_B V c t h0] at e
  dsimp only at e
  rw [sout1_B_6_eq] at e
  rw [hA] at e
  dsimp only at e
  rw [sout1_A_7_eq, sout1_A_8_eq, sout1_A_9_eq] at e
  exact e

section Real

variable (c : Dev nD) (qr kr vr : AttnSpec.Act)
  (hq : ∀ n s f, V c (Pipeline.arrRef spec1 0) (ix3 n s f) = ((qr n s f : ℝ) : EReal))
  (hk : ∀ n s f, V c (Pipeline.arrRef spec1 1) (ix3 n s f) = ((kr n s f : ℝ) : EReal))
  (hv : ∀ n s f, V c (Pipeline.arrRef spec1 2) (ix3 n s f) = ((vr n s f : ℝ) : EReal))

include hq hk hv in
/-- At real-valued arrays an odd point leaves, at row `r` and feature `f`, the attended value of its batch entry and
    query position. -/
theorem point_value (t : Fin cfg1.N) (h0 : ¬t.val % 2 = 0) (r f : Fin 1024) :
    (dat1 V c).after 3 t (ix3 (0 : Fin 1) r f) = ((AttnSpec.ctx qr kr vr (bat t) (qpos t r) f : ℝ) : EReal) := by
  rw [after1_3_odd V c t h0]
  have hb : bat (prev t) = bat t := Fin.ext (by show (t.val - 1) / 4 = t.val / 4; omega)
  have hqp : ∀ r, qpos (prev t) r = qpos t r := fun r =>
    Fin.ext (by show 1024 * (((t.val - 1) / 2) % 2) + r.val = 1024 * ((t.val / 2) % 2) + r.val; omega)
  have hk0 : ∀ r, kpos (prev t) r = OnlineSoftmax.lo r := fun r =>
    Fin.ext (by show 1024 * ((t.val - 1) % 2) + r.val = r.val; omega)
  have hk1 : ∀ r, kpos t r = OnlineSoftmax.hi r := fun r =>
    Fin.ext (by show 1024 * (t.val % 2) + r.val = 1024 + r.val; omega)
  refine (FlashVal.flash_block (iblk1 V c 0 (prev t)) (iblk1 V c 0 t) (iblk1 V c 1 (prev t)) (iblk1 V c 2 (prev t))
    (iblk1 V c 1 t) (iblk1 V c 2 t)
    (fun r f' => qr (bat t) (qpos t r) f') (fun t' f' => kr (bat t) t' f') (fun t' f' => vr (bat t) t' f')
    (fun r f => by rw [iblk1_0_apply, hb, hqp, hq]) (fun r f => by rw [iblk1_0_apply, hq])
    (fun c' f => by rw [iblk1_1_apply, hb, hk0, hk]) (fun c' f => by rw [iblk1_1_apply, hk1, hk])
    (fun c' f => by rw [iblk1_2_apply, hb, hk0, hv]) (fun c' f => by rw [iblk1_2_apply, hk1, hv]) r f).trans ?_
  rw [OnlineSoftmax.ctx_eq_online]
  rfl

/-- The attended values as one function of an index of the output array. -/
def ctxArr : S8x2048x1024.Idx → EReal := fun i => ((AttnSpec.ctx qr kr vr (i 0) (i 1) (i 2) : ℝ) : EReal)

include hq hk hv in
/-- What a point that writes back writes is its block of the attended values. -/
theorem flushed1_3_eq (t : Fin cfg1.N) (hf : (cfg1.win 3).flush t = true) :
    (dat1 V c).flushed 3 t = ((cfg1.win 3).blk t).view.read (Elt Ideal) (ctxArr qr kr vr) := by
  have h1 : t.val % 2 = 1 := (flush1_3 t).mp hf
  have h0 : ¬t.val % 2 = 0 := by omega
  obtain ⟨-, -, -, -, -, -, -, -, -, e30, e31, e32⟩ := idx_facts1 t
  show (cfg1.win 3).cut (grid1.coords t) ((dat1 V c).after 3 t) = _
  funext j
  obtain ⟨u, r, f, rfl⟩ : ∃ (u : Fin 1) (r f : Fin 1024), j = ix3 u r f := ⟨j 0, j 1, j 2, eq_ix3 j⟩
  obtain rfl : u = 0 := Subsingleton.elim _ _
  refine (point_value V c qr kr vr hq hk hv t h0 r f).trans ?_
  have hemb : ((cfg1.win 3).blk t).view.emb (ix3 (0 : Fin 1) r f) = ix3 (bat t) (qpos t r) f := by
    funext a; apply Fin.ext
    match a with
    | ⟨0, _⟩ => show win1_3.index t (0 : Fin 3) * 1 + 1 * 0 = t.val / 4; omega
    | ⟨1, _⟩ => show win1_3.index t (1 : Fin 3) * 1024 + 1 * r.val = 1024 * ((t.val / 2) % 2) + r.val; omega
    | ⟨2, _⟩ => show win1_3.index t (2 : Fin 3) * 1024 + 1 * f.val = f.val; omega
  show ctxArr qr kr vr (ix3 (bat t) (qpos t r) f) = ctxArr qr kr vr (((cfg1.win 3).blk t).view.emb (ix3 (0 : Fin 1) r f))
  rw [hemb]

end Real

/-! ## The odd points' blocks tile the array -/

/-- An entry of the output array is in point `t`'s block iff each coordinate is in the block's range on its axis. -/
theorem mem_blk1_3 (t : Fin cfg1.N) (i : S8x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v9).slice (win1_3.rect t)).set ↔ _
  rw [View.set_slice_whole, Rect.mem_set_unit]
  exact Iff.rfl

/-- Every entry is in the block of an odd point: batch n, position s in that of point 4n + 2(s / 1024) + 1. -/
theorem covered1_3 (i : S8x2048x1024.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 1024 := (i 2).isLt
  have hN : cfg1.N = 32 := N_1
  let t : Fin cfg1.N := ⟨4 * (i 0).val + 2 * ((i 1).val / 1024) + 1, by rw [hN]; omega⟩
  have ht : t.val = 4 * (i 0).val + 2 * ((i 1).val / 1024) + 1 := rfl
  obtain ⟨-, -, -, -, -, -, -, -, -, e30, e31, e32⟩ := idx_facts1 t
  refine ⟨t, (flush1_3 t).mpr (by omega), ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-! ## The array after the region -/

/-- At real-valued query, key and value arrays the output array ends holding the attended values. -/
theorem final1_3 (c : Dev nD) (qr kr vr : AttnSpec.Act)
    (hq : ∀ n s f, V c (Pipeline.arrRef spec1 0) (ix3 n s f) = ((qr n s f : ℝ) : EReal))
    (hk : ∀ n s f, V c (Pipeline.arrRef spec1 1) (ix3 n s f) = ((kr n s f : ℝ) : EReal))
    (hv : ∀ n s f, V c (Pipeline.arrRef spec1 2) (ix3 n s f) = ((vr n s f : ℝ) : EReal)) :
    (dat1 V c).arrAt 3 cfg1.N = ctxArr qr kr vr :=
  (dat1 V c).arrAt_eq_of_cover 3 _ (fun t hf => flushed1_3_eq V c qr kr vr hq hk hv t hf) covered1_3

/-- Entry by entry: batch `n`, position `s`, feature `f` of the output array is the attended value there. -/
theorem value1_3 (c : Dev nD) (qr kr vr : AttnSpec.Act)
    (hq : ∀ n s f, V c (Pipeline.arrRef spec1 0) (ix3 n s f) = ((qr n s f : ℝ) : EReal))
    (hk : ∀ n s f, V c (Pipeline.arrRef spec1 1) (ix3 n s f) = ((kr n s f : ℝ) : EReal))
    (hv : ∀ n s f, V c (Pipeline.arrRef spec1 2) (ix3 n s f) = ((vr n s f : ℝ) : EReal))
    (n : Fin 8) (s : Fin 2048) (f : Fin 1024) :
    (dat1 V c).arrAt 3 cfg1.N (ix3 n s f) = ((AttnSpec.ctx qr kr vr n s f : ℝ) : EReal) := by
  rw [final1_3 V c qr kr vr hq hk hv]
  rfl

/-- The windows' arrays by name. -/
theorem arrRef1_names : Pipeline.arrRef spec1 0 = main_v6 ∧ Pipeline.arrRef spec1 1 = main_v7 ∧ Pipeline.arrRef spec1 2 = main_v8 ∧ Pipeline.arrRef spec1 3 = main_v9 :=
  ⟨rfl, rfl, rfl, rfl⟩

end Cert.KernelIdeal.Val

end
-- ==== Proof.HostGlue.lean ====
/-
  The host operations between the three kernel regions, read at an index.

  Between regions the program only re-views arrays and changes float formats.  A reshape between
  8 × 2048 × 1024 and 16384 × 1024 keeps row-major order, so batch n, position s is row
  2048·n + s;  on the extended reals a change of float format is the identity.
-/
import proofs.«121031_j31636729102987_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.HostGlue

open Cert.KernelIdeal Cert.KernelIdeal.Gen Idealize.ShloMosaic Idealize.ShloMosaic.ValueIdx Idealize.ShloMosaic.TcCoe

/-- The row of the flattened array that holds batch `n`, position `s`. -/
def row (n : Fin 8) (s : Fin 2048) : Fin 16384 := ⟨2048 * n.val + s.val, by omega⟩

theorem row_val (n : Fin 8) (s : Fin 2048) : (row n s).val = 2048 * n.val + s.val := rfl

/-- Every row is the row of exactly its quotient and remainder by 2048. -/
theorem row_surj (r : Fin 16384) :
    r = row ⟨r.val / 2048, by omega⟩ ⟨r.val % 2048, Nat.mod_lt _ (by norm_num)⟩ := by
  apply Fin.ext
  show r.val = 2048 * (r.val / 2048) + r.val % 2048
  omega

theorem row_inj {n n' : Fin 8} {s s' : Fin 2048} (h : row n s = row n' s') : n = n' ∧ s = s' := by
  have hv : 2048 * n.val + s.val = 2048 * n'.val + s'.val := congrArg Fin.val h
  exact ⟨Fin.ext (by omega), Fin.ext (by omega)⟩

/-- Batch `n`, position `s`, feature `f` and row `row n s`, feature `f` have one row-major position. -/
theorem rowMajor_eq (n : Fin 8) (s : Fin 2048) (f : Fin 1024) :
    (S8x2048x1024.rowMajor (ix3 n s f)).val = (S16384x1024.rowMajor (ix2 (row n s) f)).val := by
  rw [Shape.rowMajor_val_two, Shape.rowMajor_val_three]
  show (n.val * 2048 + s.val) * 1024 + f.val = (2048 * n.val + s.val) * 1024 + f.val
  omega

/-- Flattening the two leading axes, read at a row. -/
theorem flatten_apply {α : Type} (x : S8x2048x1024.Idx → α) (n : Fin 8) (s : Fin 2048) (f : Fin 1024) :
    shapeCast S16384x1024 x shapeCasts_S8x2048x1024_S16384x1024 (ix2 (row n s) f) = x (ix3 n s f) :=
  shapeCast_apply x _ _ (ix3 n s f) (rowMajor_eq n s f)

/-- Splitting the leading axis back into batch and position, read at a batch and position. -/
theorem unflatten_apply {α : Type} (x : S16384x1024.Idx → α) (n : Fin 8) (s : Fin 2048) (f : Fin 1024) :
    shapeCast S8x2048x1024 x shapeCasts_S16384x1024_S8x2048x1024 (ix3 n s f) = x (ix2 (row n s) f) :=
  shapeCast_apply x _ _ (ix2 (row n s) f) (rowMajor_eq n s f).symm

variable (W : Valuation τ sig (Elt Ideal))

/-! ### Before the first region -/

theorem after0_v0 :
    (StableHlo.after (hostOps0 (F := Ideal)) W (Proc.devRef .tc main_v0) : S16384x1024.Idx → EReal)
      = shapeCast S16384x1024 (W (Proc.devRef .tc main_arg0) : S8x2048x1024.Idx → EReal)
          shapeCasts_S8x2048x1024_S16384x1024 := by
  after_results; rfl

theorem after0_v1 :
    (StableHlo.after (hostOps0 (F := Ideal)) W (Proc.devRef .tc main_v1) : S1024x1024.Idx → EReal)
      = (W (Proc.devRef .tc main_arg1) : S1024x1024.Idx → EReal) := by
  after_results; rfl

theorem after0_v2 :
    (StableHlo.after (hostOps0 (F := Ideal)) W (Proc.devRef .tc main_v2) : S1024x1024.Idx → EReal)
      = (W (Proc.devRef .tc main_arg3) : S1024x1024.Idx → EReal) := by
  after_results; rfl

theorem after0_v3 :
    (StableHlo.after (hostOps0 (F := Ideal)) W (Proc.devRef .tc main_v3) : S1024x1024.Idx → EReal)
      = (W (Proc.devRef .tc main_arg5) : S1024x1024.Idx → EReal) := by
  after_results; rfl

theorem after0_v4 :
    (StableHlo.after (hostOps0 (F := Ideal)) W (Proc.devRef .tc main_v4) : S1024x1024.Idx → EReal)
      = (W (Proc.devRef .tc main_arg7) : S1024x1024.Idx → EReal) := by
  after_results; rfl

/-- The flattened input holds batch `n`, position `s` in row `row n s`. -/
theorem H0a (n : Fin 8) (s : Fin 2048) (e : Fin 1024) :
    (StableHlo.after (hostOps0 (F := Ideal)) W (Proc.devRef .tc main_v0) : S16384x1024.Idx → EReal) (ix2 (row n s) e)
      = (W (Proc.devRef .tc main_arg0) : S8x2048x1024.Idx → EReal) (ix3 n s e) := by
  rw [after0_v0]; exact flatten_apply _ n s e

/-- The narrowed weight matrices hold the same extended reals as the arguments. -/
theorem H0b_v1 (i : S1024x1024.Idx) :
    (StableHlo.after (hostOps0 (F := Ideal)) W (Proc.devRef .tc main_v1) : S1024x1024.Idx → EReal) i
      = (W (Proc.devRef .tc main_arg1) : S1024x1024.Idx → EReal) i := congrFun (after0_v1 W) i
theorem H0b_v2 (i : S1024x1024.Idx) :
    (StableHlo.after (hostOps0 (F := Ideal)) W (Proc.devRef .tc main_v2) : S1024x1024.Idx → EReal) i
      = (W (Proc.devRef .tc main_arg3) : S1024x1024.Idx → EReal) i := congrFun (after0_v2 W) i
theorem H0b_v3 (i : S1024x1024.Idx) :
    (StableHlo.after (hostOps0 (F := Ideal)) W (Proc.devRef .tc main_v3) : S1024x1024.Idx → EReal) i
      = (W (Proc.devRef .tc main_arg5) : S1024x1024.Idx → EReal) i := congrFun (after0_v3 W) i
theorem H0b_v4 (i : S1024x1024.Idx) :
    (StableHlo.after (hostOps0 (F := Ideal)) W (Proc.devRef .tc main_v4) : S1024x1024.Idx → EReal) i
      = (W (Proc.devRef .tc main_arg7) : S1024x1024.Idx → EReal) i := congrFun (after0_v4 W) i

/-! ### Between the first and second regions -/

theorem after1_v6 :
    (StableHlo.after (hostOps1 (F := Ideal)) W (Proc.devRef .tc main_v6) : S8x2048x1024.Idx → EReal)
      = shapeCast S8x2048x1024 (W (Proc.devRef .tc main_v5_0) : S16384x1024.Idx → EReal)
          shapeCasts_S16384x1024_S8x2048x1024 := by
  after_results; rfl

theorem after1_v7 :
    (StableHlo.after (hostOps1 (F := Ideal)) W (Proc.devRef .tc main_v7) : S8x2048x1024.Idx → EReal)
      = shapeCast S8x2048x1024 (W (Proc.devRef .tc main_v5_1) : S16384x1024.Idx → EReal)
          shapeCasts_S16384x1024_S8x2048x1024 := by
  after_results; rfl

theorem after1_v8 :
    (StableHlo.after (hostOps1 (F := Ideal)) W (Proc.devRef .tc main_v8) : S8x2048x1024.Idx → EReal)
      = shapeCast S8x2048x1024 (W (Proc.devRef .tc main_v5_2) : S16384x1024.Idx → EReal)
          shapeCasts_S16384x1024_S8x2048x1024 := by
  after_results; rfl

theorem H1_v6 (n : Fin 8) (s : Fin 2048) (f : Fin 1024) :
    (StableHlo.after (hostOps1 (F := Ideal)) W (Proc.devRef .tc main_v6) : S8x2048x1024.Idx → EReal) (ix3 n s f)
      = (W (Proc.devRef .tc main_v5_0) : S16384x1024.Idx → EReal) (ix2 (row n s) f) := by
  rw [after1_v6]; exact unflatten_apply _ n s f
theorem H1_v7 (n : Fin 8) (s : Fin 2048) (f : Fin 1024) :
    (StableHlo.after (hostOps1 (F := Ideal)) W (Proc.devRef .tc main_v7) : S8x2048x1024.Idx → EReal) (ix3 n s f)
      = (W (Proc.devRef .tc main_v5_1) : S16384x1024.Idx → EReal) (ix2 (row n s) f) := by
  rw [after1_v7]; exact unflatten_apply _ n s f
theorem H1_v8 (n : Fin 8) (s : Fin 2048) (f : Fin 1024) :
    (StableHlo.after (hostOps1 (F := Ideal)) W (Proc.devRef .tc main_v8) : S8x2048x1024.Idx → EReal) (ix3 n s f)
      = (W (Proc.devRef .tc main_v5_2) : S16384x1024.Idx → EReal) (ix2 (row n s) f) := by
  rw [after1_v8]; exact unflatten_apply _ n s f

/-! ### Between the second and third regions -/

theorem after2_v10 :
    (StableHlo.after (hostOps2 (F := Ideal)) W (Proc.devRef .tc main_v10) : S16384x1024.Idx → EReal)
      = shapeCast S16384x1024 (W (Proc.devRef .tc main_v9) : S8x2048x1024.Idx → EReal)
          shapeCasts_S8x2048x1024_S16384x1024 := by
  after_results; rfl

theorem H2 (n : Fin 8) (s : Fin 2048) (f : Fin 1024) :
    (StableHlo.after (hostOps2 (F := Ideal)) W (Proc.devRef .tc main_v10) : S16384x1024.Idx → EReal) (ix2 (row n s) f)
      = (W (Proc.devRef .tc main_v9) : S8x2048x1024.Idx → EReal) (ix3 n s f) := by
  rw [after2_v10]; exact flatten_apply _ n s f

/-! ### After the third region -/

theorem after3_v12 :
    (StableHlo.after (hostOps3 (F := Ideal)) W (Proc.devRef .tc main_v12) : S8x2048x1024.Idx → EReal)
      = shapeCast S8x2048x1024 (W (Proc.devRef .tc main_v11) : S16384x1024.Idx → EReal)
          shapeCasts_S16384x1024_S8x2048x1024 := by
  after_results; rfl

theorem H3 (n : Fin 8) (s : Fin 2048) (g : Fin 1024) :
    (StableHlo.after (hostOps3 (F := Ideal)) W (Proc.devRef .tc main_v12) : S8x2048x1024.Idx → EReal) (ix3 n s g)
      = (W (Proc.devRef .tc main_v11) : S16384x1024.Idx → EReal) (ix2 (row n s) g) := by
  rw [after3_v12]; exact unflatten_apply _ n s g

end Cert.KernelIdeal.HostGlue

end
-- ==== Proof.ValRun.lean ====
/-
  The idealized kernel's result array, read at an index, is the attention formula of `AttnSpec` at real-valued
  arguments: the values carried through the run, boundary by boundary.

  The three projections see the activations flattened to 16384 rows (row 2048·n + s is position s of batch n); the
  attention kernel sees them unflattened again; the output projection sees the attended values flattened; the result
  is its output unflattened.
-/
import proofs.«121031_j31636729102987_2_alg».proof.Proof.FrRun
import proofs.«121031_j31636729102987_2_alg».proof.Proof.ValR0
import proofs.«121031_j31636729102987_2_alg».proof.Proof.ValR1
import proofs.«121031_j31636729102987_2_alg».proof.Proof.ValR2
import proofs.«121031_j31636729102987_2_alg».proof.Proof.HostGlue
import proofs.«121031_j31636729102987_2_alg».proof.Proof.AttnSpec

set_option maxRecDepth 16384

noncomputable section

namespace Cert.KernelIdeal.Val

open Cert.KernelIdeal Cert.KernelIdeal.Gen Cert.KernelIdeal.Fr Cert.KernelIdeal.HostGlue
open Idealize.ShloMosaic Idealize.ShloMosaic.TcCoe Idealize.ShloMosaic.ValueIdx
open Idealize.SL.Sem

/-- An activation array with its two leading axes flattened: row `r` is position `r % 2048` of batch `r / 2048`. -/
def flat (a : AttnSpec.Act) : Fin 16384 → Fin 1024 → ℝ :=
  fun r e => a ⟨r.val / 2048, by have := r.isLt; omega⟩ ⟨r.val % 2048, Nat.mod_lt _ (by norm_num)⟩ e

theorem flat_row (a : AttnSpec.Act) (n : Fin 8) (s : Fin 2048) (e : Fin 1024) : flat a (row n s) e = a n s e := by
  have hn : (⟨(row n s).val / 2048, by have := (row n s).isLt; omega⟩ : Fin 8) = n := by
    apply Fin.ext; show (row n s).val / 2048 = n.val; rw [row_val]; have := s.isLt; omega
  have hs : (⟨(row n s).val % 2048, Nat.mod_lt _ (by norm_num)⟩ : Fin 2048) = s := by
    apply Fin.ext; show (row n s).val % 2048 = s.val; rw [row_val]; have := s.isLt; omega
  unfold flat; rw [hn, hs]

variable (m : (ℓ : Loc nD τ sig) → Buf (Elt Ideal) ℓ) (ρ : Dev nD → PrngReg) (c : Dev nD)
variable (xr : AttnSpec.Act) (Wqr : AttnSpec.Mat) (bqr : AttnSpec.Bias) (Wkr : AttnSpec.Mat) (bkr : AttnSpec.Bias)
  (Wvr : AttnSpec.Mat) (bvr : AttnSpec.Bias) (Wor : AttnSpec.Mat) (bor : AttnSpec.Bias)

/-- The arguments hold real numbers, with these witnesses. -/
structure RealArgs : Prop where
  hx : ∀ n s e, (m ((c : Thread nD τ).loc main_arg0) : S8x2048x1024.Idx → EReal) (ix3 n s e) = ((xr n s e : ℝ) : EReal)
  hWq : ∀ e f, (m ((c : Thread nD τ).loc main_arg1) : S1024x1024.Idx → EReal) (ix2 e f) = ((Wqr e f : ℝ) : EReal)
  hbq : ∀ f, (m ((c : Thread nD τ).loc main_arg2) : S1024.Idx → EReal) (ix1 f) = ((bqr f : ℝ) : EReal)
  hWk : ∀ e f, (m ((c : Thread nD τ).loc main_arg3) : S1024x1024.Idx → EReal) (ix2 e f) = ((Wkr e f : ℝ) : EReal)
  hbk : ∀ f, (m ((c : Thread nD τ).loc main_arg4) : S1024.Idx → EReal) (ix1 f) = ((bkr f : ℝ) : EReal)
  hWv : ∀ e f, (m ((c : Thread nD τ).loc main_arg5) : S1024x1024.Idx → EReal) (ix2 e f) = ((Wvr e f : ℝ) : EReal)
  hbv : ∀ f, (m ((c : Thread nD τ).loc main_arg6) : S1024.Idx → EReal) (ix1 f) = ((bvr f : ℝ) : EReal)
  hWo : ∀ e f, (m ((c : Thread nD τ).loc main_arg7) : S1024x1024.Idx → EReal) (ix2 e f) = ((Wor e f : ℝ) : EReal)
  hbo : ∀ f, (m ((c : Thread nD τ).loc main_arg8) : S1024.Idx → EReal) (ix1 f) = ((bor f : ℝ) : EReal)

variable {m c xr Wqr bqr Wkr bkr Wvr bvr Wor bor}
variable (H : RealArgs m c xr Wqr bqr Wkr bkr Wvr bvr Wor bor)
include H

/-! ## Before the projection kernel -/

/-- The flattened activations. -/
theorem v0_val (r : Fin 16384) (e : Fin 1024) :
    (V1 m ρ c main_v0 : S16384x1024.Idx → EReal) (ix2 r e) = ((flat xr r e : ℝ) : EReal) := by
  rw [row_surj r, flat_row]
  exact (H0a (W0 m ρ c) _ _ e).trans (H.hx _ _ e)

theorem v1_val (e f : Fin 1024) : (V1 m ρ c main_v1 : S1024x1024.Idx → EReal) (ix2 e f) = ((Wqr e f : ℝ) : EReal) :=
  (H0b_v1 (W0 m ρ c) (ix2 e f)).trans (H.hWq e f)
theorem v2_val (e f : Fin 1024) : (V1 m ρ c main_v2 : S1024x1024.Idx → EReal) (ix2 e f) = ((Wkr e f : ℝ) : EReal) :=
  (H0b_v2 (W0 m ρ c) (ix2 e f)).trans (H.hWk e f)
theorem v3_val (e f : Fin 1024) : (V1 m ρ c main_v3 : S1024x1024.Idx → EReal) (ix2 e f) = ((Wvr e f : ℝ) : EReal) :=
  (H0b_v3 (W0 m ρ c) (ix2 e f)).trans (H.hWv e f)
theorem v4_val (e f : Fin 1024) : (V1 m ρ c main_v4 : S1024x1024.Idx → EReal) (ix2 e f) = ((Wor e f : ℝ) : EReal) :=
  (H0b_v4 (W0 m ρ c) (ix2 e f)).trans (H.hWo e f)

theorem b2_val (f : Fin 1024) : (V1 m ρ c main_arg2 : S1024.Idx → EReal) (ix1 f) = ((bqr f : ℝ) : EReal) := by
  rw [show V1 m ρ c main_arg2 = m ((c : Thread nD τ).loc main_arg2) from W1_keep m ρ c main_arg2 (by decide)]; exact H.hbq f
theorem b4_val (f : Fin 1024) : (V1 m ρ c main_arg4 : S1024.Idx → EReal) (ix1 f) = ((bkr f : ℝ) : EReal) := by
  rw [show V1 m ρ c main_arg4 = m ((c : Thread nD τ).loc main_arg4) from W1_keep m ρ c main_arg4 (by decide)]; exact H.hbk f
theorem b6_val (f : Fin 1024) : (V1 m ρ c main_arg6 : S1024.Idx → EReal) (ix1 f) = ((bvr f : ℝ) : EReal) := by
  rw [show V1 m ρ c main_arg6 = m ((c : Thread nD τ).loc main_arg6) from W1_keep m ρ c main_arg6 (by decide)]; exact H.hbv f

/-! ## After the projection kernel: queries, keys, values -/

theorem q_val (n : Fin 8) (s : Fin 2048) (f : Fin 1024) :
    (V3 m ρ c main_v6 : S8x2048x1024.Idx → EReal) (ix3 n s f) = ((AttnSpec.proj xr Wqr bqr n s f : ℝ) : EReal) := by
  refine (H1_v6 (W2 m ρ c) n s f).trans ?_
  rw [show W2 m ρ c (Proc.devRef .tc main_v5_0) = (dat0 (V1 m ρ) c).arrAt 7 cfg0.N from W2_arr m ρ c 7]
  rw [value0_7 (V1 m ρ) c (flat xr) Wqr bqr (v0_val ρ H) (v1_val ρ H) (b2_val ρ H) (row n s) f]
  simp only [flat_row, AttnSpec.proj]

theorem k_val (n : Fin 8) (s : Fin 2048) (f : Fin 1024) :
    (V3 m ρ c main_v7 : S8x2048x1024.Idx → EReal) (ix3 n s f) = ((AttnSpec.proj xr Wkr bkr n s f : ℝ) : EReal) := by
  refine (H1_v7 (W2 m ρ c) n s f).trans ?_
  rw [show W2 m ρ c (Proc.devRef .tc main_v5_1) = (dat0 (V1 m ρ) c).arrAt 8 cfg0.N from W2_arr m ρ c 8]
  rw [value0_8 (V1 m ρ) c (flat xr) Wkr bkr (v0_val ρ H) (v2_val ρ H) (b4_val ρ H) (row n s) f]
  simp only [flat_row, AttnSpec.proj]

theorem v_val (n : Fin 8) (s : Fin 2048) (f : Fin 1024) :
    (V3 m ρ c main_v8 : S8x2048x1024.Idx → EReal) (ix3 n s f) = ((AttnSpec.proj xr Wvr bvr n s f : ℝ) : EReal) := by
  refine (H1_v8 (W2 m ρ c) n s f).trans ?_
  rw [show W2 m ρ c (Proc.devRef .tc main_v5_2) = (dat0 (V1 m ρ) c).arrAt 9 cfg0.N from W2_arr m ρ c 9]
  rw [value0_9 (V1 m ρ) c (flat xr) Wvr bvr (v0_val ρ H) (v3_val ρ H) (b6_val ρ H) (row n s) f]
  simp only [flat_row, AttnSpec.proj]

/-! ## After the attention kernel -/

theorem ctx_val (n : Fin 8) (s : Fin 2048) (f : Fin 1024) :
    (W4 m ρ c (Proc.devRef .tc main_v9) : S8x2048x1024.Idx → EReal) (ix3 n s f)
      = ((AttnSpec.ctx (AttnSpec.proj xr Wqr bqr) (AttnSpec.proj xr Wkr bkr) (AttnSpec.proj xr Wvr bvr) n s f : ℝ) : EReal) := by
  rw [show W4 m ρ c (Proc.devRef .tc main_v9) = (dat1 (V3 m ρ) c).arrAt 3 cfg1.N from W4_arr m ρ c 3]
  exact value1_3 (V3 m ρ) c _ _ _ (q_val ρ H) (k_val ρ H) (v_val ρ H) n s f

/-- The attended values, flattened for the output projection. -/
theorem v10_val (r : Fin 16384) (f : Fin 1024) :
    (V5 m ρ c main_v10 : S16384x1024.Idx → EReal) (ix2 r f)
      = ((flat (AttnSpec.ctx (AttnSpec.proj xr Wqr bqr) (AttnSpec.proj xr Wkr bkr) (AttnSpec.proj xr Wvr bvr)) r f : ℝ) : EReal) := by
  rw [row_surj r, flat_row]
  exact (H2 (W4 m ρ c) _ _ f).trans (ctx_val ρ H _ _ f)

/-- The output weights reach the output projection as cast before the first kernel: nothing in between writes them. -/
theorem v4_val5 (e f : Fin 1024) : (V5 m ρ c main_v4 : S1024x1024.Idx → EReal) (ix2 e f) = ((Wor e f : ℝ) : EReal) := by
  rw [show V5 m ρ c main_v4 = V1 m ρ c main_v4 from
    (W5_keep m ρ c main_v4 (by decide)).trans ((W4_keep m ρ c main_v4 (by decide)).trans
      ((W3_keep m ρ c main_v4 (by decide)).trans (W2_keep m ρ c main_v4 (by decide))))]
  exact v4_val ρ H e f

theorem b8_val5 (f : Fin 1024) : (V5 m ρ c main_arg8 : S1024.Idx → EReal) (ix1 f) = ((bor f : ℝ) : EReal) := by
  rw [show V5 m ρ c main_arg8 = m ((c : Thread nD τ).loc main_arg8) from
    (W5_keep m ρ c main_arg8 (by decide)).trans ((W4_keep m ρ c main_arg8 (by decide)).trans
      ((W3_keep m ρ c main_arg8 (by decide)).trans ((W2_keep m ρ c main_arg8 (by decide)).trans (W1_keep m ρ c main_arg8 (by decide)))))]
  exact H.hbo f

/-! ## The result -/

/-- The kernel's result array holds the attention formula, index by index. -/
theorem result_val (n : Fin 8) (s : Fin 2048) (g : Fin 1024) :
    (W7 m ρ c (Proc.devRef .tc main_v12) : S8x2048x1024.Idx → EReal) (ix3 n s g)
      = ((AttnSpec.out xr Wqr bqr Wkr bkr Wvr bvr Wor bor n s g : ℝ) : EReal) := by
  refine (H3 (W6 m ρ c) n s g).trans ?_
  rw [show W6 m ρ c (Proc.devRef .tc main_v11) = (dat2 (V5 m ρ) c).arrAt 3 cfg2.N from W6_arr m ρ c 3]
  rw [value2_3 (V5 m ρ) c _ Wor bor (v10_val ρ H) (v4_val5 ρ H) (b8_val5 ρ H) (row n s) g]
  simp only [flat_row, AttnSpec.out, AttnSpec.proj]

end Cert.KernelIdeal.Val

end
-- ==== Proof.RefConsts.lean ====
/-
  The constants of the reference program as extended reals, the score scale 1/32, and two facts about
  coercing finite sums and finite maxima of reals into the extended reals.
-/
import proofs.«121031_j31636729102987_2_alg».proof.Defs
import proofs.«121031_j31636729102987_2_alg».proof.Proof.Gen.ReferenceIdeal
import proofs.«121031_j31636729102987_2_alg».proof.Proof.Gen.ReferenceIdeal.Run
import proofs.«121031_j31636729102987_2_alg».proof.Proof.Gen.ReferenceIdeal.Read
import proofs.«121031_j31636729102987_2_alg».proof.Proof.AttnSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `1.0` denotes 1. -/
theorem ofBits_one : Ideal.ofBits .f32 0x3F800000#32 = ((1 : ℝ) : EReal) := by
  simp [Ideal.ofBits, Ideal.ieee, -EReal.coe_mul]; norm_num

/-- The pattern of `-inf` denotes the bottom element. -/
theorem ofBits_neg_inf : Ideal.ofBits .f32 0xFF800000#32 = (⊥ : EReal) := by
  simp [Ideal.ofBits, Ideal.ieee]

/-- The pattern of `+0.0` denotes 0. -/
theorem ofBits_zero : Ideal.ofBits .f32 0x00000000#32 = (0 : EReal) := by
  simp [Ideal.ofBits, Ideal.ieee]

/-- The square root of 1024 is 32. -/
theorem sqrt_1024 : Real.sqrt 1024 = 32 := by
  rw [show (1024 : ℝ) = 32 ^ 2 by norm_num]
  exact Real.sqrt_sq (by norm_num)

/-- The score scale `1.0 / sqrt 1024.0` is the real 1/32. -/
theorem scale_val (i : S_.Idx) : val_main_v13 (F := Ideal) i = ((1 / 32 : ℝ) : EReal) := by
  rw [val_main_v13_apply, val_main_cst_0_apply, val_main_v12_apply, val_main_cst_apply]
  simp only [Ideal.hostDivf_def, Ideal.hostUnary_sqrt_def, Ideal.ofBits_def, ofBits_1024, ofBits_one, Ideal.sqrt_coe]
  rw [if_neg (by norm_num), sqrt_1024, Ideal.div_coe (by norm_num : (32 : ℝ) ≠ 0), ← EReal.coe_mul, one_mul]

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Folding the maximum from the bottom element over coerced reals of a non-empty finite set gives the coerced
    supremum of the reals. -/
theorem fold_max_coe {ι : Type} (s : Finset ι) (hne : s.Nonempty) (f : ι → ℝ) :
    s.fold max (⊥ : EReal) (fun i => (f i : EReal)) = ((s.sup' hne f : ℝ) : EReal) := by
  induction hne using Finset.Nonempty.cons_induction with
  | singleton a => rw [Finset.fold_singleton, Finset.sup'_singleton, max_eq_left bot_le]
  | cons a s ha hs ih =>
    rw [Finset.fold_cons, ih, Finset.sup'_cons hs]
    exact (EReal.coe_strictMono.monotone.map_max).symm

end Cert.ReferenceIdeal.RefValue

end
-- ==== Proof.RefProj.lean ====
/-
  The three projections of the reference program (query, key, value) and its output projection are one
  composition of operations: a contraction with a weight matrix plus a broadcast bias. At real-valued
  arguments its element is the real linear layer `x·W + b`.
-/
import proofs.«121031_j31636729102987_2_alg».proof.Defs
import proofs.«121031_j31636729102987_2_alg».proof.Proof.Gen.ReferenceIdeal
import proofs.«121031_j31636729102987_2_alg».proof.Proof.Gen.ReferenceIdeal.Run
import proofs.«121031_j31636729102987_2_alg».proof.Proof.Gen.ReferenceIdeal.Read
import proofs.«121031_j31636729102987_2_alg».proof.Proof.AttnSpec
import Idealize.ShloMosaic.Lib.ValueIdx
import Idealize.ShloMosaic.PureOps.Ideal.Laws
import proofs.«121031_j31636729102987_2_alg».proof.Proof.RefConsts

noncomputable section

namespace Cert.ReferenceIdeal.RefValue

open Cert.ReferenceIdeal Cert.ReferenceIdeal.Gen Cert.ReferenceIdeal.Read Idealize.ShloMosaic Idealize.ShloMosaic.ValueIdx

/-- A linear layer of the program at real arguments is the real linear layer. -/
theorem proj_stage (x : (⟨S8x2048x1024, .f32⟩ : BufTy).Contents (Elt Ideal)) (W : (⟨S1024x1024, .f32⟩ : BufTy).Contents (Elt Ideal))
    (b : (⟨S1024, .f32⟩ : BufTy).Contents (Elt Ideal)) (xr : AttnSpec.Act) (Wr : AttnSpec.Mat) (br : AttnSpec.Bias)
    (hx : ∀ n s e, x (ix3 n s e) = ((xr n s e : ℝ) : EReal)) (hW : ∀ e f, W (ix2 e f) = ((Wr e f : ℝ) : EReal))
    (hb : ∀ f, b (ix1 f) = ((br f : ℝ) : EReal)) (n : Fin 8) (s : Fin 2048) (f : Fin 1024) :
    val_main_v3 (F := Ideal) x W b (ix3 n s f) = ((AttnSpec.proj xr Wr br n s f : ℝ) : EReal) := by
  rw [val_main_v3_apply, val_main_v0_apply, val_main_v2_apply, val_main_v1_apply]
  have hl : ∀ k : Fin 1024, lidx_main_v0 (ix3 n s f) k = ix3 n s k := fun k => funext fun a => by
    match a with
    | ⟨0, _⟩ => rfl
    | ⟨1, _⟩ => rfl
    | ⟨2, _⟩ => rfl
  have hr : ∀ k : Fin 1024, ridx_main_v0 (ix3 n s f) k = ix2 k f := fun k => funext fun a => by
    match a with
    | ⟨0, _⟩ => rfl
    | ⟨1, _⟩ => rfl
  have hb' : idx_main_v1 (idx_main_v2 (ix3 n s f)) = ix1 f := funext fun a => by
    match a with
    | ⟨0, _⟩ => rfl
  simp only [hl, hr, hb', hx, hW, hb, Ideal.addf_def]
  show _ = (((∑ e : Fin 1024, xr n s e * Wr e f) + br f : ℝ) : EReal)
  rw [EReal.coe_add, coe_sum]
  simp only [EReal.coe_mul]

/-- The key projection is the same composition of operations as the query projection. -/
theorem v7_eq_v3 (x : (⟨S8x2048x1024, .f32⟩ : BufTy).Contents (Elt Ideal)) (W : (⟨S1024x1024, .f32⟩ : BufTy).Contents (Elt Ideal))
    (b : (⟨S1024, .f32⟩ : BufTy).Contents (Elt Ideal)) : val_main_v7 (F := Ideal) x W b = val_main_v3 (F := Ideal) x W b := rfl

/-- The value projection is the same composition of operations as the query projection. -/
theorem v11_eq_v3 (x : (⟨S8x2048x1024, .f32⟩ : BufTy).Contents (Elt Ideal)) (W : (⟨S1024x1024, .f32⟩ : BufTy).Contents (Elt Ideal))
    (b : (⟨S1024, .f32⟩ : BufTy).Contents (Elt Ideal)) : val_main_v11 (F := Ideal) x W b = val_main_v3 (F := Ideal) x W b := rfl

end Cert.ReferenceIdeal.RefValue

end
-- ==== Proof.RefScore.lean ====
/-
  The scaled scores of the reference program and the maximum of each row of scores, at real-valued
  arguments: the contraction of a query with a key times the scale 1/32, and the maximum fold over the row
  started from −∞.
-/
import proofs.«121031_j31636729102987_2_alg».proof.Defs
import proofs.«121031_j31636729102987_2_alg».proof.Proof.Gen.ReferenceIdeal
import proofs.«121031_j31636729102987_2_alg».proof.Proof.Gen.ReferenceIdeal.Run
import proofs.«121031_j31636729102987_2_alg».proof.Proof.Gen.ReferenceIdeal.Read
import proofs.«121031_j31636729102987_2_alg».proof.Proof.AttnSpec
import Idealize.ShloMosaic.Lib.ValueIdx
import Idealize.ShloMosaic.PureOps.Ideal.Laws
import proofs.«121031_j31636729102987_2_alg».proof.Proof.RefProj

noncomputable section

namespace Cert.ReferenceIdeal.RefValue

open Cert.ReferenceIdeal Cert.ReferenceIdeal.Gen Cert.ReferenceIdeal.Read Idealize.ShloMosaic Idealize.ShloMosaic.ValueIdx

/-- The scaled scores of the program are the real scores. -/
theorem score_stage (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (q k : AttnSpec.Act)
    (hq : ∀ n s f, val_main_v3 (F := Ideal) x0 x1 x2 (ix3 n s f) = ((q n s f : ℝ) : EReal))
    (hk : ∀ n s f, val_main_v7 (F := Ideal) x0 x3 x4 (ix3 n s f) = ((k n s f : ℝ) : EReal))
    (n : Fin 8) (s t : Fin 2048) :
    val_main_v16 (F := Ideal) x0 x1 x2 x3 x4 (ix3 n s t) = ((AttnSpec.score q k n s t : ℝ) : EReal) := by
  rw [val_main_v16_apply, val_main_v14_apply, val_main_v15_apply, scale_val]
  have hl : ∀ j : Fin 1024, lidx_main_v14 (ix3 n s t) j = ix3 n s j := fun j => funext fun a => by
    match a with
    | ⟨0, _⟩ => rfl
    | ⟨1, _⟩ => rfl
    | ⟨2, _⟩ => rfl
  have hr : ∀ j : Fin 1024, ridx_main_v14 (ix3 n s t) j = ix3 n t j := fun j => funext fun a => by
    match a with
    | ⟨0, _⟩ => rfl
    | ⟨1, _⟩ => rfl
    | ⟨2, _⟩ => rfl
  simp only [hl, hr, hq, hk, Ideal.mulf_def]
  show _ = (((∑ f : Fin 1024, q n s f * k n t f) * (1 / 32) : ℝ) : EReal)
  rw [EReal.coe_mul, coe_sum]
  simp only [EReal.coe_mul]

/-- A row index of the scores with the reduced coordinate put back. -/
theorem lift_row (h : S8x2048x2048.Reduces [2] S8x2048) (n : Fin 8) (s : Fin 2048) (t : Fin 2048) :
    h.lift (ix2 n s) t = ix3 n s t := by
  funext c; apply Fin.ext
  fin_cases c <;> rfl

/-- The program's row maximum (a maximum fold from −∞, then a maximum with −∞) is the real row maximum. -/
theorem rowmax_stage (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (q k : AttnSpec.Act)
    (hsc : ∀ n s t, val_main_v16 (F := Ideal) x0 x1 x2 x3 x4 (ix3 n s t) = ((AttnSpec.score q k n s t : ℝ) : EReal))
    (n : Fin 8) (s : Fin 2048) :
    val_main_v19 (F := Ideal) x0 x1 x2 x3 x4 (ix2 n s) = ((AttnSpec.rowMax q k n s : ℝ) : EReal) := by
  have h : S8x2048x2048.Reduces [2] S8x2048 := by decide
  rw [val_main_v19_apply, val_main_v18_apply, val_main_cst_2_apply]
  unfold val_main_v17
  rw [Host.reduce_eq_fold_single FloatOps.maximumf _ _ reducesTo_S8x2048x2048_S8x2048_d2 h h_S_, val_main_cst_1_apply]
  have hf : (val_main_v16 (F := Ideal) x0 x1 x2 x3 x4 ∘ h.lift (ix2 n s)) = fun t : Fin 2048 => ((AttnSpec.score q k n s t : ℝ) : EReal) :=
    funext fun t => (congrArg _ (lift_row h n s t)).trans (hsc n s t)
  rw [hf]
  have e := fold_max_coe (Finset.univ : Finset (Fin 2048)) ⟨(0 : Fin 2048), Finset.mem_univ _⟩ (fun t => AttnSpec.score q k n s t)
  simp only [Ideal.ofBits_def, ofBits_neg_inf, Ideal.maximumf_def]
  rw [max_eq_right bot_le]
  exact e

end Cert.ReferenceIdeal.RefValue

end
-- ==== Proof.RefSoftmax.lean ====
/-
  The softmax of each row of scores in the reference program, at real-valued arguments: the row maximum
  subtracted, the exponential, the row's sum, and the quotient by that sum, which is positive.
-/
import proofs.«121031_j31636729102987_2_alg».proof.Defs
import proofs.«121031_j31636729102987_2_alg».proof.Proof.Gen.ReferenceIdeal
import proofs.«121031_j31636729102987_2_alg».proof.Proof.Gen.ReferenceIdeal.Run
import proofs.«121031_j31636729102987_2_alg».proof.Proof.Gen.ReferenceIdeal.Read
import proofs.«121031_j31636729102987_2_alg».proof.Proof.AttnSpec
import Idealize.ShloMosaic.Lib.ValueIdx
import Idealize.ShloMosaic.PureOps.Ideal.Laws
import proofs.«121031_j31636729102987_2_alg».proof.Proof.RefScore

noncomputable section

namespace Cert.ReferenceIdeal.RefValue

open Cert.ReferenceIdeal Cert.ReferenceIdeal.Gen Cert.ReferenceIdeal.Read Idealize.ShloMosaic Idealize.ShloMosaic.ValueIdx

/-- The row maximum, broadcast back over the row. -/
theorem rowmax_bcast (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (q k : AttnSpec.Act)
    (hsc : ∀ n s t, val_main_v16 (F := Ideal) x0 x1 x2 x3 x4 (ix3 n s t) = ((AttnSpec.score q k n s t : ℝ) : EReal))
    (n : Fin 8) (s t : Fin 2048) :
    val_main_v21 (F := Ideal) x0 x1 x2 x3 x4 (ix3 n s t) = ((AttnSpec.rowMax q k n s : ℝ) : EReal) := by
  rw [val_main_v21_apply, val_main_v20_apply]
  have hi : idx_main_v20 (idx_main_v21 (ix3 n s t)) = ix2 n s := funext fun a => by
    match a with
    | ⟨0, _⟩ => rfl
    | ⟨1, _⟩ => rfl
  rw [hi]
  exact rowmax_stage x0 x1 x2 x3 x4 q k hsc n s

/-- The shifted exponentials of the program are the real ones. -/
theorem ex_stage (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (q k : AttnSpec.Act)
    (hsc : ∀ n s t, val_main_v16 (F := Ideal) x0 x1 x2 x3 x4 (ix3 n s t) = ((AttnSpec.score q k n s t : ℝ) : EReal))
    (n : Fin 8) (s t : Fin 2048) :
    val_main_v23 (F := Ideal) x0 x1 x2 x3 x4 (ix3 n s t) = ((AttnSpec.ex q k n s t : ℝ) : EReal) := by
  rw [val_main_v23_apply, val_main_v22_apply, hsc, rowmax_bcast x0 x1 x2 x3 x4 q k hsc]
  simp only [Ideal.hostUnary_exp_def, Ideal.subf_def]
  rw [← EReal.coe_sub, Ideal.exp_coe]
  rfl

/-- The program's row normaliser (a sum from 0) is the real one. -/
theorem rowsum_stage (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (q k : AttnSpec.Act)
    (hsc : ∀ n s t, val_main_v16 (F := Ideal) x0 x1 x2 x3 x4 (ix3 n s t) = ((AttnSpec.score q k n s t : ℝ) : EReal))
    (n : Fin 8) (s : Fin 2048) :
    val_main_v24 (F := Ideal) x0 x1 x2 x3 x4 (ix2 n s) = ((AttnSpec.rowSum q k n s : ℝ) : EReal) := by
  rw [val_main_v24_apply, val_main_cst_3_apply]
  have hi : ∀ t : Fin 2048, idx_main_v24 (ix2 n s) t = ix3 n s t := fun t => funext fun a => by
    match a with
    | ⟨0, _⟩ => rfl
    | ⟨1, _⟩ => rfl
    | ⟨2, _⟩ => rfl
  simp only [hi, ex_stage x0 x1 x2 x3 x4 q k hsc, Ideal.ofBits_def, ofBits_zero, zero_add]
  show _ = ((∑ t : Fin 2048, AttnSpec.ex q k n s t : ℝ) : EReal)
  rw [coe_sum]

/-- The softmax weights of the program are the real ones: the normaliser is positive, so the quotient is the
    real quotient. -/
theorem attn_stage (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (q k : AttnSpec.Act)
    (hsc : ∀ n s t, val_main_v16 (F := Ideal) x0 x1 x2 x3 x4 (ix3 n s t) = ((AttnSpec.score q k n s t : ℝ) : EReal))
    (n : Fin 8) (s t : Fin 2048) :
    val_main_v27 (F := Ideal) x0 x1 x2 x3 x4 (ix3 n s t) = ((AttnSpec.attn q k n s t : ℝ) : EReal) := by
  rw [val_main_v27_apply, val_main_v26_apply, val_main_v25_apply]
  have hi : idx_main_v25 (idx_main_v26 (ix3 n s t)) = ix2 n s := funext fun a => by
    match a with
    | ⟨0, _⟩ => rfl
    | ⟨1, _⟩ => rfl
  rw [hi, ex_stage x0 x1 x2 x3 x4 q k hsc, rowsum_stage x0 x1 x2 x3 x4 q k hsc]
  simp only [Ideal.hostDivf_def]
  rw [Ideal.div_coe (AttnSpec.rowSum_pos q k n s).ne', ← EReal.coe_mul, mul_one_div]
  rfl

end Cert.ReferenceIdeal.RefValue

end
-- ==== Proof.RefValue.lean ====
/-
  The reference program's result, read at an index, is the attention formula of `AttnSpec` at
  real-valued arguments.
-/
import proofs.«121031_j31636729102987_2_alg».proof.Defs
import proofs.«121031_j31636729102987_2_alg».proof.Proof.Gen.ReferenceIdeal
import proofs.«121031_j31636729102987_2_alg».proof.Proof.Gen.ReferenceIdeal.Run
import proofs.«121031_j31636729102987_2_alg».proof.Proof.Gen.ReferenceIdeal.Read
import proofs.«121031_j31636729102987_2_alg».proof.Proof.AttnSpec
import Idealize.ShloMosaic.Lib.ValueIdx
import Idealize.ShloMosaic.PureOps.Ideal.Laws
import proofs.«121031_j31636729102987_2_alg».proof.Proof.RefSoftmax
import proofs.«121031_j31636729102987_2_alg».proof.Proof.Gen.Pre_finite_inputs

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The attended values of the program are the real ones. -/
theorem ctx_stage (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (q k v : AttnSpec.Act)
    (hsc : ∀ n s t, val_main_v16 (F := Ideal) x0 x1 x2 x3 x4 (ix3 n s t) = ((AttnSpec.score q k n s t : ℝ) : EReal))
    (hv : ∀ n s f, val_main_v11 (F := Ideal) x0 x5 x6 (ix3 n s f) = ((v n s f : ℝ) : EReal))
    (n : Fin 8) (s : Fin 2048) (f : Fin 1024) :
    val_main_v28 (F := Ideal) x0 x1 x2 x3 x4 x5 x6 (ix3 n s f) = ((AttnSpec.ctx q k v n s f : ℝ) : EReal) := by
  rw [val_main_v28_apply]
  have hl : ∀ t : Fin 2048, lidx_main_v28 (ix3 n s f) t = ix3 n s t := fun t => funext fun a => by
    match a with
    | ⟨0, _⟩ => rfl
    | ⟨1, _⟩ => rfl
    | ⟨2, _⟩ => rfl
  have hr : ∀ t : Fin 2048, ridx_main_v28 (ix3 n s f) t = ix3 n t f := fun t => funext fun a => by
    match a with
    | ⟨0, _⟩ => rfl
    | ⟨1, _⟩ => rfl
    | ⟨2, _⟩ => rfl
  simp only [hl, hr, attn_stage x0 x1 x2 x3 x4 q k hsc, hv]
  show _ = ((∑ t : Fin 2048, AttnSpec.attn q k n s t * v n t f : ℝ) : EReal)
  rw [coe_sum]
  simp only [EReal.coe_mul]

/-- The output projection is the linear layer applied to the attended values. -/
theorem v32_eq_v3 (x : (⟨S8x2048x1024, .f32⟩ : BufTy).Contents (Elt Ideal))
    (Wq : (⟨S1024x1024, .f32⟩ : BufTy).Contents (Elt Ideal)) (bq : (⟨S1024, .f32⟩ : BufTy).Contents (Elt Ideal))
    (Wk : (⟨S1024x1024, .f32⟩ : BufTy).Contents (Elt Ideal)) (bk : (⟨S1024, .f32⟩ : BufTy).Contents (Elt Ideal))
    (Wv : (⟨S1024x1024, .f32⟩ : BufTy).Contents (Elt Ideal)) (bv : (⟨S1024, .f32⟩ : BufTy).Contents (Elt Ideal))
    (Wo : (⟨S1024x1024, .f32⟩ : BufTy).Contents (Elt Ideal)) (bo : (⟨S1024, .f32⟩ : BufTy).Contents (Elt Ideal)) :
    val_main_v32 (F := Ideal) x Wq bq Wk bk Wv bv Wo bo
      = val_main_v3 (F := Ideal) (val_main_v28 (F := Ideal) x Wq bq Wk bk Wv bv) Wo bo := rfl

/-- THE REFERENCE'S VALUE. At argument arrays holding reals, the program's result at an index is the attention
    formula of those reals: the three projections, the scaled scores, the softmax of each row (its maximum
    subtracted first), the weighted sum of the values, and the output projection, each stage the coerced real
    stage. -/
theorem ref_value (x : (⟨S8x2048x1024, .f32⟩ : BufTy).Contents (Elt Ideal))
    (Wq : (⟨S1024x1024, .f32⟩ : BufTy).Contents (Elt Ideal)) (bq : (⟨S1024, .f32⟩ : BufTy).Contents (Elt Ideal))
    (Wk : (⟨S1024x1024, .f32⟩ : BufTy).Contents (Elt Ideal)) (bk : (⟨S1024, .f32⟩ : BufTy).Contents (Elt Ideal))
    (Wv : (⟨S1024x1024, .f32⟩ : BufTy).Contents (Elt Ideal)) (bv : (⟨S1024, .f32⟩ : BufTy).Contents (Elt Ideal))
    (Wo : (⟨S1024x1024, .f32⟩ : BufTy).Contents (Elt Ideal)) (bo : (⟨S1024, .f32⟩ : BufTy).Contents (Elt Ideal))
    (xr : AttnSpec.Act) (Wqr : AttnSpec.Mat) (bqr : AttnSpec.Bias) (Wkr : AttnSpec.Mat) (bkr : AttnSpec.Bias)
    (Wvr : AttnSpec.Mat) (bvr : AttnSpec.Bias) (Wor : AttnSpec.Mat) (bor : AttnSpec.Bias)
    (hx : ∀ n s e, x (ix3 n s e) = ((xr n s e : ℝ) : EReal))
    (hWq : ∀ e f, Wq (ix2 e f) = ((Wqr e f : ℝ) : EReal)) (hbq : ∀ f, bq (ix1 f) = ((bqr f : ℝ) : EReal))
    (hWk : ∀ e f, Wk (ix2 e f) = ((Wkr e f : ℝ) : EReal)) (hbk : ∀ f, bk (ix1 f) = ((bkr f : ℝ) : EReal))
    (hWv : ∀ e f, Wv (ix2 e f) = ((Wvr e f : ℝ) : EReal)) (hbv : ∀ f, bv (ix1 f) = ((bvr f : ℝ) : EReal))
    (hWo : ∀ e f, Wo (ix2 e f) = ((Wor e f : ℝ) : EReal)) (hbo : ∀ f, bo (ix1 f) = ((bor f : ℝ) : EReal))
    (n : Fin 8) (s : Fin 2048) (g : Fin 1024) :
    val_main_v32 (F := Ideal) x Wq bq Wk bk Wv bv Wo bo (ix3 n s g)
      = ((AttnSpec.out xr Wqr bqr Wkr bkr Wvr bvr Wor bor n s g : ℝ) : EReal) := by
  have hq := proj_stage x Wq bq xr Wqr bqr hx hWq hbq
  have hk : ∀ n s f, val_main_v7 (F := Ideal) x Wk bk (ix3 n s f) = ((AttnSpec.proj xr Wkr bkr n s f : ℝ) : EReal) :=
    fun n s f => (congrFun (v7_eq_v3 x Wk bk) _).trans (proj_stage x Wk bk xr Wkr bkr hx hWk hbk n s f)
  have hv : ∀ n s f, val_main_v11 (F := Ideal) x Wv bv (ix3 n s f) = ((AttnSpec.proj xr Wvr bvr n s f : ℝ) : EReal) :=
    fun n s f => (congrFun (v11_eq_v3 x Wv bv) _).trans (proj_stage x Wv bv xr Wvr bvr hx hWv hbv n s f)
  have hsc := score_stage x Wq bq Wk bk _ _ hq hk
  have hc := ctx_stage x Wq bq Wk bk Wv bv _ _ _ hsc hv
  rw [v32_eq_v3]
  exact proj_stage _ Wo bo _ Wor bor hc hWo hbo n s g

/-- The same, of the result term the reference's run states: from a memory whose argument arrays hold reals, the
    run's result at an index is the attention formula of those reals. -/
theorem ref_value_run (m : (ℓ : Loc nD τ sig) → Buf (Elt Ideal) ℓ) (c : Dev nD)
    (xr : AttnSpec.Act) (Wqr : AttnSpec.Mat) (bqr : AttnSpec.Bias) (Wkr : AttnSpec.Mat) (bkr : AttnSpec.Bias)
    (Wvr : AttnSpec.Mat) (bvr : AttnSpec.Bias) (Wor : AttnSpec.Mat) (bor : AttnSpec.Bias)
    (hx : ∀ n s e, (m ((c.tc : Thread nD τ).loc main_arg0) : (⟨S8x2048x1024, .f32⟩ : BufTy).Contents (Elt Ideal)) (ix3 n s e) = ((xr n s e : ℝ) : EReal))
    (hWq : ∀ e f, (m ((c.tc : Thread nD τ).loc main_arg1) : (⟨S1024x1024, .f32⟩ : BufTy).Contents (Elt Ideal)) (ix2 e f) = ((Wqr e f : ℝ) : EReal))
    (hbq : ∀ f, (m ((c.tc : Thread nD τ).loc main_arg2) : (⟨S1024, .f32⟩ : BufTy).Contents (Elt Ideal)) (ix1 f) = ((bqr f : ℝ) : EReal))
    (hWk : ∀ e f, (m ((c.tc : Thread nD τ).loc main_arg3) : (⟨S1024x1024, .f32⟩ : BufTy).Contents (Elt Ideal)) (ix2 e f) = ((Wkr e f : ℝ) : EReal))
    (hbk : ∀ f, (m ((c.tc : Thread nD τ).loc main_arg4) : (⟨S1024, .f32⟩ : BufTy).Contents (Elt Ideal)) (ix1 f) = ((bkr f : ℝ) : EReal))
    (hWv : ∀ e f, (m ((c.tc : Thread nD τ).loc main_arg5) : (⟨S1024x1024, .f32⟩ : BufTy).Contents (Elt Ideal)) (ix2 e f) = ((Wvr e f : ℝ) : EReal))
    (hbv : ∀ f, (m ((c.tc : Thread nD τ).loc main_arg6) : (⟨S1024, .f32⟩ : BufTy).Contents (Elt Ideal)) (ix1 f) = ((bvr f : ℝ) : EReal))
    (hWo : ∀ e f, (m ((c.tc : Thread nD τ).loc main_arg7) : (⟨S1024x1024, .f32⟩ : BufTy).Contents (Elt Ideal)) (ix2 e f) = ((Wor e f : ℝ) : EReal))
    (hbo : ∀ f, (m ((c.tc : Thread nD τ).loc main_arg8) : (⟨S1024, .f32⟩ : BufTy).Contents (Elt Ideal)) (ix1 f) = ((bor f : ℝ) : EReal))
    (n : Fin 8) (s : Fin 2048) (g : Fin 1024) :
    (Cert.ReferenceIdeal.Value.res_main_v32 (F := Ideal) m c : (⟨S8x2048x1024, .f32⟩ : BufTy).Contents (Elt Ideal)) (ix3 n s g)
      = ((AttnSpec.out xr Wqr bqr Wkr bkr Wvr bvr Wor bor n s g : ℝ) : EReal) := by
  rw [val_main_v32_eq]
  exact ref_value _ _ _ _ _ _ _ _ _ xr Wqr bqr Wkr bkr Wvr bvr Wor bor hx hWq hbq hWk hbk hWv hbv hWo hbo n s g

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.FiniteArgs.lean ====
/-
  From the precondition to real arrays.

  The precondition says, of each of the nine argument arrays, that every entry's absolute value
  is below +∞.  On the extended reals  max x (-x) < ⊤  excludes both infinities, so every entry is
  the coercion of a real number, and each array is the coercion of an array of reals.
-/
import Idealize.ShloMosaic.Lib.ReduceAll
import Idealize.ShloMosaic.Lib.IdealHost
import Idealize.ShloMosaic.Lib.ValueIdx
import Idealize.ShloMosaic.PureOps.Ideal
import proofs.«121031_j31636729102987_2_alg».proof.Pre_finite_inputs
import proofs.«121031_j31636729102987_2_alg».proof.Proof.AttnSpec

noncomputable section

namespace FiniteArgs

open Idealize.ShloMosaic Idealize.ShloMosaic.ValueIdx Cert.Pre_finite_inputs

/-- The scalar shape has one index. -/
instance : Subsingleton S_.Idx := ⟨fun a b => funext fun d => d.elim0⟩

/-- An extended real whose absolute value is below +∞ is neither infinity. -/
theorem elem_finite (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  have hlt : max x (-x) < ⊤ := by
    by_cases hlt : max x (-x) < ⊤
    · exact hlt
    · exfalso; simp [Ideal.cmp, hlt] at h
  rw [max_lt_iff] at hlt
  refine ⟨ne_of_lt hlt.1, ?_⟩
  intro hb
  rw [hb] at hlt
  simp at hlt

/-- If "every |entry| < +∞" holds of an array, each entry is neither infinity. -/
theorem all_finite {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1)
    (i : s.Idx) : (a i : EReal) ≠ ⊤ ∧ (a i : EReal) ≠ ⊥ := by
  have h1 := Host.reduce_andi_all _ _ hr hu ix0 e i
  have h2 : cmpf .olt (Host.absf a) (broadcastInDim s ![] hb (constant (F := Ideal) S_ .f32 0x7F800000#32)) i
      = Ideal.cmp .olt (max (a i : EReal) (-(a i : EReal))) (Ideal.ofBits .f32 0x7F800000#32) := by
    show Ideal.cmp .olt (max (a i : EReal) (-(a i : EReal)))
        (broadcastInDim s ![] hb (constant (F := Ideal) S_ .f32 0x7F800000#32) i) = _
    rw [broadcastInDim_scalar_apply]
    rfl
  rw [h2] at h1
  exact elem_finite _ h1

/-- An activation array of finite entries is the coercion of a real array. -/
theorem real3 (a : FVec Ideal S8x2048x1024 .f32) (hf : ∀ i, (a i : EReal) ≠ ⊤ ∧ (a i : EReal) ≠ ⊥) :
    ∃ xr : AttnSpec.Act, ∀ n s e, a (ix3 n s e) = ((xr n s e : ℝ) : EReal) :=
  ⟨fun n s e => EReal.toReal (a (ix3 n s e)), fun n s e => (EReal.coe_toReal (hf _).1 (hf _).2).symm⟩

/-- A weight matrix of finite entries is the coercion of a real matrix. -/
theorem real2 (a : FVec Ideal S1024x1024 .f32) (hf : ∀ i, (a i : EReal) ≠ ⊤ ∧ (a i : EReal) ≠ ⊥) :
    ∃ Wr : AttnSpec.Mat, ∀ e f, a (ix2 e f) = ((Wr e f : ℝ) : EReal) :=
  ⟨fun e f => EReal.toReal (a (ix2 e f)), fun e f => (EReal.coe_toReal (hf _).1 (hf _).2).symm⟩

/-- A bias vector of finite entries is the coercion of a real vector. -/
theorem real1 (a : FVec Ideal S1024 .f32) (hf : ∀ i, (a i : EReal) ≠ ⊤ ∧ (a i : EReal) ≠ ⊥) :
    ∃ br : AttnSpec.Bias, ∀ f, a (ix1 f) = ((br f : ℝ) : EReal) :=
  ⟨fun f => EReal.toReal (a (ix1 f)), fun f => (EReal.coe_toReal (hf _).1 (hf _).2).symm⟩

variable [Facts]

/-- Under the precondition every entry of every argument array is neither infinity. -/
theorem finite_entries (a0 : FVec Ideal S8x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32) (a7 : FVec Ideal S1024x1024 .f32) (a8 : FVec Ideal S1024 .f32)
    (h : fn (F := Ideal) a0 a1 a2 a3 a4 a5 a6 a7 a8 = (fun _ => 1#1)) :
    (∀ i, (a0 i : EReal) ≠ ⊤ ∧ (a0 i : EReal) ≠ ⊥) ∧ (∀ i, (a1 i : EReal) ≠ ⊤ ∧ (a1 i : EReal) ≠ ⊥)
      ∧ (∀ i, (a2 i : EReal) ≠ ⊤ ∧ (a2 i : EReal) ≠ ⊥) ∧ (∀ i, (a3 i : EReal) ≠ ⊤ ∧ (a3 i : EReal) ≠ ⊥)
      ∧ (∀ i, (a4 i : EReal) ≠ ⊤ ∧ (a4 i : EReal) ≠ ⊥) ∧ (∀ i, (a5 i : EReal) ≠ ⊤ ∧ (a5 i : EReal) ≠ ⊥)
      ∧ (∀ i, (a6 i : EReal) ≠ ⊤ ∧ (a6 i : EReal) ≠ ⊥) ∧ (∀ i, (a7 i : EReal) ≠ ⊤ ∧ (a7 i : EReal) ≠ ⊥)
      ∧ (∀ i, (a8 i : EReal) ≠ ⊤ ∧ (a8 i : EReal) ≠ ⊥) := by
  have h0 := congrFun h ix0
  dsimp only [fn, fn_part1, fn_part2] at h0
  simp only [andi, IntOp.andi_eq_one] at h0
  obtain ⟨⟨⟨⟨⟨⟨⟨⟨r0, r1⟩, r2⟩, r3⟩, r4⟩, r5⟩, r6⟩, r7⟩, r8⟩ := h0
  exact ⟨all_finite a0 _ _ _ r0, all_finite a1 _ _ _ r1, all_finite a2 _ _ _ r2, all_finite a3 _ _ _ r3,
    all_finite a4 _ _ _ r4, all_finite a5 _ _ _ r5, all_finite a6 _ _ _ r6, all_finite a7 _ _ _ r7,
    all_finite a8 _ _ _ r8⟩

/-- Under the precondition each argument array is the coercion of an array of reals. -/
theorem real_args (a0 : FVec Ideal S8x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32) (a7 : FVec Ideal S1024x1024 .f32) (a8 : FVec Ideal S1024 .f32)
    (h : fn (F := Ideal) a0 a1 a2 a3 a4 a5 a6 a7 a8 = (fun _ => 1#1)) :
    (∃ xr : AttnSpec.Act, ∀ n s e, a0 (ix3 n s e) = ((xr n s e : ℝ) : EReal))
      ∧ (∃ Wqr : AttnSpec.Mat, ∀ e f, a1 (ix2 e f) = ((Wqr e f : ℝ) : EReal))
      ∧ (∃ bqr : AttnSpec.Bias, ∀ f, a2 (ix1 f) = ((bqr f : ℝ) : EReal))
      ∧ (∃ Wkr : AttnSpec.Mat, ∀ e f, a3 (ix2 e f) = ((Wkr e f : ℝ) : EReal))
      ∧ (∃ bkr : AttnSpec.Bias, ∀ f, a4 (ix1 f) = ((bkr f : ℝ) : EReal))
      ∧ (∃ Wvr : AttnSpec.Mat, ∀ e f, a5 (ix2 e f) = ((Wvr e f : ℝ) : EReal))
      ∧ (∃ bvr : AttnSpec.Bias, ∀ f, a6 (ix1 f) = ((bvr f : ℝ) : EReal))
      ∧ (∃ Wor : AttnSpec.Mat, ∀ e f, a7 (ix2 e f) = ((Wor e f : ℝ) : EReal))
      ∧ (∃ bor : AttnSpec.Bias, ∀ f, a8 (ix1 f) = ((bor f : ℝ) : EReal)) := by
  obtain ⟨f0, f1, f2, f3, f4, f5, f6, f7, f8⟩ := finite_entries a0 a1 a2 a3 a4 a5 a6 a7 a8 h
  exact ⟨real3 a0 f0, real2 a1 f1, real1 a2 f2, real2 a3 f3, real1 a4 f4, real2 a5 f5, real1 a6 f6,
    real2 a7 f7, real1 a8 f8⟩

end FiniteArgs

end
-- ==== Proof.lean ====
/-
  Scaled dot-product attention over the whole embedding, computed two ways.

  For x : 8 × 2048 × 1024, square weights Wq Wk Wv Wo and biases bq bk bv bo, both programs compute

      out = softmax((x·Wq + bq)(x·Wk + bk)ᵀ / 32) · (x·Wv + bv) · Wo + bo          (32 = √1024)

  over the extended reals. The reference does it with whole-array operations. The kernel does it in three gridded
  regions: the three projections of the flattened activations, row tile by row tile; attention, for each batch and
  query tile folding the two key tiles one after the other into a running row maximum, normaliser and weighted sum
  and dividing at the second; the output projection, row tile by row tile. A change of float format is the identity
  on the extended reals, the kernel's literal 2⁻⁵ is the reference's 1/√1024, and the two-tile fold is the one-pass
  softmax whenever every score is a real number — which is where the precondition (every input finite) is used: sums
  and products of reals are real, the row normaliser is positive, and rescaling by exp(m₁ − m₂) distributes over the
  first tile's sums.

  The frames: every region's body runs on whole staging buffers; between regions the unscoped buffers are tracked as a
  fold from the launch memory, so every argument array is read back unchanged at the end, at either float instance.
-/
import proofs.«121031_j31636729102987_2_alg».proof.Defs
import proofs.«121031_j31636729102987_2_alg».proof.Proof.Gen.Kernel
import proofs.«121031_j31636729102987_2_alg».proof.Proof.Gen.KernelIdeal
import proofs.«121031_j31636729102987_2_alg».proof.Proof.Gen.ReferenceIdeal
import proofs.«121031_j31636729102987_2_alg».proof.Proof.Gen.Pre_finite_inputs
import proofs.«121031_j31636729102987_2_alg».proof.Proof.KFrRun
import proofs.«121031_j31636729102987_2_alg».proof.Proof.FrRun
import proofs.«121031_j31636729102987_2_alg».proof.Proof.ValRun
import proofs.«121031_j31636729102987_2_alg».proof.Proof.RefValue
import proofs.«121031_j31636729102987_2_alg».proof.Proof.FiniteArgs

noncomputable section

namespace Cert.Proof

open Idealize.ShloMosaic Idealize.ShloMosaic.TcCoe Idealize.ShloMosaic.ValueIdx Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => Cert.Kernel.Fr.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- On finite inputs the idealized kernel and the idealized reference end with the same result array: both hold the
    attention formula at the arguments' real values, index by index. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.KernelIdeal.Fr.W7 m ρ c (Proc.devRef .tc Cert.KernelIdeal.main_v12), ?_, ?_⟩
  · exact (θ_run Cert.KernelIdeal.defs _ _).mono (fun r h c => ⟨h c _ (Cert.KernelIdeal.Fr.mem_uc Cert.KernelIdeal.main_v12 (by decide)),
        (h c _ (Cert.KernelIdeal.Fr.mem_uc Cert.KernelIdeal.main_arg0 (by decide))).trans (Cert.KernelIdeal.Fr.W7_launch m ρ c Cert.KernelIdeal.main_arg0 (by decide)),
        (h c _ (Cert.KernelIdeal.Fr.mem_uc Cert.KernelIdeal.main_arg1 (by decide))).trans (Cert.KernelIdeal.Fr.W7_launch m ρ c Cert.KernelIdeal.main_arg1 (by decide)),
        (h c _ (Cert.KernelIdeal.Fr.mem_uc Cert.KernelIdeal.main_arg2 (by decide))).trans (Cert.KernelIdeal.Fr.W7_launch m ρ c Cert.KernelIdeal.main_arg2 (by decide)),
        (h c _ (Cert.KernelIdeal.Fr.mem_uc Cert.KernelIdeal.main_arg3 (by decide))).trans (Cert.KernelIdeal.Fr.W7_launch m ρ c Cert.KernelIdeal.main_arg3 (by decide)),
        (h c _ (Cert.KernelIdeal.Fr.mem_uc Cert.KernelIdeal.main_arg4 (by decide))).trans (Cert.KernelIdeal.Fr.W7_launch m ρ c Cert.KernelIdeal.main_arg4 (by decide)),
        (h c _ (Cert.KernelIdeal.Fr.mem_uc Cert.KernelIdeal.main_arg5 (by decide))).trans (Cert.KernelIdeal.Fr.W7_launch m ρ c Cert.KernelIdeal.main_arg5 (by decide)),
        (h c _ (Cert.KernelIdeal.Fr.mem_uc Cert.KernelIdeal.main_arg6 (by decide))).trans (Cert.KernelIdeal.Fr.W7_launch m ρ c Cert.KernelIdeal.main_arg6 (by decide)),
        (h c _ (Cert.KernelIdeal.Fr.mem_uc Cert.KernelIdeal.main_arg7 (by decide))).trans (Cert.KernelIdeal.Fr.W7_launch m ρ c Cert.KernelIdeal.main_arg7 (by decide)),
        (h c _ (Cert.KernelIdeal.Fr.mem_uc Cert.KernelIdeal.main_arg8 (by decide))).trans (Cert.KernelIdeal.Fr.W7_launch m ρ c Cert.KernelIdeal.main_arg8 (by decide))⟩) (Cert.KernelIdeal.Fr.main_vals (F := Ideal) m ρ)
  · refine (θ_run Cert.ReferenceIdeal.defs _ _).mono (fun r h c => ⟨(h c).1.trans ?_, (h c).2⟩) (Cert.ReferenceIdeal.Value.run (F := Ideal) m' ρ')
    obtain ⟨⟨xr, hx⟩, ⟨Wqr, hWq⟩, ⟨bqr, hbq⟩, ⟨Wkr, hWk⟩, ⟨bkr, hbk⟩, ⟨Wvr, hWv⟩, ⟨bvr, hbv⟩, ⟨Wor, hWo⟩, ⟨bor, hbo⟩⟩ :=
      FiniteArgs.real_args _ _ _ _ _ _ _ _ _ (hpre c)
    funext i
    rw [eq_ix3 i]
    refine (Cert.ReferenceIdeal.RefValue.ref_value_run m' c xr Wqr bqr Wkr bkr Wvr bvr Wor bor
        (by intro n s e; rw [(hagree c).1]; exact hx n s e)
        (by intro e f; rw [(hagree c).2.1]; exact hWq e f)
        (by intro f; rw [(hagree c).2.2.1]; exact hbq f)
        (by intro e f; rw [(hagree c).2.2.2.1]; exact hWk e f)
        (by intro f; rw [(hagree c).2.2.2.2.1]; exact hbk f)
        (by intro e f; rw [(hagree c).2.2.2.2.2.1]; exact hWv e f)
        (by intro f; rw [(hagree c).2.2.2.2.2.2.1]; exact hbv f)
        (by intro e f; rw [(hagree c).2.2.2.2.2.2.2.1]; exact hWo e f)
        (by intro f; rw [(hagree c).2.2.2.2.2.2.2.2]; exact hbo f)
        (i 0) (i 1) (i 2)).trans ?_
    exact (Cert.KernelIdeal.Val.result_val ρ ⟨hx, hWq, hbq, hWk, hbk, hWv, hbv, hWo, hbo⟩ (i 0) (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
